-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S64x64 .f32) (main_arg14 : FVec F S64 .f32) (main_arg15 : FVec F S64x1 .f32) (main_arg16 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg15
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg16 main_v63 main_v67

def fn_part2 {F : FTy → Type} [FloatOps F] (main_arg9 : FVec F S128x64 .f32) (main_arg10 : FVec F S64 .f32) (main_arg11 : FVec F S64x64 .f32) (main_arg12 : FVec F S64 .f32) (main_arg13 : FVec F S64x64 .f32) (main_arg14 : FVec F S64 .f32) (main_arg15 : FVec F S64x1 .f32) (main_arg16 : FVec F S1 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_arg11 : FVec F S64x64 .f32) (main_arg12 : FVec F S64 .f32) (main_arg13 : FVec F S64x64 .f32) (main_arg14 : FVec F S64 .f32) (main_arg15 : FVec F S64x1 .f32) (main_arg16 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S40000x128 .f32) (main_arg1 : IVec S640000 32) (main_arg2 : IVec S640000 32) (main_arg3 : FVec F S128x64 .f32) (main_arg4 : FVec F S64 .f32) (main_arg5 : FVec F S64x128 .f32) (main_arg6 : FVec F S128 .f32) (main_arg7 : FVec F S128x128 .f32) (main_arg8 : FVec F S128 .f32) (main_arg9 : FVec F S128x64 .f32) (main_arg10 : FVec F S64 .f32) (main_arg11 : FVec F S64x64 .f32) (main_arg12 : FVec F S64 .f32) (main_arg13 : FVec F S64x64 .f32) (main_arg14 : FVec F S64 .f32) (main_arg15 : FVec F S64x1 .f32) (main_arg16 : FVec F S1 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S40000x128 : Shape := ⟨2, ![40000, 128]⟩
abbrev S640000 : Shape := ⟨1, ![640000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S64x64 : Shape := ⟨2, ![64, 64]⟩
abbrev S64x1 : Shape := ⟨2, ![64, 1]⟩
abbrev S1 : Shape := ⟨1, ![1]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S40000x64 : Shape := ⟨2, ![40000, 64]⟩
abbrev S4000x128 : Shape := ⟨2, ![4000, 128]⟩
abbrev S4000x1 : Shape := ⟨2, ![4000, 1]⟩
abbrev S4000x64 : Shape := ⟨2, ![4000, 64]⟩
abbrev S640000x64 : Shape := ⟨2, ![640000, 64]⟩
abbrev S1x64 : Shape := ⟨2, ![1, 64]⟩
abbrev S1x128 : Shape := ⟨2, ![1, 128]⟩
abbrev S640000x128 : Shape := ⟨2, ![640000, 128]⟩
abbrev S1x1 : Shape := ⟨2, ![1, 1]⟩

abbrev nBuf : Space → Nat
  | .hbm => 163
  | .vmem => 98
  | .smem => 0
  | _ => 0

abbrev hbmTy0_0 (i : Nat) : BufTy := match i % 128 with
  | 0 => ⟨S40000x128, .f32⟩
  | 1 => ⟨S640000, .i32⟩
  | 2 => ⟨S640000, .i32⟩
  | 3 => ⟨S128x64, .f32⟩
  | 4 => ⟨S64, .f32⟩
  | 5 => ⟨S64x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x1, .f32⟩
  | 16 => ⟨S1, .f32⟩
  | 17 => ⟨S_, .f32⟩
  | 18 => ⟨S640000, .f32⟩
  | 19 => ⟨S_, .f32⟩
  | 20 => ⟨S40000, .f32⟩
  | 21 => ⟨S640000x1, .i32⟩
  | 22 => ⟨S40000, .f32⟩
  | 23 => ⟨S_, .f32⟩
  | 24 => ⟨S40000, .f32⟩
  | 25 => ⟨S640000x1, .i32⟩
  | 26 => ⟨S40000, .f32⟩
  | 27 => ⟨S_, .f32⟩
  | 28 => ⟨S40000, .f32⟩
  | 29 => ⟨S40000, .i1⟩
  | 30 => ⟨S_, .f32⟩
  | 31 => ⟨S40000, .f32⟩
  | 32 => ⟨S40000, .f32⟩
  | 33 => ⟨S40000, .f32⟩
  | 34 => ⟨S_, .f32⟩
  | 35 => ⟨S_, .f32⟩
  | 36 => ⟨S40000, .f32⟩
  | 37 => ⟨S40000, .f32⟩
  | 38 => ⟨S_, .f32⟩
  | 39 => ⟨S40000, .f32⟩
  | 40 => ⟨S40000, .i1⟩
  | 41 => ⟨S_, .f32⟩
  | 42 => ⟨S40000, .f32⟩
  | 43 => ⟨S40000, .f32⟩
  | 44 => ⟨S40000, .f32⟩
  | 45 => ⟨S_, .f32⟩
  | 46 => ⟨S_, .f32⟩
  | 47 => ⟨S40000, .f32⟩
  | 48 => ⟨S40000, .f32⟩
  | 49 => ⟨S40000x1, .f32⟩
  | 50 => ⟨S40000x1, .f32⟩
  | 51 => ⟨S40000x64, .f32⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S640000x64, .f32⟩
  | 61 => ⟨S_, .f32⟩
  | 62 => ⟨S40000x64, .f32⟩
  | 63 => ⟨S640000x1, .i32⟩
  | 64 => ⟨S40000x64, .f32⟩
  | 65 => ⟨S1x64, .f32⟩
  | 66 => ⟨S40000x64, .f32⟩
  | 67 => ⟨S40000x64, .f32⟩
  | 68 => ⟨S_, .i32⟩
  | 69 => ⟨S640000, .i32⟩
  | 70 => ⟨S640000, .i1⟩
  | 71 => ⟨S_, .i32⟩
  | 72 => ⟨S640000, .i32⟩
  | 73 => ⟨S640000, .i32⟩
  | 74 => ⟨S640000, .i32⟩
  | 75 => ⟨S640000x1, .i32⟩
  | 76 => ⟨S640000x64, .f32⟩
  | 77 => ⟨S_, .f32⟩
  | 78 => ⟨S40000x64, .f32⟩
  | 79 => ⟨S640000x1, .i32⟩
  | 80 => ⟨S40000x64, .f32⟩
  | 81 => ⟨S1x128, .f32⟩
  | 82 => ⟨S40000x128, .f32⟩
  | 83 => ⟨S40000x128, .f32⟩
  | 84 => ⟨S_, .i32⟩
  | 85 => ⟨S640000, .i32⟩
  | 86 => ⟨S640000, .i1⟩
  | 87 => ⟨S_, .i32⟩
  | 88 => ⟨S640000, .i32⟩
  | 89 => ⟨S640000, .i32⟩
  | 90 => ⟨S640000, .i32⟩
  | 91 => ⟨S640000x1, .i32⟩
  | 92 => ⟨S640000x128, .f32⟩
  | 93 => ⟨S_, .f32⟩
  | 94 => ⟨S40000x128, .f32⟩
  | 95 => ⟨S640000x1, .i32⟩
  | 96 => ⟨S40000x128, .f32⟩
  | 97 => ⟨S1x128, .f32⟩
  | 98 => ⟨S40000x128, .f32⟩
  | 99 => ⟨S40000x64, .f32⟩
  | 100 => ⟨S_, .i32⟩
  | 101 => ⟨S640000, .i32⟩
  | 102 => ⟨S640000, .i1⟩
  | 103 => ⟨S_, .i32⟩
  | 104 => ⟨S640000, .i32⟩
  | 105 => ⟨S640000, .i32⟩
  | 106 => ⟨S640000, .i32⟩
  | 107 => ⟨S640000x1, .i32⟩
  | 108 => ⟨S640000x64, .f32⟩
  | 109 => ⟨S_, .f32⟩
  | 110 => ⟨S40000x64, .f32⟩
  | 111 => ⟨S640000x1, .i32⟩
  | 112 => ⟨S40000x64, .f32⟩
  | 113 => ⟨S1x64, .f32⟩
  | 114 => ⟨S40000x64, .f32⟩
  | 115 => ⟨S40000x64, .f32⟩
  | 116 => ⟨S_, .i32⟩
  | 117 => ⟨S640000, .i32⟩
  | 118 => ⟨S640000, .i1⟩
  | 119 => ⟨S_, .i32⟩
  | 120 => ⟨S640000, .i32⟩
  | 121 => ⟨S640000, .i32⟩
  | 122 => ⟨S640000, .i32⟩
  | 123 => ⟨S640000x1, .i32⟩
  | 124 => ⟨S640000x64, .f32⟩
  | 125 => ⟨S_, .f32⟩
  | 126 => ⟨S40000x64, .f32⟩
  | 127 => ⟨S640000x1, .i32⟩
  | _ => ⟨S40000x128, .f32⟩

abbrev hbmTy0_1 (i : Nat) : BufTy := match i % 128 with
  | 0 => ⟨S40000x64, .f32⟩
  | 1 => ⟨S1x64, .f32⟩
  | 2 => ⟨S40000x64, .f32⟩
  | 3 => ⟨S40000x64, .f32⟩
  | 4 => ⟨S_, .i32⟩
  | 5 => ⟨S640000, .i32⟩
  | 6 => ⟨S640000, .i1⟩
  | 7 => ⟨S_, .i32⟩
  | 8 => ⟨S640000, .i32⟩
  | 9 => ⟨S640000, .i32⟩
  | 10 => ⟨S640000, .i32⟩
  | 11 => ⟨S640000x1, .i32⟩
  | 12 => ⟨S640000x64, .f32⟩
  | 13 => ⟨S_, .f32⟩
  | 14 => ⟨S40000x64, .f32⟩
  | 15 => ⟨S640000x1, .i32⟩
  | 16 => ⟨S40000x64, .f32⟩
  | 17 => ⟨S1x64, .f32⟩
  | 18 => ⟨S40000x64, .f32⟩
  | 19 => ⟨S40000x1, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x1, .f32⟩
  | 29 => ⟨S_, .f32⟩
  | 30 => ⟨S40000x1, .f32⟩
  | 31 => ⟨S640000x1, .i32⟩
  | 32 => ⟨S40000x1, .f32⟩
  | 33 => ⟨S1x1, .f32⟩
  | 34 => ⟨S40000x1, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x1, .f32⟩
  | .local _ .vmem, ⟨4, _⟩ => ⟨S4000x1, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x1, .f32⟩
  | .local _ .vmem, ⟨17, _⟩ => ⟨S4000x1, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S64x128, .f32⟩
  | .local _ .vmem, ⟨23, _⟩ => ⟨S4000x1, .f32⟩
  | .local _ .vmem, ⟨24, _⟩ => ⟨S4000x1, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x1, .f32⟩
  | .local _ .vmem, ⟨31, _⟩ => ⟨S4000x1, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S128x128, .f32⟩
  | .local _ .vmem, ⟨37, _⟩ => ⟨S4000x1, .f32⟩
  | .local _ .vmem, ⟨38, _⟩ => ⟨S4000x1, .f32⟩
  | .local _ .vmem, ⟨39, _⟩ => ⟨S1x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S128x64, .f32⟩
  | .local _ .vmem, ⟨45, _⟩ => ⟨S4000x1, .f32⟩
  | .local _ .vmem, ⟨46, _⟩ => ⟨S4000x1, .f32⟩
  | .local _ .vmem, ⟨47, _⟩ => ⟨S4000x64, .f32⟩
  | .local _ .vmem, ⟨48, _⟩ => ⟨S4000x64, .f32⟩
  | .local _ .vmem, ⟨49, _⟩ => ⟨S4000x64, .f32⟩
  | .local _ .vmem, ⟨50, _⟩ => ⟨S4000x64, .f32⟩
  | .local _ .vmem, ⟨51, _⟩ => ⟨S4000x1, .f32⟩
  | .local _ .vmem, ⟨52, _⟩ => ⟨S4000x1, .f32⟩
  | .local _ .vmem, ⟨53, _⟩ => ⟨S1x64, .f32⟩
  | .local _ .vmem, ⟨54, _⟩ => ⟨S4000x64, .f32⟩
  | .local _ .vmem, ⟨55, _⟩ => ⟨S4000x64, .f32⟩
  | .local _ .vmem, ⟨56, _⟩ => ⟨S4000x64, .f32⟩
  | .local _ .vmem, ⟨57, _⟩ => ⟨S4000x64, .f32⟩
  | .local _ .vmem, ⟨58, _⟩ => ⟨S4000x1, .f32⟩
  | .local _ .vmem, ⟨59, _⟩ => ⟨S4000x1, .f32⟩
  | .local _ .vmem, ⟨60, _⟩ => ⟨S4000x64, .f32⟩
  | .local _ .vmem, ⟨61, _⟩ => ⟨S4000x64, .f32⟩
  | .local _ .vmem, ⟨62, _⟩ => ⟨S4000x64, .f32⟩
  | .local _ .vmem, ⟨63, _⟩ => ⟨S4000x64, .f32⟩
  | .local _ .vmem, ⟨64, _⟩ => ⟨S64x64, .f32⟩
  | .local _ .vmem, ⟨65, _⟩ => ⟨S4000x1, .f32⟩
  | .local _ .vmem, ⟨66, _⟩ => ⟨S4000x1, .f32⟩
  | .local _ .vmem, ⟨67, _⟩ => ⟨S1x64, .f32⟩
  | .local _ .vmem, ⟨68, _⟩ => ⟨S4000x64, .f32⟩
  | .local _ .vmem, ⟨69, _⟩ => ⟨S4000x64, .f32⟩
  | .local _ .vmem, ⟨70, _⟩ => ⟨S4000x64, .f32⟩
  | .local _ .vmem, ⟨71, _⟩ => ⟨S4000x64, .f32⟩
  | .local _ .vmem, ⟨72, _⟩ => ⟨S4000x1, .f32⟩
  | .local _ .vmem, ⟨73, _⟩ => ⟨S4000x1, .f32⟩
  | .local _ .vmem, ⟨74, _⟩ => ⟨S4000x64, .f32⟩
  | .local _ .vmem, ⟨75, _⟩ => ⟨S4000x64, .f32⟩
  | .local _ .vmem, ⟨76, _⟩ => ⟨S4000x64, .f32⟩
  | .local _ .vmem, ⟨77, _⟩ => ⟨S4000x64, .f32⟩
  | .local _ .vmem, ⟨78, _⟩ => ⟨S64x64, .f32⟩
  | .local _ .vmem, ⟨79, _⟩ => ⟨S4000x1, .f32⟩
  | .local _ .vmem, ⟨80, _⟩ => ⟨S4000x1, .f32⟩
  | .local _ .vmem, ⟨81, _⟩ => ⟨S1x64, .f32⟩
  | .local _ .vmem, ⟨82, _⟩ => ⟨S4000x64, .f32⟩
  | .local _ .vmem, ⟨83, _⟩ => ⟨S4000x64, .f32⟩
  | .local _ .vmem, ⟨84, _⟩ => ⟨S4000x64, .f32⟩
  | .local _ .vmem, ⟨85, _⟩ => ⟨S4000x64, .f32⟩
  | .local _ .vmem, ⟨86, _⟩ => ⟨S64x1, .f32⟩
  | .local _ .vmem, ⟨87, _⟩ => ⟨S4000x1, .f32⟩
  | .local _ .vmem, ⟨88, _⟩ => ⟨S4000x1, .f32⟩
  | .local _ .vmem, ⟨89, _⟩ => ⟨S4000x1, .f32⟩
  | .local _ .vmem, ⟨90, _⟩ => ⟨S4000x1, .f32⟩
  | .local _ .vmem, ⟨91, _⟩ => ⟨S4000x1, .f32⟩
  | .local _ .vmem, ⟨92, _⟩ => ⟨S4000x1, .f32⟩
  | .local _ .vmem, ⟨93, _⟩ => ⟨S4000x1, .f32⟩
  | .local _ .vmem, ⟨94, _⟩ => ⟨S4000x1, .f32⟩
  | .local _ .vmem, ⟨95, _⟩ => ⟨S1x1, .f32⟩
  | .local _ .vmem, ⟨96, _⟩ => ⟨S4000x1, .f32⟩
  | .local _ .vmem, ⟨97, _⟩ => ⟨S4000x1, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_cst_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v12 : Ref sig .tc := ⟨.hbm, 37, rfl⟩
abbrev main_cst_5 : Ref sig .tc := ⟨.hbm, 38, rfl⟩
abbrev main_v13 : Ref sig .tc := ⟨.hbm, 39, rfl⟩
abbrev main_v14 : Ref sig .tc := ⟨.hbm, 40, rfl⟩
abbrev main_cst_6 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c : Ref sig .tc := ⟨.hbm, 52, rfl⟩
abbrev main_v22 : Ref sig .tc := ⟨.hbm, 53, rfl⟩
abbrev main_v23 : Ref sig .tc := ⟨.hbm, 54, rfl⟩
abbrev main_c_8 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_9 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c_10 : Ref sig .tc := ⟨.hbm, 68, rfl⟩
abbrev main_v35 : Ref sig .tc := ⟨.hbm, 69, rfl⟩
abbrev main_v36 : Ref sig .tc := ⟨.hbm, 70, rfl⟩
abbrev main_c_11 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_12 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_13 : Ref sig .tc := ⟨.hbm, 84, rfl⟩
abbrev main_v48 : Ref sig .tc := ⟨.hbm, 85, rfl⟩
abbrev main_v49 : Ref sig .tc := ⟨.hbm, 86, rfl⟩
abbrev main_c_14 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_15 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_16 : Ref sig .tc := ⟨.hbm, 100, rfl⟩
abbrev main_v61 : Ref sig .tc := ⟨.hbm, 101, rfl⟩
abbrev main_v62 : Ref sig .tc := ⟨.hbm, 102, rfl⟩
abbrev main_c_17 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_18 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_19 : Ref sig .tc := ⟨.hbm, 116, rfl⟩
abbrev main_v74 : Ref sig .tc := ⟨.hbm, 117, rfl⟩
abbrev main_v75 : Ref sig .tc := ⟨.hbm, 118, rfl⟩
abbrev main_c_20 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_21 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_22 : Ref sig .tc := ⟨.hbm, 132, rfl⟩
abbrev main_v87 : Ref sig .tc := ⟨.hbm, 133, rfl⟩
abbrev main_v88 : Ref sig .tc := ⟨.hbm, 134, rfl⟩
abbrev main_c_23 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_24 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_c_25 : Ref sig .tc := ⟨.hbm, 148, rfl⟩
abbrev main_v100 : Ref sig .tc := ⟨.hbm, 149, rfl⟩
abbrev main_v101 : Ref sig .tc := ⟨.hbm, 150, rfl⟩
abbrev main_c_26 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_27 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg2_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg2_0 : Ref sig .tc := ⟨.vmem, 65, rfl⟩
abbrev cc9_stg2_1 : Ref sig .tc := ⟨.vmem, 66, rfl⟩
abbrev cc9_stg3_0 : Ref sig .tc := ⟨.vmem, 67, rfl⟩
abbrev cc9_stg4_0 : Ref sig .tc := ⟨.vmem, 68, rfl⟩
abbrev cc9_stg4_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg1_1 : Ref sig .tc := ⟨.vmem, 73, rfl⟩
abbrev cc10_stg2_0 : Ref sig .tc := ⟨.vmem, 74, rfl⟩
abbrev cc10_stg2_1 : Ref sig .tc := ⟨.vmem, 75, rfl⟩
abbrev cc11_stg0_0 : Ref sig .tc := ⟨.vmem, 76, rfl⟩
abbrev cc11_stg0_1 : Ref sig .tc := ⟨.vmem, 77, rfl⟩
abbrev cc11_stg1_0 : Ref sig .tc := ⟨.vmem, 78, rfl⟩
abbrev cc11_stg2_0 : Ref sig .tc := ⟨.vmem, 79, rfl⟩
abbrev cc11_stg2_1 : Ref sig .tc := ⟨.vmem, 80, rfl⟩
abbrev cc11_stg3_0 : Ref sig .tc := ⟨.vmem, 81, rfl⟩
abbrev cc11_stg4_0 : Ref sig .tc := ⟨.vmem, 82, rfl⟩
abbrev cc11_stg4_1 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg2_0 : Ref sig .tc := ⟨.vmem, 87, rfl⟩
abbrev cc12_stg2_1 : Ref sig .tc := ⟨.vmem, 88, rfl⟩
abbrev cc12_stg3_0 : Ref sig .tc := ⟨.vmem, 89, rfl⟩
abbrev cc12_stg3_1 : Ref sig .tc := ⟨.vmem, 90, rfl⟩
abbrev cc13_stg0_0 : Ref sig .tc := ⟨.vmem, 91, rfl⟩
abbrev cc13_stg0_1 : Ref sig .tc := ⟨.vmem, 92, rfl⟩
abbrev cc13_stg1_0 : Ref sig .tc := ⟨.vmem, 93, rfl⟩
abbrev cc13_stg1_1 : Ref sig .tc := ⟨.vmem, 94, rfl⟩
abbrev cc13_stg2_0 : Ref sig .tc := ⟨.vmem, 95, rfl⟩
abbrev cc13_stg3_0 : Ref sig .tc := ⟨.vmem, 96, rfl⟩
abbrev cc13_stg3_1 : Ref sig .tc := ⟨.vmem, 97, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem2_1 : DmaSem sig := 61
abbrev cc9_sem0_0 : DmaSem sig := 62
abbrev cc9_sem0_1 : DmaSem sig := 63
abbrev cc9_sem1_0 : DmaSem sig := 64
abbrev cc9_sem2_0 : DmaSem sig := 65
abbrev cc9_sem2_1 : DmaSem sig := 66
abbrev cc9_sem3_0 : DmaSem sig := 67
abbrev cc9_sem4_0 : DmaSem sig := 68
abbrev cc9_sem4_1 : DmaSem sig := 69
abbrev cc10_sem0_0 : DmaSem sig := 70
abbrev cc10_sem0_1 : DmaSem sig := 71
abbrev cc10_sem1_0 : DmaSem sig := 72
abbrev cc10_sem1_1 : DmaSem sig := 73
abbrev cc10_sem2_0 : DmaSem sig := 74
abbrev cc10_sem2_1 : DmaSem sig := 75
abbrev cc11_sem0_0 : DmaSem sig := 76
abbrev cc11_sem0_1 : DmaSem sig := 77
abbrev cc11_sem1_0 : DmaSem sig := 78
abbrev cc11_sem2_0 : DmaSem sig := 79
abbrev cc11_sem2_1 : DmaSem sig := 80
abbrev cc11_sem3_0 : DmaSem sig := 81
abbrev cc11_sem4_0 : DmaSem sig := 82
abbrev cc11_sem4_1 : DmaSem sig := 83
abbrev cc12_sem0_0 : DmaSem sig := 84
abbrev cc12_sem0_1 : DmaSem sig := 85
abbrev cc12_sem1_0 : DmaSem sig := 86
abbrev cc12_sem2_0 : DmaSem sig := 87
abbrev cc12_sem2_1 : DmaSem sig := 88
abbrev cc12_sem3_0 : DmaSem sig := 89
abbrev cc12_sem3_1 : DmaSem sig := 90
abbrev cc13_sem0_0 : DmaSem sig := 91
abbrev cc13_sem0_1 : DmaSem sig := 92
abbrev cc13_sem1_0 : DmaSem sig := 93
abbrev cc13_sem1_1 : DmaSem sig := 94
abbrev cc13_sem2_0 : DmaSem sig := 95
abbrev cc13_sem3_0 : DmaSem sig := 96
abbrev cc13_sem3_1 : DmaSem sig := 97

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S4000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S4000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S4000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S4000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S4000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S4000x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S4000x64 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x1 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S4000x1 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S4000x1 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4000x1 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S4000x1 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x1 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S4000x1 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  shapeCasts_S40000_S40000x1 : S40000.ShapeCasts S40000x1
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S_S40000x64 : S_.BroadcastsInDim S40000x64 (![] : Fin 0 → Fin S40000x64.rank)
  shapeCasts_S64_S1x64 : S64.ShapeCasts S1x64
  shapeCasts_S4000x64_S4000x64 : S4000x64.ShapeCasts S4000x64
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S4000x128_S4000x128 : S4000x128.ShapeCasts S4000x128
  bcast_S_S40000x128 : S_.BroadcastsInDim S40000x128 (![] : Fin 0 → Fin S40000x128.rank)
  inb_S128x128_S128x128_0_0 : ∀ a, (![0, 0] : Fin 2 → Nat) a + S128x128.size a ≤ S128x128.size a
  h_S128x128 : 0 < S128x128.numel
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  bcast_S_S40000x1 : S_.BroadcastsInDim S40000x1 (![] : Fin 0 → Fin S40000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S40000_S640000x1_S640000_n_0_0_1_wf : ScatterDims.WF S40000 S640000x1 S640000 [] [0] [0] 1
  dot_S4000x128_S128x64_S4000x64_1_0_0_1_n_n_wf : DotDims.WF S4000x128 S128x64 S4000x64 [1] [0] [0] [1] [] []
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1
  dot_S4000x64_S64x128_S4000x128_1_0_0_1_n_n_wf : DotDims.WF S4000x64 S64x128 S4000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  dot_S4000x64_S64x64_S4000x64_1_0_0_1_n_n_wf : DotDims.WF S4000x64 S64x64 S4000x64 [1] [0] [0] [1] [] []
  dot_S4000x64_S64x1_S4000x1_1_0_0_1_n_n_wf : DotDims.WF S4000x64 S64x1 S4000x1 [1] [0] [0] [1] [] []
  gather_S40000x1_S640000x1_S640000x1_1_0_n_n_0_1_11_wf : GatherDims.WF S40000x1 S640000x1 S640000x1 [1] [0] [] [0] [] 1 ![1, 1]
  scatter_S40000x1_S640000x1_S640000x1_1_0_0_1_wf : ScatterDims.WF S40000x1 S640000x1 S640000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S40000x1.size a
  hwx0_2 : ∀ i : grid0.Coords, EltTy.bits .f32 = 32 ∨ (Rect.block (s := S40000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S40000x64.size a
  hwx0_3 : ∀ i : grid0.Coords, EltTy.bits .f32 = 32 ∨ (Rect.block (s := S40000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S40000x64.size a
  hwx1_0 : ∀ i : grid1.Coords, EltTy.bits .f32 = 32 ∨ (Rect.block (s := S40000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S40000x1.size a
  hwx1_1 : ∀ i : grid1.Coords, EltTy.bits .f32 = 32 ∨ (Rect.block (s := S40000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S40000x64.size a
  hwx1_3 : ∀ i : grid1.Coords, EltTy.bits .f32 = 32 ∨ (Rect.block (s := S40000x64) S4000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S40000x64.size a
  hwx2_0 : ∀ i : grid2.Coords, EltTy.bits .f32 = 32 ∨ (Rect.block (s := S40000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S40000x1.size a
  hwx2_1 : ∀ i : grid2.Coords, EltTy.bits .f32 = 32 ∨ (Rect.block (s := S40000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S40000x64.size a
  hwx2_2 : ∀ i : grid2.Coords, EltTy.bits .f32 = 32 ∨ (Rect.block (s := S40000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S40000x64.size a
  hwx3_0 : ∀ i : grid3.Coords, EltTy.bits .f32 = 32 ∨ (Rect.block (s := S40000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S40000x1.size a
  hwx3_2 : ∀ i : grid3.Coords, EltTy.bits .f32 = 32 ∨ (Rect.block (s := S40000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S40000x128.size a
  hwx3_4 : ∀ i : grid3.Coords, EltTy.bits .f32 = 32 ∨ (Rect.block (s := S40000x128) S4000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S40000x128.size a
  hwx4_0 : ∀ i : grid4.Coords, EltTy.bits .f32 = 32 ∨ (Rect.block (s := S40000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S40000x1.size a
  hwx4_1 : ∀ i : grid4.Coords, EltTy.bits .f32 = 32 ∨ (Rect.block (s := S40000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S40000x128.size a
  hwx4_2 : ∀ i : grid4.Coords, EltTy.bits .f32 = 32 ∨ (Rect.block (s := S40000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S40000x128.size a
  hwx5_0 : ∀ i : grid5.Coords, EltTy.bits .f32 = 32 ∨ (Rect.block (s := S40000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S40000x1.size a
  hwx5_2 : ∀ i : grid5.Coords, EltTy.bits .f32 = 32 ∨ (Rect.block (s := S40000x1) S4000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x128.size a ≤ S40000x128.size a
  hwx5_4 : ∀ i : grid5.Coords, EltTy.bits .f32 = 32 ∨ (Rect.block (s := S40000x128) S4000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S40000x128.size a
  hwx6_0 : ∀ i : grid6.Coords, EltTy.bits .f32 = 32 ∨ (Rect.block (s := S40000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x1.size a ≤ S40000x1.size a
  hwx6_2 : ∀ i : grid6.Coords, EltTy.bits .f32 = 32 ∨ (Rect.block (s := S40000x1) S4000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x64.size a ≤ S40000x64.size a
  hwx6_3 : ∀ i : grid6.Coords, EltTy.bits .f32 = 32 ∨ (Rect.block (s := S40000x64) S4000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x64.size a ≤ S40000x64.size a
  hwx7_0 : ∀ i : grid7.Coords, EltTy.bits .f32 = 32 ∨ (Rect.block (s := S40000x64) S4000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x1.size a ≤ S40000x1.size a
  hwx7_1 : ∀ i : grid7.Coords, EltTy.bits .f32 = 32 ∨ (Rect.block (s := S40000x1) S4000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x64.size a ≤ S40000x64.size a
  hwx7_3 : ∀ i : grid7.Coords, EltTy.bits .f32 = 32 ∨ (Rect.block (s := S40000x64) S4000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x64.size a ≤ S40000x64.size a
  hwx8_0 : ∀ i : grid8.Coords, EltTy.bits .f32 = 32 ∨ (Rect.block (s := S40000x64) S4000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x1.size a ≤ S40000x1.size a
  hwx8_1 : ∀ i : grid8.Coords, EltTy.bits .f32 = 32 ∨ (Rect.block (s := S40000x1) S4000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4000x64.size a ≤ S40000x64.size a
  hwx8_2 : ∀ i : grid8.Coords, EltTy.bits .f32 = 32 ∨ (Rect.block (s := S40000x64) S4000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x64.size a ≤ S40000x64.size a
  hwx9_0 : ∀ i : grid9.Coords, EltTy.bits .f32 = 32 ∨ (Rect.block (s := S40000x64) S4000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S4000x1.size a ≤ S40000x1.size a
  hwx9_2 : ∀ i : grid9.Coords, EltTy.bits .f32 = 32 ∨ (Rect.block (s := S40000x1) S4000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S4000x64.size a ≤ S40000x64.size a
  hwx9_4 : ∀ i : grid9.Coords, EltTy.bits .f32 = 32 ∨ (Rect.block (s := S40000x64) S4000x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x64.size a ≤ S40000x64.size a
  hwx10_0 : ∀ i : grid10.Coords, EltTy.bits .f32 = 32 ∨ (Rect.block (s := S40000x64) S4000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4000x1.size a ≤ S40000x1.size a
  hwx10_1 : ∀ i : grid10.Coords, EltTy.bits .f32 = 32 ∨ (Rect.block (s := S40000x1) S4000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S4000x64.size a ≤ S40000x64.size a
  hwx10_2 : ∀ i : grid10.Coords, EltTy.bits .f32 = 32 ∨ (Rect.block (s := S40000x64) S4000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x64.size a ≤ S40000x64.size a
  hwx11_0 : ∀ i : grid11.Coords, EltTy.bits .f32 = 32 ∨ (Rect.block (s := S40000x64) S4000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x64.size a ≤ S64x64.size a
  hwx11_1 : ∀ i : grid11.Coords, EltTy.bits .f32 = 32 ∨ (Rect.block (s := S64x64) S64x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S4000x1.size a ≤ S40000x1.size a
  hwx11_2 : ∀ i : grid11.Coords, EltTy.bits .f32 = 32 ∨ (Rect.block (s := S40000x1) S4000x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S4000x64.size a ≤ S40000x64.size a
  hwx11_4 : ∀ i : grid11.Coords, EltTy.bits .f32 = 32 ∨ (Rect.block (s := S40000x64) S4000x64.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4000x64.size a ≤ S40000x64.size a
  hwx12_0 : ∀ i : grid12.Coords, EltTy.bits .f32 = 32 ∨ (Rect.block (s := S40000x64) S4000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x1.size a ≤ S64x1.size a
  hwx12_1 : ∀ i : grid12.Coords, EltTy.bits .f32 = 32 ∨ (Rect.block (s := S64x1) S64x1.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S4000x1.size a ≤ S40000x1.size a
  hwx12_2 : ∀ i : grid12.Coords, EltTy.bits .f32 = 32 ∨ (Rect.block (s := S40000x1) S4000x1.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S4000x1.size a ≤ S40000x1.size a
  hwx12_3 : ∀ i : grid12.Coords, EltTy.bits .f32 = 32 ∨ (Rect.block (s := S40000x1) S4000x1.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4000x1.size a ≤ S40000x1.size a
  hwx13_0 : ∀ i : grid13.Coords, EltTy.bits .f32 = 32 ∨ (Rect.block (s := S40000x1) S4000x1.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S4000x1.size a ≤ S40000x1.size a
  hwx13_1 : ∀ i : grid13.Coords, EltTy.bits .f32 = 32 ∨ (Rect.block (s := S40000x1) S4000x1.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x1.size a ≤ S1x1.size a
  hwx13_2 : ∀ i : grid13.Coords, EltTy.bits .f32 = 32 ∨ (Rect.block (s := S1x1) S1x1.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S4000x1.size a ≤ S40000x1.size a
  hwx13_3 : ∀ i : grid13.Coords, EltTy.bits .f32 = 32 ∨ (Rect.block (s := S40000x1) S4000x1.size (cc13_transform_3 i) (hinb13_3 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def gather_S40000x1_S640000x1_S640000x1_1_0_n_n_0_1_11 : GatherDims S40000x1 S640000x1 S640000x1 where
  offsetDims := [1]
  collapsedSliceDims := [0]
  operandBatchingDims := []
  startIndicesBatchingDims := []
  startIndexMap := [0]
  indexVectorDim := 1
  sliceSizes := ![1, 1]
  wf := gather_S40000x1_S640000x1_S640000x1_1_0_n_n_0_1_11_wf
def scatter_S40000x1_S640000x1_S640000x1_1_0_0_1 : ScatterDims S40000x1 S640000x1 S640000x1 where
  updateWindowDims := [1]
  insertedWindowDims := [0]
  scatterDimsToOperandDims := [0]
  indexVectorDim := 1
  wf := scatter_S40000x1_S640000x1_S640000x1_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v46) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v47) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v20) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v58) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v59) S4000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v59) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v19) S4000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v60) S4000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v70) S4000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v20) S4000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v71) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v72) S4000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v72) S4000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v19) S4000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v73) S4000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v83) S4000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg11) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v20) S4000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v84) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v85) S4000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v85) S4000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v19) S4000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v86) S4000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v96) S4000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg13) S64x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v20) S4000x1.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v97) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v98) S4000x64.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v98) S4000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg15) S64x1.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v19) S4000x1.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v99) S4000x1.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v109) S4000x1.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v20) S4000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v110) S1x1.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v111) S4000x1.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

class Facts : Prop extends Facts₀ where

variable [Facts]
-- ==== ReferenceIdeal.lean ====
abbrev S40000x128 : Shape := ⟨2, ![40000, 128]⟩
abbrev S640000 : Shape := ⟨1, ![640000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S64x64 : Shape := ⟨2, ![64, 64]⟩
abbrev S64x1 : Shape := ⟨2, ![64, 1]⟩
abbrev S1 : Shape := ⟨1, ![1]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S40000x64 : Shape := ⟨2, ![40000, 64]⟩
abbrev S640000x64 : Shape := ⟨2, ![640000, 64]⟩
abbrev S1x64 : Shape := ⟨2, ![1, 64]⟩
abbrev S1x128 : Shape := ⟨2, ![1, 128]⟩
abbrev S640000x128 : Shape := ⟨2, ![640000, 128]⟩
abbrev S1x1 : Shape := ⟨2, ![1, 1]⟩

abbrev nBuf : Space → Nat
  | .hbm => 227
  | .vmem => 0
  | .smem => 0
  | _ => 0

abbrev hbmTy0_0 (i : Nat) : BufTy := match i % 128 with
  | 0 => ⟨S40000x128, .f32⟩
  | 1 => ⟨S640000, .i32⟩
  | 2 => ⟨S640000, .i32⟩
  | 3 => ⟨S128x64, .f32⟩
  | 4 => ⟨S64, .f32⟩
  | 5 => ⟨S64x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x1, .f32⟩
  | 16 => ⟨S1, .f32⟩
  | 17 => ⟨S_, .f32⟩
  | 18 => ⟨S640000, .f32⟩
  | 19 => ⟨S_, .f32⟩
  | 20 => ⟨S40000, .f32⟩
  | 21 => ⟨S640000x1, .i32⟩
  | 22 => ⟨S40000, .f32⟩
  | 23 => ⟨S_, .f32⟩
  | 24 => ⟨S40000, .f32⟩
  | 25 => ⟨S640000x1, .i32⟩
  | 26 => ⟨S40000, .f32⟩
  | 27 => ⟨S_, .f32⟩
  | 28 => ⟨S40000, .f32⟩
  | 29 => ⟨S40000, .i1⟩
  | 30 => ⟨S_, .f32⟩
  | 31 => ⟨S40000, .f32⟩
  | 32 => ⟨S40000, .f32⟩
  | 33 => ⟨S40000, .f32⟩
  | 34 => ⟨S_, .f32⟩
  | 35 => ⟨S_, .f32⟩
  | 36 => ⟨S40000, .f32⟩
  | 37 => ⟨S40000, .f32⟩
  | 38 => ⟨S_, .f32⟩
  | 39 => ⟨S40000, .f32⟩
  | 40 => ⟨S40000, .i1⟩
  | 41 => ⟨S_, .f32⟩
  | 42 => ⟨S40000, .f32⟩
  | 43 => ⟨S40000, .f32⟩
  | 44 => ⟨S40000, .f32⟩
  | 45 => ⟨S_, .f32⟩
  | 46 => ⟨S_, .f32⟩
  | 47 => ⟨S40000, .f32⟩
  | 48 => ⟨S40000, .f32⟩
  | 49 => ⟨S40000x1, .f32⟩
  | 50 => ⟨S40000x128, .f32⟩
  | 51 => ⟨S40000x128, .f32⟩
  | 52 => ⟨S40000x64, .f32⟩
  | 53 => ⟨S_, .i32⟩
  | 54 => ⟨S640000, .i32⟩
  | 55 => ⟨S640000, .i1⟩
  | 56 => ⟨S_, .i32⟩
  | 57 => ⟨S640000, .i32⟩
  | 58 => ⟨S640000, .i32⟩
  | 59 => ⟨S640000, .i32⟩
  | 60 => ⟨S640000x1, .i32⟩
  | 61 => ⟨S640000x64, .f32⟩
  | 62 => ⟨S_, .f32⟩
  | 63 => ⟨S40000x64, .f32⟩
  | 64 => ⟨S640000x1, .i32⟩
  | 65 => ⟨S40000x64, .f32⟩
  | 66 => ⟨S40000x1, .f32⟩
  | 67 => ⟨S40000x64, .f32⟩
  | 68 => ⟨S40000x64, .f32⟩
  | 69 => ⟨S1x64, .f32⟩
  | 70 => ⟨S40000x64, .f32⟩
  | 71 => ⟨S40000x64, .f32⟩
  | 72 => ⟨S_, .f32⟩
  | 73 => ⟨S40000x64, .f32⟩
  | 74 => ⟨S40000x64, .f32⟩
  | 75 => ⟨S40000x1, .f32⟩
  | 76 => ⟨S40000x64, .f32⟩
  | 77 => ⟨S40000x64, .f32⟩
  | 78 => ⟨S_, .i32⟩
  | 79 => ⟨S640000, .i32⟩
  | 80 => ⟨S640000, .i1⟩
  | 81 => ⟨S_, .i32⟩
  | 82 => ⟨S640000, .i32⟩
  | 83 => ⟨S640000, .i32⟩
  | 84 => ⟨S640000, .i32⟩
  | 85 => ⟨S640000x1, .i32⟩
  | 86 => ⟨S640000x64, .f32⟩
  | 87 => ⟨S_, .f32⟩
  | 88 => ⟨S40000x64, .f32⟩
  | 89 => ⟨S640000x1, .i32⟩
  | 90 => ⟨S40000x64, .f32⟩
  | 91 => ⟨S40000x128, .f32⟩
  | 92 => ⟨S40000x1, .f32⟩
  | 93 => ⟨S40000x128, .f32⟩
  | 94 => ⟨S40000x128, .f32⟩
  | 95 => ⟨S1x128, .f32⟩
  | 96 => ⟨S40000x128, .f32⟩
  | 97 => ⟨S40000x128, .f32⟩
  | 98 => ⟨S_, .f32⟩
  | 99 => ⟨S40000x128, .f32⟩
  | 100 => ⟨S40000x128, .f32⟩
  | 101 => ⟨S40000x1, .f32⟩
  | 102 => ⟨S40000x128, .f32⟩
  | 103 => ⟨S40000x128, .f32⟩
  | 104 => ⟨S_, .i32⟩
  | 105 => ⟨S640000, .i32⟩
  | 106 => ⟨S640000, .i1⟩
  | 107 => ⟨S_, .i32⟩
  | 108 => ⟨S640000, .i32⟩
  | 109 => ⟨S640000, .i32⟩
  | 110 => ⟨S640000, .i32⟩
  | 111 => ⟨S640000x1, .i32⟩
  | 112 => ⟨S640000x128, .f32⟩
  | 113 => ⟨S_, .f32⟩
  | 114 => ⟨S40000x128, .f32⟩
  | 115 => ⟨S640000x1, .i32⟩
  | 116 => ⟨S40000x128, .f32⟩
  | 117 => ⟨S40000x128, .f32⟩
  | 118 => ⟨S40000x1, .f32⟩
  | 119 => ⟨S40000x128, .f32⟩
  | 120 => ⟨S40000x128, .f32⟩
  | 121 => ⟨S1x128, .f32⟩
  | 122 => ⟨S40000x128, .f32⟩
  | 123 => ⟨S40000x128, .f32⟩
  | 124 => ⟨S_, .f32⟩
  | 125 => ⟨S40000x128, .f32⟩
  | 126 => ⟨S40000x128, .f32⟩
  | 127 => ⟨S40000x1, .f32⟩
  | _ => ⟨S40000x128, .f32⟩

abbrev hbmTy0_1 (i : Nat) : BufTy := match i % 128 with
  | 0 => ⟨S40000x128, .f32⟩
  | 1 => ⟨S40000x128, .f32⟩
  | 2 => ⟨S40000x64, .f32⟩
  | 3 => ⟨S_, .i32⟩
  | 4 => ⟨S640000, .i32⟩
  | 5 => ⟨S640000, .i1⟩
  | 6 => ⟨S_, .i32⟩
  | 7 => ⟨S640000, .i32⟩
  | 8 => ⟨S640000, .i32⟩
  | 9 => ⟨S640000, .i32⟩
  | 10 => ⟨S640000x1, .i32⟩
  | 11 => ⟨S640000x64, .f32⟩
  | 12 => ⟨S_, .f32⟩
  | 13 => ⟨S40000x64, .f32⟩
  | 14 => ⟨S640000x1, .i32⟩
  | 15 => ⟨S40000x64, .f32⟩
  | 16 => ⟨S40000x1, .f32⟩
  | 17 => ⟨S40000x64, .f32⟩
  | 18 => ⟨S40000x64, .f32⟩
  | 19 => ⟨S1x64, .f32⟩
  | 20 => ⟨S40000x64, .f32⟩
  | 21 => ⟨S40000x64, .f32⟩
  | 22 => ⟨S_, .f32⟩
  | 23 => ⟨S40000x64, .f32⟩
  | 24 => ⟨S40000x64, .f32⟩
  | 25 => ⟨S40000x1, .f32⟩
  | 26 => ⟨S40000x64, .f32⟩
  | 27 => ⟨S40000x64, .f32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000x64, .f32⟩
  | 37 => ⟨S_, .f32⟩
  | 38 => ⟨S40000x64, .f32⟩
  | 39 => ⟨S640000x1, .i32⟩
  | 40 => ⟨S40000x64, .f32⟩
  | 41 => ⟨S40000x64, .f32⟩
  | 42 => ⟨S40000x1, .f32⟩
  | 43 => ⟨S40000x64, .f32⟩
  | 44 => ⟨S40000x64, .f32⟩
  | 45 => ⟨S1x64, .f32⟩
  | 46 => ⟨S40000x64, .f32⟩
  | 47 => ⟨S40000x64, .f32⟩
  | 48 => ⟨S_, .f32⟩
  | 49 => ⟨S40000x64, .f32⟩
  | 50 => ⟨S40000x64, .f32⟩
  | 51 => ⟨S40000x1, .f32⟩
  | 52 => ⟨S40000x64, .f32⟩
  | 53 => ⟨S40000x64, .f32⟩
  | 54 => ⟨S_, .i32⟩
  | 55 => ⟨S640000, .i32⟩
  | 56 => ⟨S640000, .i1⟩
  | 57 => ⟨S_, .i32⟩
  | 58 => ⟨S640000, .i32⟩
  | 59 => ⟨S640000, .i32⟩
  | 60 => ⟨S640000, .i32⟩
  | 61 => ⟨S640000x1, .i32⟩
  | 62 => ⟨S640000x64, .f32⟩
  | 63 => ⟨S_, .f32⟩
  | 64 => ⟨S40000x64, .f32⟩
  | 65 => ⟨S640000x1, .i32⟩
  | 66 => ⟨S40000x64, .f32⟩
  | 67 => ⟨S40000x64, .f32⟩
  | 68 => ⟨S40000x1, .f32⟩
  | 69 => ⟨S40000x64, .f32⟩
  | 70 => ⟨S40000x64, .f32⟩
  | 71 => ⟨S1x64, .f32⟩
  | 72 => ⟨S40000x64, .f32⟩
  | 73 => ⟨S40000x64, .f32⟩
  | 74 => ⟨S_, .f32⟩
  | 75 => ⟨S40000x64, .f32⟩
  | 76 => ⟨S40000x64, .f32⟩
  | 77 => ⟨S40000x1, .f32⟩
  | 78 => ⟨S40000x64, .f32⟩
  | 79 => ⟨S40000x64, .f32⟩
  | 80 => ⟨S40000x1, .f32⟩
  | 81 => ⟨S_, .i32⟩
  | 82 => ⟨S640000, .i32⟩
  | 83 => ⟨S640000, .i1⟩
  | 84 => ⟨S_, .i32⟩
  | 85 => ⟨S640000, .i32⟩
  | 86 => ⟨S640000, .i32⟩
  | 87 => ⟨S640000, .i32⟩
  | 88 => ⟨S640000x1, .i32⟩
  | 89 => ⟨S640000x1, .f32⟩
  | 90 => ⟨S_, .f32⟩
  | 91 => ⟨S40000x1, .f32⟩
  | 92 => ⟨S640000x1, .i32⟩
  | 93 => ⟨S40000x1, .f32⟩
  | 94 => ⟨S40000x1, .f32⟩
  | 95 => ⟨S40000x1, .f32⟩
  | 96 => ⟨S1x1, .f32⟩
  | 97 => ⟨S40000x1, .f32⟩
  | 98 => ⟨S40000x1, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_cst_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v12 : Ref sig .tc := ⟨.hbm, 37, rfl⟩
abbrev main_cst_5 : Ref sig .tc := ⟨.hbm, 38, rfl⟩
abbrev main_v13 : Ref sig .tc := ⟨.hbm, 39, rfl⟩
abbrev main_v14 : Ref sig .tc := ⟨.hbm, 40, rfl⟩
abbrev main_cst_6 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c : Ref sig .tc := ⟨.hbm, 53, rfl⟩
abbrev main_v23 : Ref sig .tc := ⟨.hbm, 54, rfl⟩
abbrev main_v24 : Ref sig .tc := ⟨.hbm, 55, rfl⟩
abbrev main_c_8 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_9 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_call2_cst : Ref sig .tc := ⟨.hbm, 72, rfl⟩
abbrev main_call2_v0 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_10 : Ref sig .tc := ⟨.hbm, 78, rfl⟩
abbrev main_v43 : Ref sig .tc := ⟨.hbm, 79, rfl⟩
abbrev main_v44 : Ref sig .tc := ⟨.hbm, 80, rfl⟩
abbrev main_c_11 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_12 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_call3_cst : Ref sig .tc := ⟨.hbm, 98, rfl⟩
abbrev main_call3_v0 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_13 : Ref sig .tc := ⟨.hbm, 104, rfl⟩
abbrev main_v64 : Ref sig .tc := ⟨.hbm, 105, rfl⟩
abbrev main_v65 : Ref sig .tc := ⟨.hbm, 106, rfl⟩
abbrev main_c_14 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_15 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_call4_cst : Ref sig .tc := ⟨.hbm, 124, rfl⟩
abbrev main_call4_v0 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_c_16 : Ref sig .tc := ⟨.hbm, 131, rfl⟩
abbrev main_v86 : Ref sig .tc := ⟨.hbm, 132, rfl⟩
abbrev main_v87 : Ref sig .tc := ⟨.hbm, 133, rfl⟩
abbrev main_c_17 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_18 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_call5_cst : Ref sig .tc := ⟨.hbm, 150, rfl⟩
abbrev main_call5_v0 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_c_19 : Ref sig .tc := ⟨.hbm, 156, rfl⟩
abbrev main_v106 : Ref sig .tc := ⟨.hbm, 157, rfl⟩
abbrev main_v107 : Ref sig .tc := ⟨.hbm, 158, rfl⟩
abbrev main_c_20 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_21 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_call6_cst : Ref sig .tc := ⟨.hbm, 176, rfl⟩
abbrev main_call6_v0 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_c_22 : Ref sig .tc := ⟨.hbm, 182, rfl⟩
abbrev main_v127 : Ref sig .tc := ⟨.hbm, 183, rfl⟩
abbrev main_v128 : Ref sig .tc := ⟨.hbm, 184, rfl⟩
abbrev main_c_23 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_24 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_call7_cst : Ref sig .tc := ⟨.hbm, 202, rfl⟩
abbrev main_call7_v0 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_c_25 : Ref sig .tc := ⟨.hbm, 209, rfl⟩
abbrev main_v149 : Ref sig .tc := ⟨.hbm, 210, rfl⟩
abbrev main_v150 : Ref sig .tc := ⟨.hbm, 211, rfl⟩
abbrev main_c_26 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_cst_27 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S_S40000x64 : S_.BroadcastsInDim S40000x64 (![] : Fin 0 → Fin S40000x64.rank)
  bcast_S40000x1_S40000x64_0_1 : S40000x1.BroadcastsInDim S40000x64 (![0, 1] : Fin 2 → Fin S40000x64.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S40000x128 : S_.BroadcastsInDim S40000x128 (![] : Fin 0 → Fin S40000x128.rank)
  bcast_S_S40000x1 : S_.BroadcastsInDim S40000x1 (![] : Fin 0 → Fin S40000x1.rank)
  bcast_S1_S1x1_1 : S1.BroadcastsInDim S1x1 (![1] : Fin 1 → Fin S1x1.rank)
  bcast_S1x1_S40000x1_0_1 : S1x1.BroadcastsInDim S40000x1 (![0, 1] : Fin 2 → Fin S40000x1.rank)
  scatter_S40000_S640000x1_S640000_n_0_0_1_wf : ScatterDims.WF S40000 S640000x1 S640000 [] [0] [0] 1
  dot_S40000x128_S128x64_S40000x64_1_0_0_1_n_n_wf : DotDims.WF S40000x128 S128x64 S40000x64 [1] [0] [0] [1] [] []
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1
  dot_S40000x64_S64x128_S40000x128_1_0_0_1_n_n_wf : DotDims.WF S40000x64 S64x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  dot_S40000x64_S64x64_S40000x64_1_0_0_1_n_n_wf : DotDims.WF S40000x64 S64x64 S40000x64 [1] [0] [0] [1] [] []
  dot_S40000x64_S64x1_S40000x1_1_0_0_1_n_n_wf : DotDims.WF S40000x64 S64x1 S40000x1 [1] [0] [0] [1] [] []
  gather_S40000x1_S640000x1_S640000x1_1_0_n_n_0_1_11_wf : GatherDims.WF S40000x1 S640000x1 S640000x1 [1] [0] [] [0] [] 1 ![1, 1]
  scatter_S40000x1_S640000x1_S640000x1_1_0_0_1_wf : ScatterDims.WF S40000x1 S640000x1 S640000x1 [1] [0] [0] 1

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf
def dot_S40000x64_S64x128_S40000x128_1_0_0_1_n_n : DotDims S40000x64 S64x128 S40000x128 where
  lhsContracting := [1]
  rhsContracting := [0]
  lhsNonContracting := [0]
  rhsNonContracting := [1]
  lhsBatch := []
  rhsBatch := []
  wf := dot_S40000x64_S64x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x64_S64x64_S40000x64_1_0_0_1_n_n : DotDims S40000x64 S64x64 S40000x64 where
  lhsContracting := [1]
  rhsContracting := [0]
  lhsNonContracting := [0]
  rhsNonContracting := [1]
  lhsBatch := []
  rhsBatch := []
  wf := dot_S40000x64_S64x64_S40000x64_1_0_0_1_n_n_wf
def dot_S40000x64_S64x1_S40000x1_1_0_0_1_n_n : DotDims S40000x64 S64x1 S40000x1 where
  lhsContracting := [1]
  rhsContracting := [0]
  lhsNonContracting := [0]
  rhsNonContracting := [1]
  lhsBatch := []
  rhsBatch := []
  wf := dot_S40000x64_S64x1_S40000x1_1_0_0_1_n_n_wf
def gather_S40000x1_S640000x1_S640000x1_1_0_n_n_0_1_11 : GatherDims S40000x1 S640000x1 S640000x1 where
  offsetDims := [1]
  collapsedSliceDims := [0]
  operandBatchingDims := []
  startIndicesBatchingDims := []
  startIndexMap := [0]
  indexVectorDim := 1
  sliceSizes := ![1, 1]
  wf := gather_S40000x1_S640000x1_S640000x1_1_0_n_n_0_1_11_wf
def scatter_S40000x1_S640000x1_S640000x1_1_0_0_1 : ScatterDims S40000x1 S640000x1 S640000x1 where
  updateWindowDims := [1]
  insertedWindowDims := [0]
  scatterDimsToOperandDims := [0]
  indexVectorDim := 1
  wf := scatter_S40000x1_S640000x1_S640000x1_1_0_0_1_wf

class Facts : Prop extends Facts₀ where

variable [Facts]
-- ==== Proof.KernelRun.lean ====
/-
  The idealized kernel program's run with its RESULT named.

  The program is fourteen tiled passes over the rows of the node-feature array among stretches of host operations.
  Its run is read segment by segment: after every stretch and every pass the unscoped buffers hold a known
  valuation, the last of which is `Gen.W26`. So every weakly fair execution terminates, the argument arrays end as
  they were launched, and the result buffer ends at `Gen.W26`'s contents there — the value the later modules open,
  pass by pass, down to the arguments.
-/
import proofs.«139564_j34376918237986_1_alg».proof.Defs
import proofs.«139564_j34376918237986_1_alg».proof.Proof.Gen.KernelIdeal.Frame

set_option maxRecDepth 16384

noncomputable section

namespace Cert.KernelIdeal.RunVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core holds before the first segment: its unscoped buffers at the launch contents, the generator register
    at some state, nothing owed. -/
abbrev first (c : Dev nD) : sProp 𝕄 :=
  iprop(StableHlo.held (c : Thread nD τ) (Pipeline.ucRefs τ sig) (W0 m ρ c) ∗ R c)

set_option backward.isDefEq.respectTransparency.types false in
set_option maxHeartbeats 2000000 in
/-- Every weakly fair execution of the program terminates without a fault; the result buffer ends at the last
    valuation's contents and the seventeen argument arrays end as launched. The launch element is the pipelines'
    own and no core needs a ghost resource; every core makes its first thread state from what the launch deals it;
    the last thread state, read against a final memory, says every unscoped buffer holds the last valuation's contents. -/
theorem run : θ_run defs (onTc (τ := τ) (main (F := F))) ⟨m, fun _ => 0, ρ⟩ (fun r => ∀ c : Dev nD,
      r.2.mem ((c.tc : Thread nD τ).loc main_v111) = W26 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H
      imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      · iapply (Entails.of_eq (BI.bigSep_emp_const (M := 𝕄) (Finset.univ : Finset (Dev nD))).symm)
        iempintro)
    (T₀ := first m ρ) (Tₙ := Tₙ m ρ)
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, Hsems, Howes, Hcred, Hprng, Hemp⟩, Hlev⟩
      imodintro
      isplitl [Hbufs]
      · iexact Hbufs
      isplitl [Hprng]
      · iexists _; iexact Hprng
      · iexists ∅; iexact Howes)
    (QY := fun c s => ∀ b ∈ Pipeline.ucRefs τ sig, s.mem (((c : Thread nD τ)).1, b) = W26 m ρ c b)
    (hfin := fun c s' => by
      iintro ⟨⟨Hheld, Hreg⟩, HSI⟩
      unfold StableHlo.held
      imodintro
      iapply (pointsTo_read_all (Pipeline.ucRefs τ sig) (fun b => (((c : Thread nD τ)).1, b)) (W26 m ρ c) s')
      isplitl [Hheld]
      · iexact Hheld
      · iexact HSI)
    (hQ := fun s h c =>
      ⟨h c _ (mem_uc main_v111 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c),
       (h c _ (mem_uc main_arg11 (by decide))).trans (W26_main_arg11 m ρ c),
       (h c _ (mem_uc main_arg12 (by decide))).trans (W26_main_arg12 m ρ c),
       (h c _ (mem_uc main_arg13 (by decide))).trans (W26_main_arg13 m ρ c),
       (h c _ (mem_uc main_arg14 (by decide))).trans (W26_main_arg14 m ρ c),
       (h c _ (mem_uc main_arg15 (by decide))).trans (W26_main_arg15 m ρ c),
       (h c _ (mem_uc main_arg16 (by decide))).trans (W26_main_arg16 m ρ c)⟩)

end Cert.KernelIdeal.RunVal

end
-- ==== Proof.LibGraphConv.lean ====
/-
  Graph-convolution layers over the extended reals, as whole-array functions read index by index.

  A layer takes node features `x` (one row per node), scales row `r` by an out-degree factor `sO r`, sums the
  scaled rows over each node's incoming edges (an abstract map `agg` here: the neighbourhood sum is the same on
  both sides of a comparison and is never opened), multiplies by a weight matrix, scales row `r` by an in-degree
  factor `sI r`, adds a bias row, and clamps at zero. When the weight matrix narrows the features the product is
  taken BEFORE the neighbourhood sum (`layerProj`), otherwise after it (`layerAgg`); the last layer is not clamped.
  The pieces (`rowScale`, `matMul`, `affine`, `relu`) are what one tiled pass over the rows computes.
-/
import Idealize.ShloMosaic.PureOps.Ideal
import Idealize.ShloMosaic.Lib.ValueIdx

noncomputable section

open scoped BigOperators

namespace Gcn

open Idealize.ShloMosaic Idealize.ShloMosaic.ValueIdx

/-- An `n × d` array of extended reals. -/
abbrev Mat (n d : ℕ) : Type := FVec Ideal (⟨2, ![n, d]⟩ : Shape) .f32
/-- A length-`n` array of extended reals. -/
abbrev Col (n : ℕ) : Type := FVec Ideal (⟨1, ![n]⟩ : Shape) .f32

/-- Row `r` of `x` times the factor `s r`. -/
def rowScale {n d : ℕ} (x : Mat n d) (s : Col n) : Mat n d := fun i => x i * s (ix1 (i 0))
/-- The matrix product: entry `(r, c)` is `∑ j, x (r, j) · w (j, c)`. -/
def matMul {n k d : ℕ} (x : Mat n k) (w : Mat k d) : Mat n d := fun i => ∑ j : Fin k, x (ix2 (i 0) j) * w (ix2 j (i 1))
/-- Row `r` of `h` times `s r`, plus the bias row: entry `(r, c)` is `h (r, c) · s r + b c`. -/
def affine {n d : ℕ} (h : Mat n d) (s : Col n) (b : Col d) : Mat n d := fun i => h i * s (ix1 (i 0)) + b (ix1 (i 1))
/-- Entrywise clamp at zero. -/
def relu {n d : ℕ} (y : Mat n d) : Mat n d := fun i => max (y i) 0
/-- A one-column matrix read as a vector. -/
def colOf {n : ℕ} (s : Mat n 1) : Col n := fun r => s (ix2 (r 0) 0)
/-- A one-row matrix read as a vector. -/
def rowOf {d : ℕ} (b : Mat 1 d) : Col d := fun j => b (ix2 0 (j 0))

theorem rowScale_apply {n d : ℕ} (x : Mat n d) (s : Col n) (r : Fin n) (c : Fin d) :
    rowScale x s (ix2 r c) = x (ix2 r c) * s (ix1 r) := rfl
theorem matMul_apply {n k d : ℕ} (x : Mat n k) (w : Mat k d) (r : Fin n) (c : Fin d) :
    matMul x w (ix2 r c) = ∑ j : Fin k, x (ix2 r j) * w (ix2 j c) := rfl
theorem affine_apply {n d : ℕ} (h : Mat n d) (s : Col n) (b : Col d) (r : Fin n) (c : Fin d) :
    affine h s b (ix2 r c) = h (ix2 r c) * s (ix1 r) + b (ix1 c) := rfl
theorem relu_apply {n d : ℕ} (y : Mat n d) (i : (⟨2, ![n, d]⟩ : Shape).Idx) : relu y i = max (y i) 0 := rfl
theorem colOf_apply {n : ℕ} (s : Mat n 1) (r : Fin n) : colOf s (ix1 r) = s (ix2 r 0) := rfl
theorem rowOf_apply {d : ℕ} (b : Mat 1 d) (c : Fin d) : rowOf b (ix1 c) = b (ix2 0 c) := rfl

/-- A layer that multiplies by the weights first and sums over neighbours after. -/
def layerProj {n k d : ℕ} (agg : Mat n d → Mat n d) (sO sI : Col n) (x : Mat n k) (w : Mat k d) (b : Col d) : Mat n d :=
  relu (affine (agg (matMul (rowScale x sO) w)) sI b)
/-- A layer that sums over neighbours first and multiplies by the weights after. -/
def layerAgg {n k d : ℕ} (agg : Mat n k → Mat n k) (sO sI : Col n) (x : Mat n k) (w : Mat k d) (b : Col d) : Mat n d :=
  relu (affine (matMul (agg (rowScale x sO)) w) sI b)
/-- The last layer: weights first, neighbours after, no clamp. -/
def layerLast {n k d : ℕ} (agg : Mat n d → Mat n d) (sO sI : Col n) (x : Mat n k) (w : Mat k d) (b : Col d) : Mat n d :=
  affine (agg (matMul (rowScale x sO) w)) sI b

/-- The seven layers, widths 128 → 64 → 128 → 128 → 64 → 64 → 64 → 1, over abstract neighbourhood sums at the three
    widths that occur (64, 128, 1). -/
def net {n : ℕ} (sO sI : Col n) (agg64 : Mat n 64 → Mat n 64) (agg128 : Mat n 128 → Mat n 128) (agg1 : Mat n 1 → Mat n 1)
    (x : Mat n 128) (w1 : Mat 128 64) (b1 : Col 64) (w2 : Mat 64 128) (b2 : Col 128) (w3 : Mat 128 128) (b3 : Col 128)
    (w4 : Mat 128 64) (b4 : Col 64) (w5 : Mat 64 64) (b5 : Col 64) (w6 : Mat 64 64) (b6 : Col 64)
    (w7 : Mat 64 1) (b7 : Col 1) : Mat n 1 :=
  layerLast agg1 sO sI
    (layerAgg agg64 sO sI
      (layerAgg agg64 sO sI
        (layerProj agg64 sO sI
          (layerAgg agg128 sO sI
            (layerAgg agg64 sO sI
              (layerProj agg64 sO sI x w1 b1)
              w2 b2)
            w3 b3)
          w4 b4)
        w5 b5)
      w6 b6)
    w7 b7

end Gcn

end
-- ==== Proof.KernelFold.lean ====
/-
  Reading a buffer back through the program's segments.

  The program's run leaves, after each stretch of host operations and after each tiled pass, a known valuation of
  the unscoped buffers (`Gen.W0` … `Gen.W26`). A stretch changes only the buffers its operations write; a pass
  changes only its output array. So a buffer that nothing in between writes holds, at a later boundary, what it
  held at an earlier one: the arguments hold their launch contents at every boundary, and the two degree-factor
  columns, computed before the first pass, hold from there on what they held when the first pass was entered.
-/
import proofs.«139564_j34376918237986_1_alg».proof.Defs
import proofs.«139564_j34376918237986_1_alg».proof.Proof.Gen.KernelIdeal.Frame
import Idealize.ShloMosaic.Lib.StableHlo.Run

set_option maxRecDepth 16384

noncomputable section

namespace Cert.KernelIdeal.Fold

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg) (c : Dev nD)

/-- A one-buffer write set lies in the set of a list that names the buffer. -/
theorem single_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, h, rfl⟩))

/-- The seventeen arguments. -/
def argList : List (Ref sig .tc) :=
  [main_arg0, main_arg1, main_arg2, main_arg3, main_arg4, main_arg5, main_arg6, main_arg7, main_arg8, main_arg9, main_arg10, main_arg11, main_arg12, main_arg13, main_arg14, main_arg15, main_arg16]
/-- The two degree-factor columns. -/
def normList : List (Ref sig .tc) := [main_v19, main_v20]

/-! ## What each stretch of host operations writes, and that it writes nothing else -/

def written0 : List (Ref sig .tc) := [main_cst, main_v0, main_cst_0, main_v1, main_v2, main_v3, main_cst_1, main_v4, main_v5, main_v6, main_cst_2, main_v7, main_v8, main_cst_3, main_v9, main_v10, main_v11, main_cst_4]
theorem written0_sub : (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

def written0_1 : List (Ref sig .tc) := [main_call0_v0, main_call0_v1, main_v12]
theorem written0_1_sub : (hostOps0_1 : List (HloOp τ sig (Elt F))).Forall fun op => op.writes ⊆ (written0_1.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

def written0_2 : List (Ref sig .tc) := [main_cst_5, main_v13, main_v14, main_cst_6, main_v15, main_v16, main_v17, main_cst_7]
theorem written0_2_sub : (hostOps0_2 : List (HloOp τ sig (Elt F))).Forall fun op => op.writes ⊆ (written0_2.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

def written0_3 : List (Ref sig .tc) := [main_call1_v0, main_call1_v1, main_v18]
theorem written0_3_sub : (hostOps0_3 : List (HloOp τ sig (Elt F))).Forall fun op => op.writes ⊆ (written0_3.map (Proc.devRef (τ := τ) .tc)).toFinset := by
  simp only [hostOps0_3, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

def written0_4 : List (Ref sig .tc) := [main_v19, main_v20]
theorem written0_4_sub : (hostOps0_4 : List (HloOp τ sig (Elt F))).Forall fun op => op.writes ⊆ (written0_4.map (Proc.devRef (τ := τ) .tc)).toFinset := by
  simp only [hostOps0_4, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

def written1 : List (Ref sig .tc) := [main_c, main_v22, main_v23, main_c_8, main_v24, main_v25, main_v26, main_v27, main_v28, main_cst_9, main_v29, main_v30, main_v31, main_v32]
theorem written1_sub : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

def written3 : List (Ref sig .tc) := [main_c_10, main_v35, main_v36, main_c_11, main_v37, main_v38, main_v39, main_v40, main_v41, main_cst_12, main_v42, main_v43, main_v44, main_v45]
theorem written3_sub : (hostOps3 : List (HloOp τ sig (Elt F))).Forall fun op => op.writes ⊆ (written3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

def written5 : List (Ref sig .tc) := [main_c_13, main_v48, main_v49, main_c_14, main_v50, main_v51, main_v52, main_v53, main_v54, main_cst_15, main_v55, main_v56, main_v57, main_v58]
theorem written5_sub : (hostOps5 : List (HloOp τ sig (Elt F))).Forall fun op => op.writes ⊆ (written5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

def written7 : List (Ref sig .tc) := [main_c_16, main_v61, main_v62, main_c_17, main_v63, main_v64, main_v65, main_v66, main_v67, main_cst_18, main_v68, main_v69, main_v70, main_v71]
theorem written7_sub : (hostOps7 : List (HloOp τ sig (Elt F))).Forall fun op => op.writes ⊆ (written7.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

def written9 : List (Ref sig .tc) := [main_c_19, main_v74, main_v75, main_c_20, main_v76, main_v77, main_v78, main_v79, main_v80, main_cst_21, main_v81, main_v82, main_v83, main_v84]
theorem written9_sub : (hostOps9 : List (HloOp τ sig (Elt F))).Forall fun op => op.writes ⊆ (written9.map (Proc.devRef (τ := τ) .tc)).toFinset := by
  simp only [hostOps9, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

def written11 : List (Ref sig .tc) := [main_c_22, main_v87, main_v88, main_c_23, main_v89, main_v90, main_v91, main_v92, main_v93, main_cst_24, main_v94, main_v95, main_v96, main_v97]
theorem written11_sub : (hostOps11 : List (HloOp τ sig (Elt F))).Forall fun op => op.writes ⊆ (written11.map (Proc.devRef (τ := τ) .tc)).toFinset := by
  simp only [hostOps11, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

def written13 : List (Ref sig .tc) := [main_c_25, main_v100, main_v101, main_c_26, main_v102, main_v103, main_v104, main_v105, main_v106, main_cst_27, main_v107, main_v108, main_v109, main_v110]
theorem written13_sub : (hostOps13 : List (HloOp τ sig (Elt F))).Forall fun op => op.writes ⊆ (written13.map (Proc.devRef (τ := τ) .tc)).toFinset := by
  simp only [hostOps13, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)

/-! ## One segment back: a buffer the segment does not write -/

theorem keep0 (r : Ref sig .tc) (hr : r ∉ written0) : W1 m ρ c (Proc.devRef .tc r) = W0 m ρ c (Proc.devRef .tc r) :=
  StableHlo.after_of_writes_sub hostOps0 _ written0_sub hr

theorem keep1 (r : Ref sig .tc) (hr : r ∉ written0_1) : W2 m ρ c (Proc.devRef .tc r) = W1 m ρ c (Proc.devRef .tc r) :=
  StableHlo.after_of_writes_sub hostOps0_1 _ written0_1_sub hr

theorem keep2 (r : Ref sig .tc) (hr : r ∉ written0_2) : W3 m ρ c (Proc.devRef .tc r) = W2 m ρ c (Proc.devRef .tc r) :=
  StableHlo.after_of_writes_sub hostOps0_2 _ written0_2_sub hr

theorem keep3 (r : Ref sig .tc) (hr : r ∉ written0_3) : W4 m ρ c (Proc.devRef .tc r) = W3 m ρ c (Proc.devRef .tc r) :=
  StableHlo.after_of_writes_sub hostOps0_3 _ written0_3_sub hr

theorem keep4 (r : Ref sig .tc) (hr : r ∉ written0_4) : W5 m ρ c (Proc.devRef .tc r) = W4 m ρ c (Proc.devRef .tc r) :=
  StableHlo.after_of_writes_sub hostOps0_4 _ written0_4_sub hr

theorem keep5 (r : Ref sig .tc) (hr : r ≠ main_v21) : W6 m ρ c (Proc.devRef .tc r) = W5 m ρ c (Proc.devRef .tc r) := by
  by_cases h : ∃ w, Pipeline.arrRef spec0 w = r
  · obtain ⟨w, rfl⟩ := h
    have hin : (cfg0.win w).isOut = false := by
      revert hr; revert w; decide
    exact (W6_arr m ρ c w).trans (((dat0 (V5 m ρ) c).arrAt_in w hin _).trans (A_eq0 (V5 m ρ) c w))
  · exact W6_of_ne m ρ c r fun w e => h ⟨w, e⟩

theorem keep6 (r : Ref sig .tc) (hr : r ∉ written1) : W7 m ρ c (Proc.devRef .tc r) = W6 m ρ c (Proc.devRef .tc r) :=
  StableHlo.after_of_writes_sub hostOps1 _ written1_sub hr

theorem keep7 (r : Ref sig .tc) (hr : r ≠ main_v33) : W8 m ρ c (Proc.devRef .tc r) = W7 m ρ c (Proc.devRef .tc r) := by
  by_cases h : ∃ w, Pipeline.arrRef spec1 w = r
  · obtain ⟨w, rfl⟩ := h
    have hin : (cfg1.win w).isOut = false := by
      revert hr; revert w; decide
    exact (W8_arr m ρ c w).trans (((dat1 (V7 m ρ) c).arrAt_in w hin _).trans (A_eq1 (V7 m ρ) c w))
  · exact W8_of_ne m ρ c r fun w e => h ⟨w, e⟩

theorem keep8 (r : Ref sig .tc) (hr : r ≠ main_v34) : W9 m ρ c (Proc.devRef .tc r) = W8 m ρ c (Proc.devRef .tc r) := by
  by_cases h : ∃ w, Pipeline.arrRef spec2 w = r
  · obtain ⟨w, rfl⟩ := h
    have hin : (cfg2.win w).isOut = false := by
      revert hr; revert w; decide
    exact (W9_arr m ρ c w).trans (((dat2 (V8 m ρ) c).arrAt_in w hin _).trans (A_eq2 (V8 m ρ) c w))
  · exact W9_of_ne m ρ c r fun w e => h ⟨w, e⟩

theorem keep9 (r : Ref sig .tc) (hr : r ∉ written3) : W10 m ρ c (Proc.devRef .tc r) = W9 m ρ c (Proc.devRef .tc r) :=
  StableHlo.after_of_writes_sub hostOps3 _ written3_sub hr

theorem keep10 (r : Ref sig .tc) (hr : r ≠ main_v46) : W11 m ρ c (Proc.devRef .tc r) = W10 m ρ c (Proc.devRef .tc r) := by
  by_cases h : ∃ w, Pipeline.arrRef spec3 w = r
  · obtain ⟨w, rfl⟩ := h
    have hin : (cfg3.win w).isOut = false := by
      revert hr; revert w; decide
    exact (W11_arr m ρ c w).trans (((dat3 (V10 m ρ) c).arrAt_in w hin _).trans (A_eq3 (V10 m ρ) c w))
  · exact W11_of_ne m ρ c r fun w e => h ⟨w, e⟩

theorem keep11 (r : Ref sig .tc) (hr : r ≠ main_v47) : W12 m ρ c (Proc.devRef .tc r) = W11 m ρ c (Proc.devRef .tc r) := by
  by_cases h : ∃ w, Pipeline.arrRef spec4 w = r
  · obtain ⟨w, rfl⟩ := h
    have hin : (cfg4.win w).isOut = false := by
      revert hr; revert w; decide
    exact (W12_arr m ρ c w).trans (((dat4 (V11 m ρ) c).arrAt_in w hin _).trans (A_eq4 (V11 m ρ) c w))
  · exact W12_of_ne m ρ c r fun w e => h ⟨w, e⟩

theorem keep12 (r : Ref sig .tc) (hr : r ∉ written5) : W13 m ρ c (Proc.devRef .tc r) = W12 m ρ c (Proc.devRef .tc r) :=
  StableHlo.after_of_writes_sub hostOps5 _ written5_sub hr

theorem keep13 (r : Ref sig .tc) (hr : r ≠ main_v59) : W14 m ρ c (Proc.devRef .tc r) = W13 m ρ c (Proc.devRef .tc r) := by
  by_cases h : ∃ w, Pipeline.arrRef spec5 w = r
  · obtain ⟨w, rfl⟩ := h
    have hin : (cfg5.win w).isOut = false := by
      revert hr; revert w; decide
    exact (W14_arr m ρ c w).trans (((dat5 (V13 m ρ) c).arrAt_in w hin _).trans (A_eq5 (V13 m ρ) c w))
  · exact W14_of_ne m ρ c r fun w e => h ⟨w, e⟩

theorem keep14 (r : Ref sig .tc) (hr : r ≠ main_v60) : W15 m ρ c (Proc.devRef .tc r) = W14 m ρ c (Proc.devRef .tc r) := by
  by_cases h : ∃ w, Pipeline.arrRef spec6 w = r
  · obtain ⟨w, rfl⟩ := h
    have hin : (cfg6.win w).isOut = false := by
      revert hr; revert w; decide
    exact (W15_arr m ρ c w).trans (((dat6 (V14 m ρ) c).arrAt_in w hin _).trans (A_eq6 (V14 m ρ) c w))
  · exact W15_of_ne m ρ c r fun w e => h ⟨w, e⟩

theorem keep15 (r : Ref sig .tc) (hr : r ∉ written7) : W16 m ρ c (Proc.devRef .tc r) = W15 m ρ c (Proc.devRef .tc r) :=
  StableHlo.after_of_writes_sub hostOps7 _ written7_sub hr

theorem keep16 (r : Ref sig .tc) (hr : r ≠ main_v72) : W17 m ρ c (Proc.devRef .tc r) = W16 m ρ c (Proc.devRef .tc r) := by
  by_cases h : ∃ w, Pipeline.arrRef spec7 w = r
  · obtain ⟨w, rfl⟩ := h
    have hin : (cfg7.win w).isOut = false := by
      revert hr; revert w; decide
    exact (W17_arr m ρ c w).trans (((dat7 (V16 m ρ) c).arrAt_in w hin _).trans (A_eq7 (V16 m ρ) c w))
  · exact W17_of_ne m ρ c r fun w e => h ⟨w, e⟩

theorem keep17 (r : Ref sig .tc) (hr : r ≠ main_v73) : W18 m ρ c (Proc.devRef .tc r) = W17 m ρ c (Proc.devRef .tc r) := by
  by_cases h : ∃ w, Pipeline.arrRef spec8 w = r
  · obtain ⟨w, rfl⟩ := h
    have hin : (cfg8.win w).isOut = false := by
      revert hr; revert w; decide
    exact (W18_arr m ρ c w).trans (((dat8 (V17 m ρ) c).arrAt_in w hin _).trans (A_eq8 (V17 m ρ) c w))
  · exact W18_of_ne m ρ c r fun w e => h ⟨w, e⟩

theorem keep18 (r : Ref sig .tc) (hr : r ∉ written9) : W19 m ρ c (Proc.devRef .tc r) = W18 m ρ c (Proc.devRef .tc r) :=
  StableHlo.after_of_writes_sub hostOps9 _ written9_sub hr

theorem keep19 (r : Ref sig .tc) (hr : r ≠ main_v85) : W20 m ρ c (Proc.devRef .tc r) = W19 m ρ c (Proc.devRef .tc r) := by
  by_cases h : ∃ w, Pipeline.arrRef spec9 w = r
  · obtain ⟨w, rfl⟩ := h
    have hin : (cfg9.win w).isOut = false := by
      revert hr; revert w; decide
    exact (W20_arr m ρ c w).trans (((dat9 (V19 m ρ) c).arrAt_in w hin _).trans (A_eq9 (V19 m ρ) c w))
  · exact W20_of_ne m ρ c r fun w e => h ⟨w, e⟩

theorem keep20 (r : Ref sig .tc) (hr : r ≠ main_v86) : W21 m ρ c (Proc.devRef .tc r) = W20 m ρ c (Proc.devRef .tc r) := by
  by_cases h : ∃ w, Pipeline.arrRef spec10 w = r
  · obtain ⟨w, rfl⟩ := h
    have hin : (cfg10.win w).isOut = false := by
      revert hr; revert w; decide
    exact (W21_arr m ρ c w).trans (((dat10 (V20 m ρ) c).arrAt_in w hin _).trans (A_eq10 (V20 m ρ) c w))
  · exact W21_of_ne m ρ c r fun w e => h ⟨w, e⟩

theorem keep21 (r : Ref sig .tc) (hr : r ∉ written11) : W22 m ρ c (Proc.devRef .tc r) = W21 m ρ c (Proc.devRef .tc r) :=
  StableHlo.after_of_writes_sub hostOps11 _ written11_sub hr

theorem keep22 (r : Ref sig .tc) (hr : r ≠ main_v98) : W23 m ρ c (Proc.devRef .tc r) = W22 m ρ c (Proc.devRef .tc r) := by
  by_cases h : ∃ w, Pipeline.arrRef spec11 w = r
  · obtain ⟨w, rfl⟩ := h
    have hin : (cfg11.win w).isOut = false := by
      revert hr; revert w; decide
    exact (W23_arr m ρ c w).trans (((dat11 (V22 m ρ) c).arrAt_in w hin _).trans (A_eq11 (V22 m ρ) c w))
  · exact W23_of_ne m ρ c r fun w e => h ⟨w, e⟩

theorem keep23 (r : Ref sig .tc) (hr : r ≠ main_v99) : W24 m ρ c (Proc.devRef .tc r) = W23 m ρ c (Proc.devRef .tc r) := by
  by_cases h : ∃ w, Pipeline.arrRef spec12 w = r
  · obtain ⟨w, rfl⟩ := h
    have hin : (cfg12.win w).isOut = false := by
      revert hr; revert w; decide
    exact (W24_arr m ρ c w).trans (((dat12 (V23 m ρ) c).arrAt_in w hin _).trans (A_eq12 (V23 m ρ) c w))
  · exact W24_of_ne m ρ c r fun w e => h ⟨w, e⟩

theorem keep24 (r : Ref sig .tc) (hr : r ∉ written13) : W25 m ρ c (Proc.devRef .tc r) = W24 m ρ c (Proc.devRef .tc r) :=
  StableHlo.after_of_writes_sub hostOps13 _ written13_sub hr

theorem keep25 (r : Ref sig .tc) (hr : r ≠ main_v111) : W26 m ρ c (Proc.devRef .tc r) = W25 m ρ c (Proc.devRef .tc r) := by
  by_cases h : ∃ w, Pipeline.arrRef spec13 w = r
  · obtain ⟨w, rfl⟩ := h
    have hin : (cfg13.win w).isOut = false := by
      revert hr; revert w; decide
    exact (W26_arr m ρ c w).trans (((dat13 (V25 m ρ) c).arrAt_in w hin _).trans (A_eq13 (V25 m ρ) c w))
  · exact W26_of_ne m ρ c r fun w e => h ⟨w, e⟩

/-! ## The arguments hold their launch contents at every boundary -/

theorem args0 (r : Ref sig .tc) (hr : r ∈ argList) : W0 m ρ c (Proc.devRef .tc r) = m ((c : Thread nD τ).loc r) := rfl
theorem args1 (r : Ref sig .tc) (hr : r ∈ argList) : W1 m ρ c (Proc.devRef .tc r) = m ((c : Thread nD τ).loc r) :=
  (keep0 m ρ c r ((by decide : ∀ r ∈ argList, r ∉ written0) r hr)).trans (args0 m ρ c r hr)
theorem args2 (r : Ref sig .tc) (hr : r ∈ argList) : W2 m ρ c (Proc.devRef .tc r) = m ((c : Thread nD τ).loc r) :=
  (keep1 m ρ c r ((by decide : ∀ r ∈ argList, r ∉ written0_1) r hr)).trans (args1 m ρ c r hr)
theorem args3 (r : Ref sig .tc) (hr : r ∈ argList) : W3 m ρ c (Proc.devRef .tc r) = m ((c : Thread nD τ).loc r) :=
  (keep2 m ρ c r ((by decide : ∀ r ∈ argList, r ∉ written0_2) r hr)).trans (args2 m ρ c r hr)
theorem args4 (r : Ref sig .tc) (hr : r ∈ argList) : W4 m ρ c (Proc.devRef .tc r) = m ((c : Thread nD τ).loc r) :=
  (keep3 m ρ c r ((by decide : ∀ r ∈ argList, r ∉ written0_3) r hr)).trans (args3 m ρ c r hr)
theorem args5 (r : Ref sig .tc) (hr : r ∈ argList) : W5 m ρ c (Proc.devRef .tc r) = m ((c : Thread nD τ).loc r) :=
  (keep4 m ρ c r ((by decide : ∀ r ∈ argList, r ∉ written0_4) r hr)).trans (args4 m ρ c r hr)
theorem args6 (r : Ref sig .tc) (hr : r ∈ argList) : W6 m ρ c (Proc.devRef .tc r) = m ((c : Thread nD τ).loc r) :=
  (keep5 m ρ c r ((by decide : ∀ r ∈ argList, r ≠ main_v21) r hr)).trans (args5 m ρ c r hr)
theorem args7 (r : Ref sig .tc) (hr : r ∈ argList) : W7 m ρ c (Proc.devRef .tc r) = m ((c : Thread nD τ).loc r) :=
  (keep6 m ρ c r ((by decide : ∀ r ∈ argList, r ∉ written1) r hr)).trans (args6 m ρ c r hr)
theorem args8 (r : Ref sig .tc) (hr : r ∈ argList) : W8 m ρ c (Proc.devRef .tc r) = m ((c : Thread nD τ).loc r) :=
  (keep7 m ρ c r ((by decide : ∀ r ∈ argList, r ≠ main_v33) r hr)).trans (args7 m ρ c r hr)
theorem args9 (r : Ref sig .tc) (hr : r ∈ argList) : W9 m ρ c (Proc.devRef .tc r) = m ((c : Thread nD τ).loc r) :=
  (keep8 m ρ c r ((by decide : ∀ r ∈ argList, r ≠ main_v34) r hr)).trans (args8 m ρ c r hr)
theorem args10 (r : Ref sig .tc) (hr : r ∈ argList) : W10 m ρ c (Proc.devRef .tc r) = m ((c : Thread nD τ).loc r) :=
  (keep9 m ρ c r ((by decide : ∀ r ∈ argList, r ∉ written3) r hr)).trans (args9 m ρ c r hr)
theorem args11 (r : Ref sig .tc) (hr : r ∈ argList) : W11 m ρ c (Proc.devRef .tc r) = m ((c : Thread nD τ).loc r) :=
  (keep10 m ρ c r ((by decide : ∀ r ∈ argList, r ≠ main_v46) r hr)).trans (args10 m ρ c r hr)
theorem args12 (r : Ref sig .tc) (hr : r ∈ argList) : W12 m ρ c (Proc.devRef .tc r) = m ((c : Thread nD τ).loc r) :=
  (keep11 m ρ c r ((by decide : ∀ r ∈ argList, r ≠ main_v47) r hr)).trans (args11 m ρ c r hr)
theorem args13 (r : Ref sig .tc) (hr : r ∈ argList) : W13 m ρ c (Proc.devRef .tc r) = m ((c : Thread nD τ).loc r) :=
  (keep12 m ρ c r ((by decide : ∀ r ∈ argList, r ∉ written5) r hr)).trans (args12 m ρ c r hr)
theorem args14 (r : Ref sig .tc) (hr : r ∈ argList) : W14 m ρ c (Proc.devRef .tc r) = m ((c : Thread nD τ).loc r) :=
  (keep13 m ρ c r ((by decide : ∀ r ∈ argList, r ≠ main_v59) r hr)).trans (args13 m ρ c r hr)
theorem args15 (r : Ref sig .tc) (hr : r ∈ argList) : W15 m ρ c (Proc.devRef .tc r) = m ((c : Thread nD τ).loc r) :=
  (keep14 m ρ c r ((by decide : ∀ r ∈ argList, r ≠ main_v60) r hr)).trans (args14 m ρ c r hr)
theorem args16 (r : Ref sig .tc) (hr : r ∈ argList) : W16 m ρ c (Proc.devRef .tc r) = m ((c : Thread nD τ).loc r) :=
  (keep15 m ρ c r ((by decide : ∀ r ∈ argList, r ∉ written7) r hr)).trans (args15 m ρ c r hr)
theorem args17 (r : Ref sig .tc) (hr : r ∈ argList) : W17 m ρ c (Proc.devRef .tc r) = m ((c : Thread nD τ).loc r) :=
  (keep16 m ρ c r ((by decide : ∀ r ∈ argList, r ≠ main_v72) r hr)).trans (args16 m ρ c r hr)
theorem args18 (r : Ref sig .tc) (hr : r ∈ argList) : W18 m ρ c (Proc.devRef .tc r) = m ((c : Thread nD τ).loc r) :=
  (keep17 m ρ c r ((by decide : ∀ r ∈ argList, r ≠ main_v73) r hr)).trans (args17 m ρ c r hr)
theorem args19 (r : Ref sig .tc) (hr : r ∈ argList) : W19 m ρ c (Proc.devRef .tc r) = m ((c : Thread nD τ).loc r) :=
  (keep18 m ρ c r ((by decide : ∀ r ∈ argList, r ∉ written9) r hr)).trans (args18 m ρ c r hr)
theorem args20 (r : Ref sig .tc) (hr : r ∈ argList) : W20 m ρ c (Proc.devRef .tc r) = m ((c : Thread nD τ).loc r) :=
  (keep19 m ρ c r ((by decide : ∀ r ∈ argList, r ≠ main_v85) r hr)).trans (args19 m ρ c r hr)
theorem args21 (r : Ref sig .tc) (hr : r ∈ argList) : W21 m ρ c (Proc.devRef .tc r) = m ((c : Thread nD τ).loc r) :=
  (keep20 m ρ c r ((by decide : ∀ r ∈ argList, r ≠ main_v86) r hr)).trans (args20 m ρ c r hr)
theorem args22 (r : Ref sig .tc) (hr : r ∈ argList) : W22 m ρ c (Proc.devRef .tc r) = m ((c : Thread nD τ).loc r) :=
  (keep21 m ρ c r ((by decide : ∀ r ∈ argList, r ∉ written11) r hr)).trans (args21 m ρ c r hr)
theorem args23 (r : Ref sig .tc) (hr : r ∈ argList) : W23 m ρ c (Proc.devRef .tc r) = m ((c : Thread nD τ).loc r) :=
  (keep22 m ρ c r ((by decide : ∀ r ∈ argList, r ≠ main_v98) r hr)).trans (args22 m ρ c r hr)
theorem args24 (r : Ref sig .tc) (hr : r ∈ argList) : W24 m ρ c (Proc.devRef .tc r) = m ((c : Thread nD τ).loc r) :=
  (keep23 m ρ c r ((by decide : ∀ r ∈ argList, r ≠ main_v99) r hr)).trans (args23 m ρ c r hr)
theorem args25 (r : Ref sig .tc) (hr : r ∈ argList) : W25 m ρ c (Proc.devRef .tc r) = m ((c : Thread nD τ).loc r) :=
  (keep24 m ρ c r ((by decide : ∀ r ∈ argList, r ∉ written13) r hr)).trans (args24 m ρ c r hr)
theorem args26 (r : Ref sig .tc) (hr : r ∈ argList) : W26 m ρ c (Proc.devRef .tc r) = m ((c : Thread nD τ).loc r) :=
  (keep25 m ρ c r ((by decide : ∀ r ∈ argList, r ≠ main_v111) r hr)).trans (args25 m ρ c r hr)

/-! ## The degree-factor columns hold, from the first pass on, what they held when it was entered -/

theorem norms5 (r : Ref sig .tc) (hr : r ∈ normList) : W5 m ρ c (Proc.devRef .tc r) = W5 m ρ c (Proc.devRef .tc r) := rfl
theorem norms6 (r : Ref sig .tc) (hr : r ∈ normList) : W6 m ρ c (Proc.devRef .tc r) = W5 m ρ c (Proc.devRef .tc r) :=
  (keep5 m ρ c r ((by decide : ∀ r ∈ normList, r ≠ main_v21) r hr)).trans (norms5 m ρ c r hr)
theorem norms7 (r : Ref sig .tc) (hr : r ∈ normList) : W7 m ρ c (Proc.devRef .tc r) = W5 m ρ c (Proc.devRef .tc r) :=
  (keep6 m ρ c r ((by decide : ∀ r ∈ normList, r ∉ written1) r hr)).trans (norms6 m ρ c r hr)
theorem norms8 (r : Ref sig .tc) (hr : r ∈ normList) : W8 m ρ c (Proc.devRef .tc r) = W5 m ρ c (Proc.devRef .tc r) :=
  (keep7 m ρ c r ((by decide : ∀ r ∈ normList, r ≠ main_v33) r hr)).trans (norms7 m ρ c r hr)
theorem norms9 (r : Ref sig .tc) (hr : r ∈ normList) : W9 m ρ c (Proc.devRef .tc r) = W5 m ρ c (Proc.devRef .tc r) :=
  (keep8 m ρ c r ((by decide : ∀ r ∈ normList, r ≠ main_v34) r hr)).trans (norms8 m ρ c r hr)
theorem norms10 (r : Ref sig .tc) (hr : r ∈ normList) : W10 m ρ c (Proc.devRef .tc r) = W5 m ρ c (Proc.devRef .tc r) :=
  (keep9 m ρ c r ((by decide : ∀ r ∈ normList, r ∉ written3) r hr)).trans (norms9 m ρ c r hr)
theorem norms11 (r : Ref sig .tc) (hr : r ∈ normList) : W11 m ρ c (Proc.devRef .tc r) = W5 m ρ c (Proc.devRef .tc r) :=
  (keep10 m ρ c r ((by decide : ∀ r ∈ normList, r ≠ main_v46) r hr)).trans (norms10 m ρ c r hr)
theorem norms12 (r : Ref sig .tc) (hr : r ∈ normList) : W12 m ρ c (Proc.devRef .tc r) = W5 m ρ c (Proc.devRef .tc r) :=
  (keep11 m ρ c r ((by decide : ∀ r ∈ normList, r ≠ main_v47) r hr)).trans (norms11 m ρ c r hr)
theorem norms13 (r : Ref sig .tc) (hr : r ∈ normList) : W13 m ρ c (Proc.devRef .tc r) = W5 m ρ c (Proc.devRef .tc r) :=
  (keep12 m ρ c r ((by decide : ∀ r ∈ normList, r ∉ written5) r hr)).trans (norms12 m ρ c r hr)
theorem norms14 (r : Ref sig .tc) (hr : r ∈ normList) : W14 m ρ c (Proc.devRef .tc r) = W5 m ρ c (Proc.devRef .tc r) :=
  (keep13 m ρ c r ((by decide : ∀ r ∈ normList, r ≠ main_v59) r hr)).trans (norms13 m ρ c r hr)
theorem norms15 (r : Ref sig .tc) (hr : r ∈ normList) : W15 m ρ c (Proc.devRef .tc r) = W5 m ρ c (Proc.devRef .tc r) :=
  (keep14 m ρ c r ((by decide : ∀ r ∈ normList, r ≠ main_v60) r hr)).trans (norms14 m ρ c r hr)
theorem norms16 (r : Ref sig .tc) (hr : r ∈ normList) : W16 m ρ c (Proc.devRef .tc r) = W5 m ρ c (Proc.devRef .tc r) :=
  (keep15 m ρ c r ((by decide : ∀ r ∈ normList, r ∉ written7) r hr)).trans (norms15 m ρ c r hr)
theorem norms17 (r : Ref sig .tc) (hr : r ∈ normList) : W17 m ρ c (Proc.devRef .tc r) = W5 m ρ c (Proc.devRef .tc r) :=
  (keep16 m ρ c r ((by decide : ∀ r ∈ normList, r ≠ main_v72) r hr)).trans (norms16 m ρ c r hr)
theorem norms18 (r : Ref sig .tc) (hr : r ∈ normList) : W18 m ρ c (Proc.devRef .tc r) = W5 m ρ c (Proc.devRef .tc r) :=
  (keep17 m ρ c r ((by decide : ∀ r ∈ normList, r ≠ main_v73) r hr)).trans (norms17 m ρ c r hr)
theorem norms19 (r : Ref sig .tc) (hr : r ∈ normList) : W19 m ρ c (Proc.devRef .tc r) = W5 m ρ c (Proc.devRef .tc r) :=
  (keep18 m ρ c r ((by decide : ∀ r ∈ normList, r ∉ written9) r hr)).trans (norms18 m ρ c r hr)
theorem norms20 (r : Ref sig .tc) (hr : r ∈ normList) : W20 m ρ c (Proc.devRef .tc r) = W5 m ρ c (Proc.devRef .tc r) :=
  (keep19 m ρ c r ((by decide : ∀ r ∈ normList, r ≠ main_v85) r hr)).trans (norms19 m ρ c r hr)
theorem norms21 (r : Ref sig .tc) (hr : r ∈ normList) : W21 m ρ c (Proc.devRef .tc r) = W5 m ρ c (Proc.devRef .tc r) :=
  (keep20 m ρ c r ((by decide : ∀ r ∈ normList, r ≠ main_v86) r hr)).trans (norms20 m ρ c r hr)
theorem norms22 (r : Ref sig .tc) (hr : r ∈ normList) : W22 m ρ c (Proc.devRef .tc r) = W5 m ρ c (Proc.devRef .tc r) :=
  (keep21 m ρ c r ((by decide : ∀ r ∈ normList, r ∉ written11) r hr)).trans (norms21 m ρ c r hr)
theorem norms23 (r : Ref sig .tc) (hr : r ∈ normList) : W23 m ρ c (Proc.devRef .tc r) = W5 m ρ c (Proc.devRef .tc r) :=
  (keep22 m ρ c r ((by decide : ∀ r ∈ normList, r ≠ main_v98) r hr)).trans (norms22 m ρ c r hr)
theorem norms24 (r : Ref sig .tc) (hr : r ∈ normList) : W24 m ρ c (Proc.devRef .tc r) = W5 m ρ c (Proc.devRef .tc r) :=
  (keep23 m ρ c r ((by decide : ∀ r ∈ normList, r ≠ main_v99) r hr)).trans (norms23 m ρ c r hr)
theorem norms25 (r : Ref sig .tc) (hr : r ∈ normList) : W25 m ρ c (Proc.devRef .tc r) = W5 m ρ c (Proc.devRef .tc r) :=
  (keep24 m ρ c r ((by decide : ∀ r ∈ normList, r ∉ written13) r hr)).trans (norms24 m ρ c r hr)
theorem norms26 (r : Ref sig .tc) (hr : r ∈ normList) : W26 m ρ c (Proc.devRef .tc r) = W5 m ρ c (Proc.devRef .tc r) :=
  (keep25 m ρ c r ((by decide : ∀ r ∈ normList, r ≠ main_v111) r hr)).trans (norms25 m ρ c r hr)

end Cert.KernelIdeal.Fold

end
-- ==== Proof.KernelHost.lean ====
/-
  The host operations between the tiled passes, read as functions.

  Between two passes the program gathers the rows of the current feature array by the edges' source endpoints
  (negative indices wrapped by the node count), adds each gathered row into the row of the edge's destination
  endpoint, starting from zeros — the sum of a node's in-neighbours' rows — and lays the next layer's bias out as a
  one-row matrix. Each such stretch, from ANY valuation of the buffers, leaves the neighbourhood sum of the
  feature buffer it read in the buffer the next pass reads, and the bias row beside it.
-/
import proofs.«139564_j34376918237986_1_alg».proof.Defs
import proofs.«139564_j34376918237986_1_alg».proof.Proof.Gen.KernelIdeal.Launch
import proofs.«139564_j34376918237986_1_alg».proof.Proof.LibGraphConv
import Idealize.ShloMosaic.Lib.StableHlo.Run
import Idealize.ShloMosaic.Lib.Pipeline.Value
import Idealize.ShloMosaic.Lib.ValueLayout

set_option maxRecDepth 16384

noncomputable section

namespace Cert.KernelIdeal.HostVal

open Idealize.ShloMosaic Idealize.ShloMosaic.TcCoe Idealize.ShloMosaic.StableHlo Idealize.ShloMosaic.ValueIdx
open Cert.KernelIdeal Cert.KernelIdeal.Gen

/-- An array of edge endpoints. -/
abbrev Ends : Type := (⟨S640000, .i32⟩ : BufTy).Contents (Elt Ideal)

/-- Source endpoints with negative entries wrapped by the node count, as a one-column array. -/
def wrapped (a1 : Ends) : (⟨S640000x1, .i32⟩ : BufTy).Contents (Elt Ideal) :=
  broadcastInDim S640000x1 ![0] bcast_S640000_S640000x1_0
    (select (cmpi .slt a1 (broadcastInDim S640000 ![] bcast_S_S640000 (constantI S_ 32 0#32)))
      (addi a1 (broadcastInDim S640000 ![] bcast_S_S640000 (constantI S_ 32 40000#32))) a1)

/-- The sum over each node's in-neighbours of the rows of `y`, at width 64. -/
def agg64 (a1 a2 : Ends) (y : Gcn.Mat 40000 64) : Gcn.Mat 40000 64 :=
  Host.scatterAdd scatter_S40000x64_S640000x1_S640000x64_1_0_0_1
    (broadcastInDim S40000x64 ![] bcast_S_S40000x64 (constant (F := Ideal) S_ .f32 0x00000000#32))
    (broadcastInDim S640000x1 ![0] bcast_S640000_S640000x1_0 a2)
    (Host.gather gather_S40000x64_S640000x1_S640000x64_1_0_n_n_0_1_164 y (wrapped a1))
/-- … at width 128. -/
def agg128 (a1 a2 : Ends) (y : Gcn.Mat 40000 128) : Gcn.Mat 40000 128 :=
  Host.scatterAdd scatter_S40000x128_S640000x1_S640000x128_1_0_0_1
    (broadcastInDim S40000x128 ![] bcast_S_S40000x128 (constant (F := Ideal) S_ .f32 0x00000000#32))
    (broadcastInDim S640000x1 ![0] bcast_S640000_S640000x1_0 a2)
    (Host.gather gather_S40000x128_S640000x1_S640000x128_1_0_n_n_0_1_1128 y (wrapped a1))
/-- … at width 1. -/
def agg1 (a1 a2 : Ends) (y : Gcn.Mat 40000 1) : Gcn.Mat 40000 1 :=
  Host.scatterAdd scatter_S40000x1_S640000x1_S640000x1_1_0_0_1
    (broadcastInDim S40000x1 ![] bcast_S_S40000x1 (constant (F := Ideal) S_ .f32 0x00000000#32))
    (broadcastInDim S640000x1 ![0] bcast_S640000_S640000x1_0 a2)
    (Host.gather gather_S40000x1_S640000x1_S640000x1_1_0_n_n_0_1_11 y (wrapped a1))

variable (V : Valuation τ sig (Elt Ideal))

/-! ## The seven stretches between passes -/

set_option maxHeartbeats 4000000 in
/-- The stretch leaves, where the next pass reads its features, the neighbourhood sum of what the last pass wrote. -/
theorem sum1 : StableHlo.after hostOps1 V (Proc.devRef .tc main_v31)
    = agg64 (V (Proc.devRef .tc main_arg1)) (V (Proc.devRef .tc main_arg2)) (V (Proc.devRef .tc main_v21)) := by
  after_results_simp
  rfl

set_option maxHeartbeats 4000000 in
/-- … and the layer's bias as a one-row matrix. -/
theorem bias1 : Gcn.rowOf (StableHlo.after hostOps1 V (Proc.devRef .tc main_v32)) = V (Proc.devRef .tc main_arg4) := by
  after_results_simp
  funext j
  obtain ⟨k, rfl⟩ : ∃ k, j = ix1 k := ⟨j 0, eq_ix1 j⟩
  exact shapeCast_a_1a_apply _ _ 0 k

set_option maxHeartbeats 4000000 in
/-- The stretch leaves, where the next pass reads its features, the neighbourhood sum of what the last pass wrote. -/
theorem sum3 : StableHlo.after hostOps3 V (Proc.devRef .tc main_v44)
    = agg64 (V (Proc.devRef .tc main_arg1)) (V (Proc.devRef .tc main_arg2)) (V (Proc.devRef .tc main_v34)) := by
  after_results_simp
  rfl

set_option maxHeartbeats 4000000 in
/-- … and the layer's bias as a one-row matrix. -/
theorem bias3 : Gcn.rowOf (StableHlo.after hostOps3 V (Proc.devRef .tc main_v45)) = V (Proc.devRef .tc main_arg6) := by
  after_results_simp
  funext j
  obtain ⟨k, rfl⟩ : ∃ k, j = ix1 k := ⟨j 0, eq_ix1 j⟩
  exact shapeCast_a_1a_apply _ _ 0 k

set_option maxHeartbeats 4000000 in
/-- The stretch leaves, where the next pass reads its features, the neighbourhood sum of what the last pass wrote. -/
theorem sum5 : StableHlo.after hostOps5 V (Proc.devRef .tc main_v57)
    = agg128 (V (Proc.devRef .tc main_arg1)) (V (Proc.devRef .tc main_arg2)) (V (Proc.devRef .tc main_v47)) := by
  after_results_simp
  rfl

set_option maxHeartbeats 4000000 in
/-- … and the layer's bias as a one-row matrix. -/
theorem bias5 : Gcn.rowOf (StableHlo.after hostOps5 V (Proc.devRef .tc main_v58)) = V (Proc.devRef .tc main_arg8) := by
  after_results_simp
  funext j
  obtain ⟨k, rfl⟩ : ∃ k, j = ix1 k := ⟨j 0, eq_ix1 j⟩
  exact shapeCast_a_1a_apply _ _ 0 k

set_option maxHeartbeats 4000000 in
/-- The stretch leaves, where the next pass reads its features, the neighbourhood sum of what the last pass wrote. -/
theorem sum7 : StableHlo.after hostOps7 V (Proc.devRef .tc main_v70)
    = agg64 (V (Proc.devRef .tc main_arg1)) (V (Proc.devRef .tc main_arg2)) (V (Proc.devRef .tc main_v60)) := by
  after_results_simp
  rfl

set_option maxHeartbeats 4000000 in
/-- … and the layer's bias as a one-row matrix. -/
theorem bias7 : Gcn.rowOf (StableHlo.after hostOps7 V (Proc.devRef .tc main_v71)) = V (Proc.devRef .tc main_arg10) := by
  after_results_simp
  funext j
  obtain ⟨k, rfl⟩ : ∃ k, j = ix1 k := ⟨j 0, eq_ix1 j⟩
  exact shapeCast_a_1a_apply _ _ 0 k

set_option maxHeartbeats 4000000 in
/-- The stretch leaves, where the next pass reads its features, the neighbourhood sum of what the last pass wrote. -/
theorem sum9 : StableHlo.after hostOps9 V (Proc.devRef .tc main_v83)
    = agg64 (V (Proc.devRef .tc main_arg1)) (V (Proc.devRef .tc main_arg2)) (V (Proc.devRef .tc main_v73)) := by
  after_results_simp
  rfl

set_option maxHeartbeats 4000000 in
/-- … and the layer's bias as a one-row matrix. -/
theorem bias9 : Gcn.rowOf (StableHlo.after hostOps9 V (Proc.devRef .tc main_v84)) = V (Proc.devRef .tc main_arg12) := by
  after_results_simp
  funext j
  obtain ⟨k, rfl⟩ : ∃ k, j = ix1 k := ⟨j 0, eq_ix1 j⟩
  exact shapeCast_a_1a_apply _ _ 0 k

set_option maxHeartbeats 4000000 in
/-- The stretch leaves, where the next pass reads its features, the neighbourhood sum of what the last pass wrote. -/
theorem sum11 : StableHlo.after hostOps11 V (Proc.devRef .tc main_v96)
    = agg64 (V (Proc.devRef .tc main_arg1)) (V (Proc.devRef .tc main_arg2)) (V (Proc.devRef .tc main_v86)) := by
  after_results_simp
  rfl

set_option maxHeartbeats 4000000 in
/-- … and the layer's bias as a one-row matrix. -/
theorem bias11 : Gcn.rowOf (StableHlo.after hostOps11 V (Proc.devRef .tc main_v97)) = V (Proc.devRef .tc main_arg14) := by
  after_results_simp
  funext j
  obtain ⟨k, rfl⟩ : ∃ k, j = ix1 k := ⟨j 0, eq_ix1 j⟩
  exact shapeCast_a_1a_apply _ _ 0 k

set_option maxHeartbeats 4000000 in
/-- The stretch leaves, where the next pass reads its features, the neighbourhood sum of what the last pass wrote. -/
theorem sum13 : StableHlo.after hostOps13 V (Proc.devRef .tc main_v109)
    = agg1 (V (Proc.devRef .tc main_arg1)) (V (Proc.devRef .tc main_arg2)) (V (Proc.devRef .tc main_v99)) := by
  after_results_simp
  rfl

set_option maxHeartbeats 4000000 in
/-- … and the layer's bias as a one-row matrix. -/
theorem bias13 : Gcn.rowOf (StableHlo.after hostOps13 V (Proc.devRef .tc main_v110)) = V (Proc.devRef .tc main_arg16) := by
  after_results_simp
  funext j
  obtain ⟨k, rfl⟩ : ∃ k, j = ix1 k := ⟨j 0, eq_ix1 j⟩
  exact shapeCast_a_1a_apply _ _ 0 k

end Cert.KernelIdeal.HostVal

end
-- ==== Proof.LibAfterResultsCat.lean ====
/-
  Evaluating a straight-line host program's operations past a concatenation.

  What a buffer holds after a list of host operations is a fold; the library evaluates it in one rewriting pass, operation by operation.
  A concatenation takes its operands as a LIST of (shape, vector) pairs, and the pass does not rewrite under such pairs: whatever is
  looked up inside them stays a fold over all the earlier operations. Stated as ordinary functions of two or three vectors, a
  concatenation's operands are rewritten like any other's. The equations are definitional; the pass applies them on the way down,
  before it visits the operands.
-/
import Idealize.ShloMosaic.Lib.StableHlo.Run

noncomputable section

namespace Idealize.ShloMosaic.StableHlo

open Idealize.ShloMosaic

/-- A concatenation of two vectors as a function of the two. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-- A concatenation of three vectors as a function of the three. -/
def cat3 {α : Type} (t : Shape) (a : Fin t.rank) (s₁ s₂ s₃ : Shape) (h : Shape.Concatenates [s₁, s₂, s₃] t a)
    (x : s₁.Idx → α) (y : s₂.Idx → α) (z : s₃.Idx → α) : t.Idx → α :=
  concatenate t a [⟨s₁, x⟩, ⟨s₂, y⟩, ⟨s₃, z⟩] h

theorem concatenate_triple {α : Type} (t : Shape) (a : Fin t.rank) (s₁ s₂ s₃ : Shape) (h : Shape.Concatenates [s₁, s₂, s₃] t a)
    (x : s₁.Idx → α) (y : s₂.Idx → α) (z : s₃.Idx → α) :
    concatenate t a [⟨s₁, x⟩, ⟨s₂, y⟩, ⟨s₃, z⟩] h = cat3 t a s₁ s₂ s₃ h x y z := rfl

/-- The one-pass evaluation of an operation list's results, concatenations' operands included. -/
macro "after_results_cat" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', ↓concatenate_pair, ↓concatenate_triple]))

/-- The operations of a function the program calls carry their values through casts along the equality of a buffer's type with
    the value's type; the two types are the same once the buffer is a literal, and the casts then go. To be run after
    `after_results_cat`, and on one call's operations at a time, over whatever the buffers held before: each cast
    removed is a rewrite inside the whole term, so the smaller the term around it the better. -/
macro "after_results_strip" : tactic =>
  `(tactic| (simp only [TRef.toBuf, TRef.ofBuf, cast_eq]))

end Idealize.ShloMosaic.StableHlo

end
-- ==== Proof.KernelDegree.lean ====
/-
  The two degree factors, read off the host operations before the first pass.

  The program counts, for every node, the edges leaving it and the edges entering it (a scatter-add of ones along
  the source endpoints, and along the destination endpoints), and turns a count `d` into the factor
  `1 / sqrt (max d 1)` where `d > 0` and `0` elsewhere; the two vectors of factors are then laid out as one-column
  matrices, which is how the passes read them. Each stretch is read from ANY valuation of the buffers; chained
  through the boundaries before the first pass they give the two columns as functions of the endpoint arrays.
-/
import proofs.«139564_j34376918237986_1_alg».proof.Defs
import proofs.«139564_j34376918237986_1_alg».proof.Proof.Gen.KernelIdeal.Frame
import proofs.«139564_j34376918237986_1_alg».proof.Proof.LibGraphConv
import proofs.«139564_j34376918237986_1_alg».proof.Proof.LibAfterResultsCat
import proofs.«139564_j34376918237986_1_alg».proof.Proof.KernelFold
import proofs.«139564_j34376918237986_1_alg».proof.Proof.KernelHost
import Idealize.ShloMosaic.Lib.StableHlo.Run
import Idealize.ShloMosaic.Lib.Pipeline.Value

set_option maxRecDepth 16384

noncomputable section

namespace Cert.KernelIdeal.HostVal

open Idealize.ShloMosaic Idealize.ShloMosaic.TcCoe Idealize.ShloMosaic.StableHlo Idealize.ShloMosaic.ValueIdx
open Cert.KernelIdeal Cert.KernelIdeal.Gen

/-- The all-zero and all-one vectors, one entry per node. -/
def zeros : Gcn.Col 40000 := broadcastInDim S40000 ![] bcast_S_S40000 (constant (F := Ideal) S_ .f32 0x00000000#32)
def ones : Gcn.Col 40000 := broadcastInDim S40000 ![] bcast_S_S40000 (constant (F := Ideal) S_ .f32 0x3F800000#32)

/-- How many edges have each node as the given endpoint: ones added along the endpoint array into zeros. -/
def degree (a : Ends) : Gcn.Col 40000 :=
  Host.scatterAdd scatter_S40000_S640000x1_S640000_n_0_0_1 zeros
    (broadcastInDim S640000x1 ![0] bcast_S640000_S640000x1_0 a)
    (broadcastInDim S640000 ![] bcast_S_S640000 (constant (F := Ideal) S_ .f32 0x3F800000#32))

/-- The factor of a count: the reciprocal square root of the count raised to at least one, where the count is
    positive; zero elsewhere. -/
def factorOf (d : Gcn.Col 40000) (z : (⟨S_, .f32⟩ : BufTy).Contents (Elt Ideal)) : Gcn.Col 40000 :=
  select (cmpf .ogt d zeros) (Host.rsqrt (maximumf d ones)) (broadcastInDim S40000 ![] bcast_S_S40000 (id z))

/-- The degree factor of an endpoint array. -/
def degFactor (a : Ends) : Gcn.Col 40000 := factorOf (degree a) (constant (F := Ideal) S_ .f32 0x00000000#32)

variable (V : Valuation τ sig (Elt Ideal))

/-! ## The five stretches, each from any valuation -/

set_option maxHeartbeats 4000000 in
theorem first_gt : StableHlo.after hostOps0 V (Proc.devRef .tc main_v8) = cmpf .ogt (degree (V (Proc.devRef .tc main_arg1))) zeros := by
  after_results_simp
  rfl
set_option maxHeartbeats 4000000 in
theorem first_rsqrt : StableHlo.after hostOps0 V (Proc.devRef .tc main_v11)
    = Host.rsqrt (maximumf (degree (V (Proc.devRef .tc main_arg1))) ones) := by
  after_results_simp
  rfl
set_option maxHeartbeats 4000000 in
theorem first_zero : StableHlo.after hostOps0 V (Proc.devRef .tc main_cst_4) = constant (F := Ideal) S_ .f32 0x00000000#32 := by
  after_results_simp
set_option maxHeartbeats 4000000 in
theorem first_in : StableHlo.after hostOps0 V (Proc.devRef .tc main_v6) = degree (V (Proc.devRef .tc main_arg2)) := by
  after_results_simp
  rfl

set_option maxHeartbeats 4000000 in
theorem where_out : StableHlo.after hostOps0_1 V (Proc.devRef .tc main_v12)
    = select (V (Proc.devRef .tc main_v8)) (V (Proc.devRef .tc main_v11))
        (broadcastInDim S40000 ![] bcast_S_S40000 (id (V (Proc.devRef .tc main_cst_4)))) := by
  after_results_simp
  after_results_strip

set_option maxHeartbeats 4000000 in
theorem second_gt : StableHlo.after hostOps0_2 V (Proc.devRef .tc main_v14) = cmpf .ogt (V (Proc.devRef .tc main_v6)) zeros := by
  after_results_simp
  rfl
set_option maxHeartbeats 4000000 in
theorem second_rsqrt : StableHlo.after hostOps0_2 V (Proc.devRef .tc main_v17) = Host.rsqrt (maximumf (V (Proc.devRef .tc main_v6)) ones) := by
  after_results_simp
  rfl
set_option maxHeartbeats 4000000 in
theorem second_zero : StableHlo.after hostOps0_2 V (Proc.devRef .tc main_cst_7) = constant (F := Ideal) S_ .f32 0x00000000#32 := by
  after_results_simp

set_option maxHeartbeats 4000000 in
theorem where_in : StableHlo.after hostOps0_3 V (Proc.devRef .tc main_v18)
    = select (V (Proc.devRef .tc main_v14)) (V (Proc.devRef .tc main_v17))
        (broadcastInDim S40000 ![] bcast_S_S40000 (id (V (Proc.devRef .tc main_cst_7)))) := by
  after_results_simp
  after_results_strip

/-- A vector laid out as a one-column matrix reads back as the vector. -/
theorem colOf_reshape (x : Gcn.Col 40000) (h : (⟨1, ![40000]⟩ : Shape).ShapeCasts ⟨2, ![40000, 1]⟩) :
    Gcn.colOf (shapeCast ⟨2, ![40000, 1]⟩ x h) = x := by
  funext j
  obtain ⟨r, rfl⟩ : ∃ r, j = ix1 r := ⟨j 0, eq_ix1 j⟩
  refine (shapeCast_apply x h (ix2 r (0 : Fin 1)) (ix1 r) ?_)
  rw [Shape.rowMajor_val_two, Shape.rowMajor_val_one]
  show r.val = r.val * 1 + 0
  omega

set_option maxHeartbeats 4000000 in
theorem col_out : Gcn.colOf (StableHlo.after hostOps0_4 V (Proc.devRef .tc main_v19)) = V (Proc.devRef .tc main_v12) := by
  after_results_simp
  exact colOf_reshape _ _
set_option maxHeartbeats 4000000 in
theorem col_in : Gcn.colOf (StableHlo.after hostOps0_4 V (Proc.devRef .tc main_v20)) = V (Proc.devRef .tc main_v18) := by
  after_results_simp
  exact colOf_reshape _ _

/-! ## Chained through the boundaries before the first pass -/

variable (m : (ℓ : Loc nD τ sig) → Buf (Elt Ideal) ℓ) (ρ : Dev nD → PrngReg) (c : Dev nD)

/-- When the first pass is entered, the out-degree column holds the degree factors of the source endpoints. -/
theorem out_factor : Gcn.colOf (W5 m ρ c (Proc.devRef .tc main_v19)) = degFactor (m ((c : Thread nD τ).loc main_arg1)) := by
  refine (col_out (W4 m ρ c)).trans ?_
  refine (Fold.keep3 m ρ c main_v12 (by decide)).trans ?_
  refine (Fold.keep2 m ρ c main_v12 (by decide)).trans ?_
  refine (where_out (W1 m ρ c)).trans ?_
  dsimp only [W1]
  rw [first_gt (W0 m ρ c), first_rsqrt (W0 m ρ c), first_zero (W0 m ρ c)]
  rfl

/-- … and the in-degree column the degree factors of the destination endpoints. -/
theorem in_factor : Gcn.colOf (W5 m ρ c (Proc.devRef .tc main_v20)) = degFactor (m ((c : Thread nD τ).loc main_arg2)) := by
  refine (col_in (W4 m ρ c)).trans ?_
  refine (where_in (W3 m ρ c)).trans ?_
  dsimp only [W3]
  rw [second_gt (W2 m ρ c), second_rsqrt (W2 m ρ c), second_zero (W2 m ρ c)]
  rw [Fold.keep1 m ρ c main_v6 (by decide)]
  dsimp only [W1]
  rw [first_in (W0 m ρ c)]
  rfl

end Cert.KernelIdeal.HostVal

end
-- ==== Proof.LibPlainDot.lean ====
/-
  A matrix product read entry by entry.

  For a contraction of the second axis of an [M, K] matrix with the first axis of a [K, N] matrix — whatever record of
  dimension numbers spells it, as long as its operand indices at an output entry (r, c) and a contraction coordinate k
  are (r, k) and (k, c) — the sum over the record's contraction index type is the ordinary sum over `k : Fin K` of
  `x (r, k) * w (k, c)`. On the extended reals this is what both a block product on the matrix unit (into a zero
  accumulator) and a host `dot_general` denote, so the two meet in this one form.
-/
import Idealize.ShloMosaic.PureOps.Ideal.Laws
import Idealize.ShloMosaic.Lib.ValueIdx

namespace Idealize.ShloMosaic.PlainDot

open Idealize.ShloMosaic Idealize.ShloMosaic.ValueIdx

/-- The contraction sum of a plain two-dimensional product, re-indexed by the contracted coordinate. The four
    hypotheses say where the record reads its operands: the left one at (row of the entry, k), the right one at
    (k, column of the entry). -/
theorem sum_contr {M K N : Nat} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal)
    (i : (⟨2, ![M, N]⟩ : Shape).Idx) :
    ∑ q : D.contr.Idx, x (D.lhsIdx i q) * w (D.rhsIdx i q) = ∑ k : Fin K, x (ix2 (i 0) k) * w (ix2 k (i 1)) := by
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact l0 _ _
    | ⟨1, _⟩ => exact (l1 _ _).trans hk)
  have er : D.rhsIdx i ((contrEquiv1 D K hr hs).symm k) = ix2 k (i 1) := funext fun a => Fin.ext (by
    match a with
    | ⟨0, _⟩ => exact (r0 _ _).trans hk
    | ⟨1, _⟩ => exact r1 _ _)
  rw [el, er]
  rfl

/-- A product on the matrix unit into a zero accumulator, at an entry: the sum over the contracted coordinate. -/
theorem matmul_zero_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision) (x : FVec Ideal ⟨2, ![M, K]⟩ φ₁) (w : FVec Ideal ⟨2, ![K, N]⟩ φ₂)
    (i : (⟨2, ![M, N]⟩ : Shape).Idx) :
    FloatOps.matmul D prec x w (constant ⟨2, ![M, N]⟩ .f32 0x00000000#32) i
      = ∑ k : Fin K, x (ix2 (i 0) k) * w (ix2 k (i 1)) :=
  (Ideal.matmul_constant_zero_apply D prec x w i).trans (sum_contr D hr hs l0 l1 r0 r1 x w i)

/-- A host `dot_general` at an entry: the same sum. -/
theorem dotGeneral_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision) (sched : HostSchedule) (x : FVec Ideal ⟨2, ![M, K]⟩ φ₁) (w : FVec Ideal ⟨2, ![K, N]⟩ φ₂)
    (i : (⟨2, ![M, N]⟩ : Shape).Idx) :
    FloatOps.dotGeneral D prec sched x w i = ∑ k : Fin K, x (ix2 (i 0) k) * w (ix2 k (i 1)) :=
  (Ideal.dotGeneral_apply D prec sched x w i).trans (sum_contr D hr hs l0 l1 r0 r1 x w i)

end Idealize.ShloMosaic.PlainDot
-- ==== Proof.RegionScale.lean ====
/-
  The row-scaling bodies of the graph-convolution passes, read entry by entry.

  One tiled pass owns a block of 4000 rows. Its body takes the block `x` of the features and the block `s` of the
  out-degree factors (a column, one entry per row) and either stores `x (r, c) · s (r, 0)`, or first multiplies the scaled
  block by a weight matrix `w` on the matrix unit into a zero accumulator, which on the extended reals is the plain sum
  `∑ k, (x (r, k) · s (r, 0)) · w (k, c)` (a change of number format is the identity there). Each body is read once per
  shape over arbitrary blocks; then, for blocks that are the rows `R r` of whole arrays, the entry is the corresponding
  entry of `Gcn.rowScale` or of `Gcn.matMul (Gcn.rowScale …)` of those arrays.
-/
import proofs.«139564_j34376918237986_1_alg».proof.Proof.Gen.KernelIdeal.Skeleton
import proofs.«139564_j34376918237986_1_alg».proof.Proof.LibGraphConv
import proofs.«139564_j34376918237986_1_alg».proof.Proof.LibPlainDot
import Idealize.ShloMosaic.Lib.Pipeline.Value
import Idealize.ShloMosaic.Lib.ValueIdx

noncomputable section

open scoped BigOperators

namespace Cert.KernelIdeal.RegionVal

open Cert.KernelIdeal Cert.KernelIdeal.Gen Idealize.ShloMosaic Idealize.ShloMosaic.ValueIdx

/-- The offsets of a whole-block access are zero on both axes. -/
theorem zero_offsets : (![0, 0] : Fin 2 → Nat) = fun _ => 0 := funext fun a => by fin_cases a <;> rfl

/-- Row `r` of the block owned by grid point `t` (of ten) is row `4000 t + r` of the array. -/
abbrev rowOfPoint (t : Nat) (ht : t < 10) (r : Fin 4000) : Fin 40000 := ⟨t * 4000 + r.val, by have := r.isLt; omega⟩

/-! ## The column of factors spread along a row -/

/-- A column block broadcast to width 64: entry (r, c) is the column's entry (r, 0). -/
theorem colBroadcast64 (s : Vec Ideal S4000x1 .f32) (h : S4000x1.Broadcasts S4000x64) (r : Fin 4000) (c : Fin 64) :
    broadcastTo S4000x64 s h (ix2 r c) = s (ix2 r 0) :=
  broadcastTo_apply s h (ix2 r c) (ix2 r 0) fun a => match a with
    | ⟨0, _⟩ => by show r.val = if (4000 : Nat) = 1 then 0 else r.val; rw [if_neg (by decide)]
    | ⟨1, _⟩ => by show 0 = if (1 : Nat) = 1 then 0 else c.val; rw [if_pos rfl]

/-- A column block broadcast to width 128: entry (r, c) is the column's entry (r, 0). -/
theorem colBroadcast128 (s : Vec Ideal S4000x1 .f32) (h : S4000x1.Broadcasts S4000x128) (r : Fin 4000) (c : Fin 128) :
    broadcastTo S4000x128 s h (ix2 r c) = s (ix2 r 0) :=
  broadcastTo_apply s h (ix2 r c) (ix2 r 0) fun a => match a with
    | ⟨0, _⟩ => by show r.val = if (4000 : Nat) = 1 then 0 else r.val; rw [if_neg (by decide)]
    | ⟨1, _⟩ => by show 0 = if (1 : Nat) = 1 then 0 else c.val; rw [if_pos rfl]

/-! ## Scaling only -/

/-- The width-64 scaling body at an entry: the feature times its row's factor. -/
theorem scale64_apply (x : Vec Ideal S4000x64 .f32) (s : Vec Ideal S4000x1 .f32) (r : Fin 4000) (c : Fin 64) :
    k2_pay1 x s (ix2 r c) = x (ix2 r c) * s (ix2 r 0) := by
  have e0 : shapeCast S4000x64 x shapeCasts_S4000x64_S4000x64 = x := shapeCast_self x _
  have e1 : shapeCast S4000x1 s shapeCasts_S4000x1_S4000x1 = s := shapeCast_self s _
  show (shapeCast S4000x64 x shapeCasts_S4000x64_S4000x64) (ix2 r c)
      * (broadcastTo S4000x64 (shapeCast S4000x1 s shapeCasts_S4000x1_S4000x1) broadcasts_S4000x1_S4000x64) (ix2 r c) = _
  rw [e0, e1, colBroadcast64]

/-- The width-128 scaling body at an entry: the feature times its row's factor. -/
theorem scale128_apply (x : Vec Ideal S4000x128 .f32) (s : Vec Ideal S4000x1 .f32) (r : Fin 4000) (c : Fin 128) :
    k4_pay1 x s (ix2 r c) = x (ix2 r c) * s (ix2 r 0) := by
  have e0 : shapeCast S4000x128 x shapeCasts_S4000x128_S4000x128 = x := shapeCast_self x _
  have e1 : shapeCast S4000x1 s shapeCasts_S4000x1_S4000x1 = s := shapeCast_self s _
  show (shapeCast S4000x128 x shapeCasts_S4000x128_S4000x128) (ix2 r c)
      * (broadcastTo S4000x128 (shapeCast S4000x1 s shapeCasts_S4000x1_S4000x1) broadcasts_S4000x1_S4000x128) (ix2 r c) = _
  rw [e0, e1, colBroadcast128]

/-- The three width-64 scaling bodies are one term. -/
theorem k8_pay1_eq (x : Vec Ideal S4000x64 .f32) (s : Vec Ideal S4000x1 .f32) : k8_pay1 x s = k2_pay1 x s := rfl
theorem k10_pay1_eq (x : Vec Ideal S4000x64 .f32) (s : Vec Ideal S4000x1 .f32) : k10_pay1 x s = k2_pay1 x s := rfl

/-- A width-64 block of scaled rows is the rows `R r` of the scaled array. -/
theorem rowScale_block64 (X : Gcn.Mat 40000 64) (S : Gcn.Mat 40000 1) (x : Vec Ideal S4000x64 .f32) (s : Vec Ideal S4000x1 .f32)
    (R : Fin 4000 → Fin 40000)
    (hx : ∀ (r : Fin 4000) (c : Fin 64), x (ix2 r c) = X (ix2 (R r) c))
    (hs : ∀ r : Fin 4000, s (ix2 r 0) = S (ix2 (R r) 0))
    (r : Fin 4000) (c : Fin 64) :
    k2_pay1 x s (ix2 r c) = Gcn.rowScale X (Gcn.colOf S) (ix2 (R r) c) := by
  rw [scale64_apply, hx, hs, Gcn.rowScale_apply, Gcn.colOf_apply]

/-- A width-128 block of scaled rows is the rows `R r` of the scaled array. -/
theorem rowScale_block128 (X : Gcn.Mat 40000 128) (S : Gcn.Mat 40000 1) (x : Vec Ideal S4000x128 .f32) (s : Vec Ideal S4000x1 .f32)
    (R : Fin 4000 → Fin 40000)
    (hx : ∀ (r : Fin 4000) (c : Fin 128), x (ix2 r c) = X (ix2 (R r) c))
    (hs : ∀ r : Fin 4000, s (ix2 r 0) = S (ix2 (R r) 0))
    (r : Fin 4000) (c : Fin 128) :
    k4_pay1 x s (ix2 r c) = Gcn.rowScale X (Gcn.colOf S) (ix2 (R r) c) := by
  rw [scale128_apply, hx, hs, Gcn.rowScale_apply, Gcn.colOf_apply]

/-! ## The product on the matrix unit, at an entry -/

/-- A [4000, 128] block times a [128, 64] matrix into a zero accumulator: the sum over the 128 contracted entries. -/
theorem dot128x64_apply {φ₁ φ₂ : FTy} (a : FVec Ideal S4000x128 φ₁) (w : FVec Ideal S128x64 φ₂) (r : Fin 4000) (c : Fin 64) :
    matmul dot_S4000x128_S128x64_S4000x64_1_0_0_1_n_n none a w (constant (F := Ideal) S4000x64 .f32 0x00000000#32) (ix2 r c)
      = ∑ k : Fin 128, a (ix2 r k) * w (ix2 k c) :=
  PlainDot.matmul_zero_apply (M := 4000) (K := 128) (N := 64) dot_S4000x128_S128x64_S4000x64_1_0_0_1_n_n rfl rfl
    (fun i q => by
      unfold DotDims.lhsIdx
      rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
      rfl)
    (fun i q => dot_S4000x128_S128x64_S4000x64_1_0_0_1_n_n.lhsIdx_val_of_single rfl i q)
    (fun i q => dot_S4000x128_S128x64_S4000x64_1_0_0_1_n_n.rhsIdx_val_of_single rfl i q)
    (fun i q => by
      unfold DotDims.rhsIdx
      rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
      rfl)
    none a w (ix2 r c)

/-- A [4000, 64] block times a [64, 1] matrix into a zero accumulator: the sum over the 64 contracted entries. -/
theorem dot64x1_apply {φ₁ φ₂ : FTy} (a : FVec Ideal S4000x64 φ₁) (w : FVec Ideal S64x1 φ₂) (r : Fin 4000) (c : Fin 1) :
    matmul dot_S4000x64_S64x1_S4000x1_1_0_0_1_n_n none a w (constant (F := Ideal) S4000x1 .f32 0x00000000#32) (ix2 r c)
      = ∑ k : Fin 64, a (ix2 r k) * w (ix2 k c) :=
  PlainDot.matmul_zero_apply (M := 4000) (K := 64) (N := 1) dot_S4000x64_S64x1_S4000x1_1_0_0_1_n_n rfl rfl
    (fun i q => by
      unfold DotDims.lhsIdx
      rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
      rfl)
    (fun i q => dot_S4000x64_S64x1_S4000x1_1_0_0_1_n_n.lhsIdx_val_of_single rfl i q)
    (fun i q => dot_S4000x64_S64x1_S4000x1_1_0_0_1_n_n.rhsIdx_val_of_single rfl i q)
    (fun i q => by
      unfold DotDims.rhsIdx
      rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
      rfl)
    none a w (ix2 r c)

/-! ## Scaling, then the product -/

/-- The first layer's body (128 → 64) at an entry. -/
theorem scaleDotFirst_apply (x : Vec Ideal S4000x128 .f32) (s : Vec Ideal S4000x1 .f32) (w : Vec Ideal S128x64 .f32) (r : Fin 4000) (c : Fin 64) :
    k0_pay1 x s w (ix2 r c) = ∑ k : Fin 128, (x (ix2 r k) * s (ix2 r 0)) * w (ix2 k c) := by
  have e1 : shapeCast S4000x1 s shapeCasts_S4000x1_S4000x1 = s := shapeCast_self s _
  refine (dot128x64_apply
    (truncf .bf16 (mulf x (broadcastTo S4000x128 (shapeCast S4000x1 s shapeCasts_S4000x1_S4000x1) broadcasts_S4000x1_S4000x128)) bitsLt_bf16_f32)
    (truncf .bf16 w bitsLt_bf16_f32) r c).trans ?_
  refine Finset.sum_congr rfl fun k _ => ?_
  show (x (ix2 r k) * (broadcastTo S4000x128 (shapeCast S4000x1 s shapeCasts_S4000x1_S4000x1) broadcasts_S4000x1_S4000x128) (ix2 r k)) * w (ix2 k c) = _
  rw [e1, colBroadcast128]

/-- The fourth layer's body (128 → 64) at an entry. -/
theorem scaleDot128_apply (x : Vec Ideal S4000x128 .f32) (s : Vec Ideal S4000x1 .f32) (w : Vec Ideal S128x64 .f32) (r : Fin 4000) (c : Fin 64) :
    k6_pay1 x s w (ix2 r c) = ∑ k : Fin 128, (x (ix2 r k) * s (ix2 r 0)) * w (ix2 k c) := by
  have e0 : shapeCast S4000x128 x shapeCasts_S4000x128_S4000x128 = x := shapeCast_self x _
  have e1 : shapeCast S4000x1 s shapeCasts_S4000x1_S4000x1 = s := shapeCast_self s _
  refine (dot128x64_apply
    (truncf .bf16 (mulf (shapeCast S4000x128 x shapeCasts_S4000x128_S4000x128) (broadcastTo S4000x128 (shapeCast S4000x1 s shapeCasts_S4000x1_S4000x1) broadcasts_S4000x1_S4000x128)) bitsLt_bf16_f32)
    (truncf .bf16 w bitsLt_bf16_f32) r c).trans ?_
  refine Finset.sum_congr rfl fun k _ => ?_
  show ((shapeCast S4000x128 x shapeCasts_S4000x128_S4000x128) (ix2 r k) * (broadcastTo S4000x128 (shapeCast S4000x1 s shapeCasts_S4000x1_S4000x1) broadcasts_S4000x1_S4000x128) (ix2 r k)) * w (ix2 k c) = _
  rw [e0, e1, colBroadcast128]

/-- The last layer's body (64 → 1) at an entry. -/
theorem scaleDot64_apply (x : Vec Ideal S4000x64 .f32) (s : Vec Ideal S4000x1 .f32) (w : Vec Ideal S64x1 .f32) (r : Fin 4000) (c : Fin 1) :
    k12_pay1 x s w (ix2 r c) = ∑ k : Fin 64, (x (ix2 r k) * s (ix2 r 0)) * w (ix2 k c) := by
  have e0 : shapeCast S4000x64 x shapeCasts_S4000x64_S4000x64 = x := shapeCast_self x _
  have e1 : shapeCast S4000x1 s shapeCasts_S4000x1_S4000x1 = s := shapeCast_self s _
  refine (dot64x1_apply
    (truncf .bf16 (mulf (shapeCast S4000x64 x shapeCasts_S4000x64_S4000x64) (broadcastTo S4000x64 (shapeCast S4000x1 s shapeCasts_S4000x1_S4000x1) broadcasts_S4000x1_S4000x64)) bitsLt_bf16_f32)
    (truncf .bf16 w bitsLt_bf16_f32) r c).trans ?_
  refine Finset.sum_congr rfl fun k _ => ?_
  show ((shapeCast S4000x64 x shapeCasts_S4000x64_S4000x64) (ix2 r k) * (broadcastTo S4000x64 (shapeCast S4000x1 s shapeCasts_S4000x1_S4000x1) broadcasts_S4000x1_S4000x64) (ix2 r k)) * w (ix2 k c) = _
  rw [e0, e1, colBroadcast64]

/-- A block of the first layer's product is the rows `R r` of the product of the scaled array with the weights. -/
theorem scaleDotFirst_block (X : Gcn.Mat 40000 128) (S : Gcn.Mat 40000 1) (W : Gcn.Mat 128 64)
    (x : Vec Ideal S4000x128 .f32) (s : Vec Ideal S4000x1 .f32) (w : Vec Ideal S128x64 .f32) (R : Fin 4000 → Fin 40000)
    (hx : ∀ (r : Fin 4000) (k : Fin 128), x (ix2 r k) = X (ix2 (R r) k))
    (hs : ∀ r : Fin 4000, s (ix2 r 0) = S (ix2 (R r) 0))
    (hw : ∀ (k : Fin 128) (c : Fin 64), w (ix2 k c) = W (ix2 k c))
    (r : Fin 4000) (c : Fin 64) :
    k0_pay1 x s w (ix2 r c) = Gcn.matMul (Gcn.rowScale X (Gcn.colOf S)) W (ix2 (R r) c) := by
  refine (scaleDotFirst_apply x s w r c).trans ?_
  rw [Gcn.matMul_apply]
  refine Finset.sum_congr rfl fun k _ => ?_
  rw [Gcn.rowScale_apply, Gcn.colOf_apply, hx, hs, hw]

/-- A block of the fourth layer's product is the rows `R r` of the product of the scaled array with the weights. -/
theorem scaleDot128_block (X : Gcn.Mat 40000 128) (S : Gcn.Mat 40000 1) (W : Gcn.Mat 128 64)
    (x : Vec Ideal S4000x128 .f32) (s : Vec Ideal S4000x1 .f32) (w : Vec Ideal S128x64 .f32) (R : Fin 4000 → Fin 40000)
    (hx : ∀ (r : Fin 4000) (k : Fin 128), x (ix2 r k) = X (ix2 (R r) k))
    (hs : ∀ r : Fin 4000, s (ix2 r 0) = S (ix2 (R r) 0))
    (hw : ∀ (k : Fin 128) (c : Fin 64), w (ix2 k c) = W (ix2 k c))
    (r : Fin 4000) (c : Fin 64) :
    k6_pay1 x s w (ix2 r c) = Gcn.matMul (Gcn.rowScale X (Gcn.colOf S)) W (ix2 (R r) c) := by
  refine (scaleDot128_apply x s w r c).trans ?_
  rw [Gcn.matMul_apply]
  refine Finset.sum_congr rfl fun k _ => ?_
  rw [Gcn.rowScale_apply, Gcn.colOf_apply, hx, hs, hw]

/-- A block of the last layer's product is the rows `R r` of the product of the scaled array with the weights. -/
theorem scaleDot64_block (X : Gcn.Mat 40000 64) (S : Gcn.Mat 40000 1) (W : Gcn.Mat 64 1)
    (x : Vec Ideal S4000x64 .f32) (s : Vec Ideal S4000x1 .f32) (w : Vec Ideal S64x1 .f32) (R : Fin 4000 → Fin 40000)
    (hx : ∀ (r : Fin 4000) (k : Fin 64), x (ix2 r k) = X (ix2 (R r) k))
    (hs : ∀ r : Fin 4000, s (ix2 r 0) = S (ix2 (R r) 0))
    (hw : ∀ (k : Fin 64) (c : Fin 1), w (ix2 k c) = W (ix2 k c))
    (r : Fin 4000) (c : Fin 1) :
    k12_pay1 x s w (ix2 r c) = Gcn.matMul (Gcn.rowScale X (Gcn.colOf S)) W (ix2 (R r) c) := by
  refine (scaleDot64_apply x s w r c).trans ?_
  rw [Gcn.matMul_apply]
  refine Finset.sum_congr rfl fun k _ => ?_
  rw [Gcn.rowScale_apply, Gcn.colOf_apply, hx, hs, hw]

end Cert.KernelIdeal.RegionVal

end
-- ==== Proof.RegionFinal0.lean ====
/-
  The first layer's scaling and projection pass, as one array.

  Each of the ten grid points owns 4000 rows: it scales every row of its block of the input features (width 128) by that
  row's out-degree factor, multiplies the scaled block by the whole 128 × 64 weight matrix, and writes the block of products
  back. The blocks tile the 40000 rows, so the output array is `Gcn.matMul (Gcn.rowScale …) …` of the three input arrays.
-/
import proofs.«139564_j34376918237986_1_alg».proof.Proof.Gen.KernelIdeal.Frame
import proofs.«139564_j34376918237986_1_alg».proof.Proof.RegionScale
import Idealize.ShloMosaic.Lib.Pipeline.Value

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- A grid point is one of ten. -/
theorem point_lt0 (t : Fin cfg0.N) : t.val < 10 := lt_of_lt_of_eq t.isLt N_0

/-- Where each window's block sits at grid point `t`: the features', the factors' and the output's blocks are at block
    row `t`, block column 0; the weights are one block, the whole matrix. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The features' block at point `t` is rows `4000 t … 4000 t + 3999` of the features. -/
theorem blockX0 (t : Fin cfg0.N) (r : Fin 4000) (k : Fin 128) :
    (iblk0 V c 0 t : Vec Ideal S4000x128 .f32) (ix2 r k) = (V c main_arg0 : Gcn.Mat 40000 128) (ix2 (rowOfPoint t.val (point_lt0 t) r) k) := by
  obtain ⟨e0, e1, -, -, -, -, -, -⟩ := blockIndex0 t
  unfold iblk0
  rw [View.read_apply]
  show (V c main_arg0 : Gcn.Mat 40000 128) _ = _
  refine congrArg (V c main_arg0 : Gcn.Mat 40000 128) (funext fun a => Fin.ext ?_)
  match a with
  | ⟨0, _⟩ => show win0_0.index t (0 : Fin 2) * 4000 + 1 * r.val = t.val * 4000 + r.val; rw [e0]; omega
  | ⟨1, _⟩ => show win0_0.index t (1 : Fin 2) * 128 + 1 * k.val = k.val; rw [e1]; omega

/-- The weights' block at every point is the whole weight matrix. -/
theorem blockW0 (t : Fin cfg0.N) (k : Fin 128) (q : Fin 64) :
    (iblk0 V c 1 t : Vec Ideal S128x64 .f32) (ix2 k q) = (V c main_arg3 : Gcn.Mat 128 64) (ix2 k q) := by
  obtain ⟨-, -, e2, e3, -, -, -, -⟩ := blockIndex0 t
  unfold iblk0
  rw [View.read_apply]
  show (V c main_arg3 : Gcn.Mat 128 64) _ = _
  refine congrArg (V c main_arg3 : Gcn.Mat 128 64) (funext fun a => Fin.ext ?_)
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- The factors' block at point `t` is rows `4000 t … 4000 t + 3999` of the column of factors. -/
theorem blockS0 (t : Fin cfg0.N) (r : Fin 4000) :
    (iblk0 V c 2 t : Vec Ideal S4000x1 .f32) (ix2 r 0) = (V c main_v19 : Gcn.Mat 40000 1) (ix2 (rowOfPoint t.val (point_lt0 t) r) 0) := by
  obtain ⟨-, -, -, -, e4, e5, -, -⟩ := blockIndex0 t
  unfold iblk0
  rw [View.read_apply]
  show (V c main_v19 : Gcn.Mat 40000 1) _ = _
  refine congrArg (V c main_v19 : Gcn.Mat 40000 1) (funext fun a => Fin.ext ?_)
  match a with
  | ⟨0, _⟩ => show win0_2.index t (0 : Fin 2) * 4000 + 1 * r.val = t.val * 4000 + r.val; rw [e4]; omega
  | ⟨1, _⟩ => show win0_2.index t (1 : Fin 2) * 1 + 1 * 0 = 0; rw [e5]

/-- What point `t` writes back is block `t` of the product of the scaled features with the weights. -/
theorem written0 (t : Fin cfg0.N) :
    (dat0 V c).flushed 3 t = ((cfg0.win 3).blk t).view.read (Elt Ideal)
      (Gcn.matMul (Gcn.rowScale (V c main_arg0 : Gcn.Mat 40000 128) (Gcn.colOf (V c main_v19 : Gcn.Mat 40000 1))) (V c main_arg3 : Gcn.Mat 128 64)) := by
  show (cfg0.win 3).cut (grid0.coords t) ((dat0 V c).after 3 t) = _
  rw [after0_3]
  unfold out0_3
  rw [View.canon_unit_zero zero_offsets]
  simp only [View.ld_unit_zero (S := S4000x128) zero_offsets, View.ld_unit_zero (S := S4000x1) zero_offsets, View.ld_unit_zero (S := S128x64) zero_offsets]
  obtain ⟨-, -, -, -, -, -, e6, e7⟩ := blockIndex0 t
  show (k0_pay1 (iblk0 V c 0 t) (iblk0 V c 2 t) (iblk0 V c 1 t) : Vec Ideal S4000x64 .f32)
    = fun j : S4000x64.Idx => Gcn.matMul (Gcn.rowScale (V c main_arg0 : Gcn.Mat 40000 128) (Gcn.colOf (V c main_v19 : Gcn.Mat 40000 1))) (V c main_arg3 : Gcn.Mat 128 64) (((cfg0.win 3).blk t).view.emb j)
  funext j
  obtain ⟨r, q, rfl⟩ : ∃ (r : Fin 4000) (q : Fin 64), j = ix2 r q := ⟨j 0, j 1, eq_ix2 j⟩
  have hemb : ((cfg0.win 3).blk t).view.emb (ix2 r q) = (ix2 (rowOfPoint t.val (point_lt0 t) r) q : S40000x64.Idx) :=
    funext fun a => Fin.ext (by
      match a with
      | ⟨0, _⟩ => show win0_3.index t (0 : Fin 2) * 4000 + 1 * r.val = t.val * 4000 + r.val; rw [e6]; omega
      | ⟨1, _⟩ => show win0_3.index t (1 : Fin 2) * 64 + 1 * q.val = q.val; rw [e7]; omega)
  exact (scaleDotFirst_block (V c main_arg0 : Gcn.Mat 40000 128) (V c main_v19 : Gcn.Mat 40000 1) (V c main_arg3 : Gcn.Mat 128 64)
      (iblk0 V c 0 t) (iblk0 V c 2 t) (iblk0 V c 1 t)
      (rowOfPoint t.val (point_lt0 t)) (blockX0 V c t) (blockS0 V c t) (blockW0 V c t) r q).trans
    (congrArg (Gcn.matMul (Gcn.rowScale (V c main_arg0 : Gcn.Mat 40000 128) (Gcn.colOf (V c main_v19 : Gcn.Mat 40000 1))) (V c main_arg3 : Gcn.Mat 128 64)) hemb.symm)

/-- An entry of the output array is in point `t`'s block iff each coordinate is in the block's range on its axis. -/
theorem mem_block0 (t : Fin cfg0.N) (i : S40000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v21).slice (win0_3.rect t)).set ↔ _
  rw [View.set_slice_whole, Rect.mem_set_unit]
  exact Iff.rfl

/-- The ten blocks tile the array: row `r` is in the block of point `r / 4000`. -/
theorem covered0 (i : S40000x64.Idx) : ∃ t : Fin cfg0.N, (cfg0.win 3).flush t = true ∧ i ∈ ((cfg0.win 3).blk t).view.set := by
  have h0 : (i 0).val < 40000 := idx2_lt0 i
  have h1 : (i 1).val < 64 := idx2_lt1 i
  obtain ⟨t, ht⟩ : ∃ t : Fin cfg0.N, t.val = (i 0).val / 4000 := ⟨⟨(i 0).val / 4000, lt_of_lt_of_eq (by omega) N_0.symm⟩, rfl⟩
  obtain ⟨-, -, -, -, -, -, e6, e7⟩ := blockIndex0 t
  refine ⟨t, flush0_3 t, ?_⟩
  rw [mem_block0]
  intro a
  match a with
  | ⟨0, _⟩ => show win0_3.index t (0 : Fin 2) * 4000 ≤ (i 0).val ∧ (i 0).val < win0_3.index t (0 : Fin 2) * 4000 + 4000; rw [e6, ht]; omega
  | ⟨1, _⟩ => show win0_3.index t (1 : Fin 2) * 64 ≤ (i 1).val ∧ (i 1).val < win0_3.index t (1 : Fin 2) * 64 + 64; rw [e7]; omega

/-- The output array after the pass: the input features, rows scaled by their out-degree factors, times the first weights. -/
theorem final0 : (dat0 V c).arrAt 3 cfg0.N = Gcn.matMul (Gcn.rowScale (V c main_arg0) (Gcn.colOf (V c main_v19))) (V c main_arg3) :=
  (dat0 V c).arrAt_eq_of_cover 3
    (Gcn.matMul (Gcn.rowScale (V c main_arg0 : Gcn.Mat 40000 128) (Gcn.colOf (V c main_v19 : Gcn.Mat 40000 1))) (V c main_arg3 : Gcn.Mat 128 64))
    (fun t _ => written0 V c t) (covered0)

end Cert.KernelIdeal.RegionVal

end
-- ==== Proof.RegionBias.lean ====
/-
  The arithmetic of one block of rows in the passes that add the bias.

  A pass owns a block of 4000 rows. Entry (r, c) of what it stores is, for the plain pass,
  h (r, c) · s r + b c clamped at zero (not clamped in the last, one-column pass); for the pass with a product,
  (∑ j, h (r, j) · w (j, c)) · s r + b c clamped at zero. The factor s is a column of the block's height, read at
  row r whatever the column c; the bias b is one row, read at column c whatever the row r. On the extended reals a
  change of float format is the identity, the product on the matrix unit into a zero accumulator is the plain sum
  over the contracted coordinate, and the clamp's zero word is the number 0.
-/
import proofs.«139564_j34376918237986_1_alg».proof.Proof.Gen.KernelIdeal.Skeleton
import proofs.«139564_j34376918237986_1_alg».proof.Proof.LibGraphConv
import proofs.«139564_j34376918237986_1_alg».proof.Proof.LibPlainDot
import Idealize.ShloMosaic.Lib.ValueLayout
import Idealize.ShloMosaic.PureOps.Ideal.Laws

noncomputable section

open scoped BigOperators

namespace Cert.KernelIdeal.RegionVal

open Cert.KernelIdeal Cert.KernelIdeal.Gen
open Idealize.ShloMosaic Idealize.ShloMosaic.ValueIdx

/-! ## Zero offsets, and the layer pieces read at an entry -/

/-- The offsets of a whole-block access: zero on both axes. -/
theorem zeroOffsets : (![0, 0] : Fin 2 → Nat) = fun _ => 0 := funext fun a => by fin_cases a <;> rfl

/-- Scale, bias and clamp at an entry, the factor given as a one-column matrix and the bias as a one-row matrix. -/
theorem reluAffine_apply {n d : ℕ} (h : Gcn.Mat n d) (s : Gcn.Mat n 1) (b : Gcn.Mat 1 d) (r : Fin n) (q : Fin d) :
    Gcn.relu (Gcn.affine h (Gcn.colOf s) (Gcn.rowOf b)) (ix2 r q)
      = max (h (ix2 r q) * s (ix2 r (0 : Fin 1)) + b (ix2 (0 : Fin 1) q)) 0 := rfl

/-- Scale and bias at an entry, unclamped. -/
theorem affine_apply' {n d : ℕ} (h : Gcn.Mat n d) (s : Gcn.Mat n 1) (b : Gcn.Mat 1 d) (r : Fin n) (q : Fin d) :
    Gcn.affine h (Gcn.colOf s) (Gcn.rowOf b) (ix2 r q)
      = h (ix2 r q) * s (ix2 r (0 : Fin 1)) + b (ix2 (0 : Fin 1) q) := rfl

/-- Product, scale, bias and clamp at an entry. -/
theorem reluAffineMatMul_apply {n k d : ℕ} (h : Gcn.Mat n k) (w : Gcn.Mat k d) (s : Gcn.Mat n 1) (b : Gcn.Mat 1 d)
    (r : Fin n) (q : Fin d) :
    Gcn.relu (Gcn.affine (Gcn.matMul h w) (Gcn.colOf s) (Gcn.rowOf b)) (ix2 r q)
      = max ((∑ j : Fin k, h (ix2 r j) * w (ix2 j q)) * s (ix2 r (0 : Fin 1)) + b (ix2 (0 : Fin 1) q)) 0 := rfl

/-! ## One column broadcast over many -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Scale by the row factor, add the bias row, clamp at zero: 64 columns -/

/-- Entry (r, c) of the block the plain pass stores: h (r, c) · s r + b c, clamped at zero. -/
theorem biasClamp64_apply (x0 : Vec Ideal S4000x64 .f32) (x1 : Vec Ideal S4000x1 .f32) (x2 : Vec Ideal S1x64 .f32)
    (r : Fin 4000) (c : Fin 64) :
    k1_pay1 x0 x1 x2 (ix2 r c) = max (x0 (ix2 r c) * x1 (ix2 r (0 : Fin 1)) + x2 (ix2 (0 : Fin 1) c)) 0 := by
  have hs : broadcastTo S4000x64 x1 broadcasts_S4000x1_S4000x64 (ix2 r c) = x1 (ix2 r (0 : Fin 1)) :=
    broadcastTo_a1_ab_apply x1 broadcasts_S4000x1_S4000x64 r c
  have hb : broadcastTo S4000x64 x2 broadcasts_S1x64_S4000x64 (ix2 r c) = x2 (ix2 (0 : Fin 1) c) :=
    broadcastTo_1b_ab_apply x2 broadcasts_S1x64_S4000x64 r c
  unfold k1_pay1
  simp only [shapeCast_self]
  show max (x0 (ix2 r c) * broadcastTo S4000x64 x1 broadcasts_S4000x1_S4000x64 (ix2 r c)
      + broadcastTo S4000x64 x2 broadcasts_S1x64_S4000x64 (ix2 r c)) (Ideal.ofBits .f32 0x00000000#32) = _
  rw [hs, hb, Ideal.ofBits_zero_f32]

/-- The second plain pass stores the same term. -/
theorem biasClamp64_apply' (x0 : Vec Ideal S4000x64 .f32) (x1 : Vec Ideal S4000x1 .f32) (x2 : Vec Ideal S1x64 .f32)
    (r : Fin 4000) (c : Fin 64) :
    k7_pay1 x0 x1 x2 (ix2 r c) = max (x0 (ix2 r c) * x1 (ix2 r (0 : Fin 1)) + x2 (ix2 (0 : Fin 1) c)) 0 :=
  biasClamp64_apply x0 x1 x2 r c

/-! ## The last pass: one column, no clamp -/

/-- Entry (r, 0) of the block the last pass stores: h (r, 0) · s r + b 0. -/
theorem bias1_apply (x0 : Vec Ideal S4000x1 .f32) (x1 : Vec Ideal S4000x1 .f32) (x2 : Vec Ideal S1x1 .f32)
    (r : Fin 4000) (c : Fin 1) :
    k13_pay1 x0 x1 x2 (ix2 r c) = x0 (ix2 r c) * x1 (ix2 r (0 : Fin 1)) + x2 (ix2 (0 : Fin 1) c) := by
  obtain rfl : c = 0 := Subsingleton.elim c 0
  have hb : broadcastTo S4000x1 x2 broadcasts_S1x1_S4000x1 (ix2 r (0 : Fin 1)) = x2 (ix2 (0 : Fin 1) (0 : Fin 1)) :=
    broadcastTo_1b_ab_apply x2 broadcasts_S1x1_S4000x1 r 0
  unfold k13_pay1
  simp only [shapeCast_self]
  show x0 (ix2 r (0 : Fin 1)) * x1 (ix2 r (0 : Fin 1)) + broadcastTo S4000x1 x2 broadcasts_S1x1_S4000x1 (ix2 r (0 : Fin 1)) = _
  rw [hb]

/-! ## Where the block products read their operands -/

section Dots

/-- The product of a 4000 × 64 block with a 64 × 128 matrix reads (r, k) on the left and (k, c) on the right. -/
theorem dot64x128_l0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide),
    dif_pos (show (0 : Fin S4000x64.rank) ∈ dot_S4000x64_S64x128_S4000x128_1_0_0_1_n_n.lhsNonContracting by decide)]
  rfl
theorem dot64x128_l1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
theorem dot64x128_r0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
theorem dot64x128_r1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide),
    dif_pos (show (1 : Fin S64x128.rank) ∈ dot_S4000x64_S64x128_S4000x128_1_0_0_1_n_n.rhsNonContracting by decide)]
  rfl

/-- The product of a 4000 × 128 block with a 128 × 128 matrix likewise. -/
theorem dot128x128_l0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem dot128x128_l1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem dot128x128_r0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem dot128x128_r1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The product of a 4000 × 64 block with a 64 × 64 matrix likewise. -/
theorem dot64x64_l0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide),
    dif_pos (show (0 : Fin S4000x64.rank) ∈ dot_S4000x64_S64x64_S4000x64_1_0_0_1_n_n.lhsNonContracting by decide)]
  rfl
theorem dot64x64_l1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem dot64x64_r0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem dot64x64_r1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide),
    dif_pos (show (1 : Fin S64x64.rank) ∈ dot_S4000x64_S64x64_S4000x64_1_0_0_1_n_n.rhsNonContracting by decide)]
  rfl

end Dots

/-! ## Product with the weights, scale by the row factor, add the bias row, clamp at zero -/

/-- Entry (r, c) of the block the pass with a 64 → 128 product stores. -/
theorem prodBiasClamp64x128_apply (x0 : Vec Ideal S4000x64 .f32) (x1 : Vec Ideal S64x128 .f32) (x2 : Vec Ideal S4000x1 .f32)
    (x3 : Vec Ideal S1x128 .f32) (r : Fin 4000) (c : Fin 128) :
    k3_pay1 x0 x1 x2 x3 (ix2 r c)
      = max ((∑ j : Fin 64, x0 (ix2 r j) * x1 (ix2 j c)) * x2 (ix2 r (0 : Fin 1)) + x3 (ix2 (0 : Fin 1) c)) 0 := by
  have hm : FloatOps.matmul dot_S4000x64_S64x128_S4000x128_1_0_0_1_n_n none
        (truncf .bf16 x0 bitsLt_bf16_f32 : FVec Ideal S4000x64 .bf16) (truncf .bf16 x1 bitsLt_bf16_f32 : FVec Ideal S64x128 .bf16)
        (constant S4000x128 .f32 0x00000000#32) (ix2 r c)
      = ∑ j : Fin 64, x0 (ix2 r j) * x1 (ix2 j c) :=
    PlainDot.matmul_zero_apply (M := 4000) (K := 64) (N := 128) dot_S4000x64_S64x128_S4000x128_1_0_0_1_n_n rfl rfl
      dot64x128_l0 dot64x128_l1 dot64x128_r0 dot64x128_r1 none _ _ (ix2 r c)
  have hs : broadcastTo S4000x128 x2 broadcasts_S4000x1_S4000x128 (ix2 r c) = x2 (ix2 r (0 : Fin 1)) :=
    broadcastTo_a1_ab_apply x2 broadcasts_S4000x1_S4000x128 r c
  have hb : broadcastTo S4000x128 x3 broadcasts_S1x128_S4000x128 (ix2 r c) = x3 (ix2 (0 : Fin 1) c) :=
    broadcastTo_1b_ab_apply x3 broadcasts_S1x128_S4000x128 r c
  unfold k3_pay1
  simp only [shapeCast_self]
  show max (FloatOps.matmul dot_S4000x64_S64x128_S4000x128_1_0_0_1_n_n none
        (truncf .bf16 x0 bitsLt_bf16_f32 : FVec Ideal S4000x64 .bf16) (truncf .bf16 x1 bitsLt_bf16_f32 : FVec Ideal S64x128 .bf16)
        (constant S4000x128 .f32 0x00000000#32) (ix2 r c)
      * broadcastTo S4000x128 x2 broadcasts_S4000x1_S4000x128 (ix2 r c)
      + broadcastTo S4000x128 x3 broadcasts_S1x128_S4000x128 (ix2 r c)) (Ideal.ofBits .f32 0x00000000#32) = _
  rw [hm, hs, hb, Ideal.ofBits_zero_f32]

/-- Entry (r, c) of the block the pass with a 128 → 128 product stores. -/
theorem prodBiasClamp128x128_apply (x0 : Vec Ideal S4000x128 .f32) (x1 : Vec Ideal S128x128 .f32) (x2 : Vec Ideal S4000x1 .f32)
    (x3 : Vec Ideal S1x128 .f32) (r : Fin 4000) (c : Fin 128) :
    k5_pay1 x0 x1 x2 x3 (ix2 r c)
      = max ((∑ j : Fin 128, x0 (ix2 r j) * x1 (ix2 j c)) * x2 (ix2 r (0 : Fin 1)) + x3 (ix2 (0 : Fin 1) c)) 0 := by
  have hm : FloatOps.matmul dot_S4000x128_S128x128_S4000x128_1_0_0_1_n_n none
        (truncf .bf16 x0 bitsLt_bf16_f32 : FVec Ideal S4000x128 .bf16) (truncf .bf16 x1 bitsLt_bf16_f32 : FVec Ideal S128x128 .bf16)
        (constant S4000x128 .f32 0x00000000#32) (ix2 r c)
      = ∑ j : Fin 128, x0 (ix2 r j) * x1 (ix2 j c) :=
    PlainDot.matmul_zero_apply (M := 4000) (K := 128) (N := 128) dot_S4000x128_S128x128_S4000x128_1_0_0_1_n_n rfl rfl
      dot128x128_l0 dot128x128_l1 dot128x128_r0 dot128x128_r1 none _ _ (ix2 r c)
  have hs : broadcastTo S4000x128 x2 broadcasts_S4000x1_S4000x128 (ix2 r c) = x2 (ix2 r (0 : Fin 1)) :=
    broadcastTo_a1_ab_apply x2 broadcasts_S4000x1_S4000x128 r c
  have hb : broadcastTo S4000x128 x3 broadcasts_S1x128_S4000x128 (ix2 r c) = x3 (ix2 (0 : Fin 1) c) :=
    broadcastTo_1b_ab_apply x3 broadcasts_S1x128_S4000x128 r c
  unfold k5_pay1
  simp only [shapeCast_self]
  show max (FloatOps.matmul dot_S4000x128_S128x128_S4000x128_1_0_0_1_n_n none
        (truncf .bf16 x0 bitsLt_bf16_f32 : FVec Ideal S4000x128 .bf16) (truncf .bf16 x1 bitsLt_bf16_f32 : FVec Ideal S128x128 .bf16)
        (constant S4000x128 .f32 0x00000000#32) (ix2 r c)
      * broadcastTo S4000x128 x2 broadcasts_S4000x1_S4000x128 (ix2 r c)
      + broadcastTo S4000x128 x3 broadcasts_S1x128_S4000x128 (ix2 r c)) (Ideal.ofBits .f32 0x00000000#32) = _
  rw [hm, hs, hb, Ideal.ofBits_zero_f32]

/-- Entry (r, c) of the block a pass with a 64 → 64 product stores. -/
theorem prodBiasClamp64x64_apply (x0 : Vec Ideal S4000x64 .f32) (x1 : Vec Ideal S64x64 .f32) (x2 : Vec Ideal S4000x1 .f32)
    (x3 : Vec Ideal S1x64 .f32) (r : Fin 4000) (c : Fin 64) :
    k9_pay1 x0 x1 x2 x3 (ix2 r c)
      = max ((∑ j : Fin 64, x0 (ix2 r j) * x1 (ix2 j c)) * x2 (ix2 r (0 : Fin 1)) + x3 (ix2 (0 : Fin 1) c)) 0 := by
  have hm : FloatOps.matmul dot_S4000x64_S64x64_S4000x64_1_0_0_1_n_n none
        (truncf .bf16 x0 bitsLt_bf16_f32 : FVec Ideal S4000x64 .bf16) (truncf .bf16 x1 bitsLt_bf16_f32 : FVec Ideal S64x64 .bf16)
        (constant S4000x64 .f32 0x00000000#32) (ix2 r c)
      = ∑ j : Fin 64, x0 (ix2 r j) * x1 (ix2 j c) :=
    PlainDot.matmul_zero_apply (M := 4000) (K := 64) (N := 64) dot_S4000x64_S64x64_S4000x64_1_0_0_1_n_n rfl rfl
      dot64x64_l0 dot64x64_l1 dot64x64_r0 dot64x64_r1 none _ _ (ix2 r c)
  have hs : broadcastTo S4000x64 x2 broadcasts_S4000x1_S4000x64 (ix2 r c) = x2 (ix2 r (0 : Fin 1)) :=
    broadcastTo_a1_ab_apply x2 broadcasts_S4000x1_S4000x64 r c
  have hb : broadcastTo S4000x64 x3 broadcasts_S1x64_S4000x64 (ix2 r c) = x3 (ix2 (0 : Fin 1) c) :=
    broadcastTo_1b_ab_apply x3 broadcasts_S1x64_S4000x64 r c
  unfold k9_pay1
  simp only [shapeCast_self]
  show max (FloatOps.matmul dot_S4000x64_S64x64_S4000x64_1_0_0_1_n_n none
        (truncf .bf16 x0 bitsLt_bf16_f32 : FVec Ideal S4000x64 .bf16) (truncf .bf16 x1 bitsLt_bf16_f32 : FVec Ideal S64x64 .bf16)
        (constant S4000x64 .f32 0x00000000#32) (ix2 r c)
      * broadcastTo S4000x64 x2 broadcasts_S4000x1_S4000x64 (ix2 r c)
      + broadcastTo S4000x64 x3 broadcasts_S1x64_S4000x64 (ix2 r c)) (Ideal.ofBits .f32 0x00000000#32) = _
  rw [hm, hs, hb, Ideal.ofBits_zero_f32]

/-- The second 64 → 64 pass stores the same term. -/
theorem prodBiasClamp64x64_apply' (x0 : Vec Ideal S4000x64 .f32) (x1 : Vec Ideal S64x64 .f32) (x2 : Vec Ideal S4000x1 .f32)
    (x3 : Vec Ideal S1x64 .f32) (r : Fin 4000) (c : Fin 64) :
    k11_pay1 x0 x1 x2 x3 (ix2 r c)
      = max ((∑ j : Fin 64, x0 (ix2 r j) * x1 (ix2 j c)) * x2 (ix2 r (0 : Fin 1)) + x3 (ix2 (0 : Fin 1) c)) 0 :=
  prodBiasClamp64x64_apply x0 x1 x2 x3 r c

/-! ## A row of a block product read in the whole arrays -/

/-- If row r of the block is row R of h and the block of weights is the weights, the block's row sum is the array's. -/
theorem rowSum64x128 (x0 : Vec Ideal S4000x64 .f32) (x1 : Vec Ideal S64x128 .f32) (H : S40000x64.Idx → EReal)
    (W : S64x128.Idx → EReal) (r : Fin 4000) (R : Fin 40000) (q : Fin 128)
    (h0 : ∀ j : Fin 64, x0 (ix2 r j) = H (ix2 R j)) (h1 : ∀ j : Fin 64, x1 (ix2 j q) = W (ix2 j q)) :
    (∑ j : Fin 64, x0 (ix2 r j) * x1 (ix2 j q)) = ∑ j : Fin 64, H (ix2 R j) * W (ix2 j q) :=
  Finset.sum_congr rfl fun j _ => by rw [h0 j, h1 j]

theorem rowSum128x128 (x0 : Vec Ideal S4000x128 .f32) (x1 : Vec Ideal S128x128 .f32) (H : S40000x128.Idx → EReal)
    (W : S128x128.Idx → EReal) (r : Fin 4000) (R : Fin 40000) (q : Fin 128)
    (h0 : ∀ j : Fin 128, x0 (ix2 r j) = H (ix2 R j)) (h1 : ∀ j : Fin 128, x1 (ix2 j q) = W (ix2 j q)) :
    (∑ j : Fin 128, x0 (ix2 r j) * x1 (ix2 j q)) = ∑ j : Fin 128, H (ix2 R j) * W (ix2 j q) :=
  Finset.sum_congr rfl fun j _ => by rw [h0 j, h1 j]

theorem rowSum64x64 (x0 : Vec Ideal S4000x64 .f32) (x1 : Vec Ideal S64x64 .f32) (H : S40000x64.Idx → EReal)
    (W : S64x64.Idx → EReal) (r : Fin 4000) (R : Fin 40000) (q : Fin 64)
    (h0 : ∀ j : Fin 64, x0 (ix2 r j) = H (ix2 R j)) (h1 : ∀ j : Fin 64, x1 (ix2 j q) = W (ix2 j q)) :
    (∑ j : Fin 64, x0 (ix2 r j) * x1 (ix2 j q)) = ∑ j : Fin 64, H (ix2 R j) * W (ix2 j q) :=
  Finset.sum_congr rfl fun j _ => by rw [h0 j, h1 j]

end Cert.KernelIdeal.RegionVal

end
-- ==== Proof.RegionFinal1.lean ====
/-
  Pass 1 over the rows: scale row r of h by s r, add the bias row, clamp at zero.

  The pass runs over ten blocks of 4000 rows. At block t it reads rows 4000 t … 4000 t + 3999 of h and of the
  column s, and the whole bias row; it writes back rows 4000 t … 4000 t + 3999 of the result. Row r of the result
  is written by block r / 4000, so the ten blocks cover the array and it ends holding the layer's term at every entry.
-/
import proofs.«139564_j34376918237986_1_alg».proof.Proof.Gen.KernelIdeal.Frame
import proofs.«139564_j34376918237986_1_alg».proof.Proof.RegionBias
import Idealize.ShloMosaic.Lib.Pipeline.Value

noncomputable section

namespace Cert.KernelIdeal.RegionVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- Which block each window holds at block t: h, s and the result move down the rows with t; the bias row stays. -/
theorem blockIdx1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A block's row r is row 4000 t + r of the array. -/
theorem row_lt1 (t : Fin cfg1.N) (r : Fin 4000) : t.val * 4000 + r.val < 40000 := by
  have ht : t.val < 10 := lt_of_lt_of_eq t.isLt N_1
  have hr := r.isLt
  omega

/-- Block t of h, entry (r, q): h at row 4000 t + r. -/
theorem readH1 (t : Fin cfg1.N) (r : Fin 4000) (q : Fin 64) :
    (iblk1 V c 0 t : Vec Ideal S4000x64 .f32) (ix2 r q)
      = (V c main_v31 : S40000x64.Idx → EReal) (ix2 (⟨t.val * 4000 + r.val, row_lt1 t r⟩ : Fin 40000) q) := by
  obtain ⟨e00, e01, -⟩ := blockIdx1 t
  unfold iblk1
  rw [View.read_apply]
  show (V c main_v31 : S40000x64.Idx → EReal) _ = (V c main_v31 : S40000x64.Idx → EReal) _
  congr 1
  funext a
  apply Fin.ext
  match a with
  | ⟨0, _⟩ => show win1_0.index t (0 : Fin 2) * 4000 + 1 * r.val = t.val * 4000 + r.val; omega
  | ⟨1, _⟩ => show win1_0.index t (1 : Fin 2) * 64 + 1 * q.val = q.val; omega

/-- Block t of the column s, row r: s at row 4000 t + r. -/
theorem readS1 (t : Fin cfg1.N) (r : Fin 4000) :
    (iblk1 V c 1 t : Vec Ideal S4000x1 .f32) (ix2 r (0 : Fin 1))
      = (V c main_v20 : S40000x1.Idx → EReal) (ix2 (⟨t.val * 4000 + r.val, row_lt1 t r⟩ : Fin 40000) (0 : Fin 1)) := by
  obtain ⟨-, -, e10, e11, -⟩ := blockIdx1 t
  unfold iblk1
  rw [View.read_apply]
  show (V c main_v20 : S40000x1.Idx → EReal) _ = (V c main_v20 : S40000x1.Idx → EReal) _
  congr 1
  funext a
  apply Fin.ext
  match a with
  | ⟨0, _⟩ => show win1_1.index t (0 : Fin 2) * 4000 + 1 * r.val = t.val * 4000 + r.val; omega
  | ⟨1, _⟩ => show win1_1.index t (1 : Fin 2) * 1 + 1 * 0 = 0; omega

/-- The bias row's block is the whole row at every block. -/
theorem readB1 (t : Fin cfg1.N) (q : Fin 64) :
    (iblk1 V c 2 t : Vec Ideal S1x64 .f32) (ix2 (0 : Fin 1) q) = (V c main_v32 : S1x64.Idx → EReal) (ix2 (0 : Fin 1) q) := by
  obtain ⟨-, -, -, -, e20, e21, -⟩ := blockIdx1 t
  unfold iblk1
  rw [View.read_apply]
  show (V c main_v32 : S1x64.Idx → EReal) _ = (V c main_v32 : S1x64.Idx → EReal) _
  congr 1
  funext a
  apply Fin.ext
  match a with
  | ⟨0, _⟩ => show win1_2.index t (0 : Fin 2) * 1 + 1 * 0 = 0; omega
  | ⟨1, _⟩ => show win1_2.index t (1 : Fin 2) * 64 + 1 * q.val = q.val; omega

/-- Entry (r, q) of the result's block t is entry (4000 t + r, q) of the result. -/
theorem outEmb1 (t : Fin cfg1.N) (r : Fin 4000) (q : Fin 64) :
    ((cfg1.win 3).blk t).view.emb (ix2 r q) = (ix2 (⟨t.val * 4000 + r.val, row_lt1 t r⟩ : Fin 40000) q : S40000x64.Idx) := by
  obtain ⟨-, -, -, -, -, -, e30, e31⟩ := blockIdx1 t
  funext a
  apply Fin.ext
  match a with
  | ⟨0, _⟩ => show win1_3.index t (0 : Fin 2) * 4000 + 1 * r.val = t.val * 4000 + r.val; omega
  | ⟨1, _⟩ => show win1_3.index t (1 : Fin 2) * 64 + 1 * q.val = q.val; omega

/-- What block t writes back is block t of the layer's term over the arrays as the pass finds them. -/
theorem flushed1 (t : Fin cfg1.N) :
    (dat1 V c).flushed 3 t = ((cfg1.win 3).blk t).view.read (Elt Ideal)
      (Gcn.relu (Gcn.affine (V c main_v31) (Gcn.colOf (V c main_v20)) (Gcn.rowOf (V c main_v32))) : S40000x64.Idx → EReal) := by
  show (cfg1.win 3).cut (grid1.coords t) ((dat1 V c).after 3 t) = _
  rw [after1_3]
  unfold out1_3
  rw [View.canon_unit_zero zeroOffsets]
  simp only [View.ld_unit_zero (S := S4000x64) zeroOffsets, View.ld_unit_zero (S := S4000x1) zeroOffsets,
    View.ld_unit_zero (S := S1x64) zeroOffsets]
  funext j
  obtain ⟨r, q, rfl⟩ : ∃ (r : Fin 4000) (q : Fin 64), j = ix2 r q := ⟨j 0, j 1, eq_ix2 j⟩
  show k1_pay1 (iblk1 V c 0 t) (iblk1 V c 1 t) (iblk1 V c 2 t) (ix2 r q)
    = (Gcn.relu (Gcn.affine (V c main_v31) (Gcn.colOf (V c main_v20)) (Gcn.rowOf (V c main_v32))) : S40000x64.Idx → EReal) (((cfg1.win 3).blk t).view.emb (ix2 r q))
  rw [outEmb1 t r q]
  refine (biasClamp64_apply (iblk1 V c 0 t) (iblk1 V c 1 t) (iblk1 V c 2 t) r q).trans ?_
  rw [readH1 V c t r q, readS1 V c t r, readB1 V c t q]
  exact (reluAffine_apply (V c main_v31) (V c main_v20) (V c main_v32) _ q).symm

/-- An entry is in block t iff its row is among the block's 4000 rows (and its column in range). -/
theorem memOut1 (t : Fin cfg1.N) (i : S40000x64.Idx) :
    i ∈ ((cfg1.win 3).blk t).view.set ↔ ∀ a : Fin 2, win1_3.index t a * S4000x64.size a ≤ (i a).val
      ∧ (i a).val < win1_3.index t a * S4000x64.size a + S4000x64.size a := by
  show i ∈ ((View.whole main_v33).slice (win1_3.rect t)).set ↔ _
  rw [View.set_slice_whole, Rect.mem_set_unit]
  exact Iff.rfl

/-- Row r of the result is written by block r / 4000: the blocks cover the array. -/
theorem cover1 (i : S40000x64.Idx) :
    ∃ t : Fin cfg1.N, (cfg1.win 3).flush t = true ∧ i ∈ ((cfg1.win 3).blk t).view.set := by
  have hi0 : (i 0).val < 40000 := (i 0).isLt
  have hi1 : (i 1).val < 64 := (i 1).isLt
  have hN : grid1.N = 10 := N_1
  obtain ⟨t, ht⟩ : ∃ t : Fin cfg1.N, t.val = (i 0).val / 4000 :=
    ⟨⟨(i 0).val / 4000, lt_of_lt_of_eq (show (i 0).val / 4000 < 10 by omega) hN.symm⟩, rfl⟩
  obtain ⟨-, -, -, -, -, -, e30, e31⟩ := blockIdx1 t
  refine ⟨t, flush1_3 t, ?_⟩
  rw [memOut1]
  intro a
  match a with
  | ⟨0, _⟩ =>
    show win1_3.index t (0 : Fin 2) * 4000 ≤ (i 0).val ∧ (i 0).val < win1_3.index t (0 : Fin 2) * 4000 + 4000
    omega
  | ⟨1, _⟩ =>
    show win1_3.index t (1 : Fin 2) * 64 ≤ (i 1).val ∧ (i 1).val < win1_3.index t (1 : Fin 2) * 64 + 64
    omega

/-- After pass 1 the result array holds the layer's term of the arrays the pass was entered with. -/
theorem final1 : (dat1 V c).arrAt 3 cfg1.N
    = Gcn.relu (Gcn.affine (V c main_v31) (Gcn.colOf (V c main_v20)) (Gcn.rowOf (V c main_v32))) :=
  (dat1 V c).arrAt_eq_of_cover 3 (Gcn.relu (Gcn.affine (V c main_v31) (Gcn.colOf (V c main_v20)) (Gcn.rowOf (V c main_v32))) : S40000x64.Idx → EReal)
    (fun t _ => flushed1 V c t) (cover1)

end Cert.KernelIdeal.RegionVal

end
-- ==== Proof.RegionFinal2.lean ====
/-
  The scaling pass before the second layer, as one array.

  Each of the ten grid points owns 4000 rows: it scales every row of its block of the first layer's output (width 64) by
  that row's out-degree factor and writes the block back. The blocks tile the 40000 rows, so the output array is
  `Gcn.rowScale` of the two input arrays.
-/
import proofs.«139564_j34376918237986_1_alg».proof.Proof.Gen.KernelIdeal.Frame
import proofs.«139564_j34376918237986_1_alg».proof.Proof.RegionScale
import Idealize.ShloMosaic.Lib.Pipeline.Value

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- A grid point is one of ten. -/
theorem point_lt2 (t : Fin cfg2.N) : t.val < 10 := lt_of_lt_of_eq t.isLt N_2

/-- Where each window's block sits at grid point `t`: the features', the factors' and the output's blocks are all at
    block row `t`, block column 0. -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The features' block at point `t` is rows `4000 t … 4000 t + 3999` of the features. -/
theorem blockX2 (t : Fin cfg2.N) (r : Fin 4000) (q : Fin 64) :
    (iblk2 V c 0 t : Vec Ideal S4000x64 .f32) (ix2 r q) = (V c main_v33 : Gcn.Mat 40000 64) (ix2 (rowOfPoint t.val (point_lt2 t) r) q) := by
  obtain ⟨e0, e1, -, -, -, -⟩ := blockIndex2 t
  unfold iblk2
  rw [View.read_apply]
  show (V c main_v33 : Gcn.Mat 40000 64) _ = _
  refine congrArg (V c main_v33 : Gcn.Mat 40000 64) (funext fun a => Fin.ext ?_)
  match a with
  | ⟨0, _⟩ => show win2_0.index t (0 : Fin 2) * 4000 + 1 * r.val = t.val * 4000 + r.val; rw [e0]; omega
  | ⟨1, _⟩ => show win2_0.index t (1 : Fin 2) * 64 + 1 * q.val = q.val; rw [e1]; omega

/-- The factors' block at point `t` is rows `4000 t … 4000 t + 3999` of the column of factors. -/
theorem blockS2 (t : Fin cfg2.N) (r : Fin 4000) :
    (iblk2 V c 1 t : Vec Ideal S4000x1 .f32) (ix2 r 0) = (V c main_v19 : Gcn.Mat 40000 1) (ix2 (rowOfPoint t.val (point_lt2 t) r) 0) := by
  obtain ⟨-, -, e2, e3, -, -⟩ := blockIndex2 t
  unfold iblk2
  rw [View.read_apply]
  show (V c main_v19 : Gcn.Mat 40000 1) _ = _
  refine congrArg (V c main_v19 : Gcn.Mat 40000 1) (funext fun a => Fin.ext ?_)
  match a with
  | ⟨0, _⟩ => show win2_1.index t (0 : Fin 2) * 4000 + 1 * r.val = t.val * 4000 + r.val; rw [e2]; omega
  | ⟨1, _⟩ => show win2_1.index t (1 : Fin 2) * 1 + 1 * 0 = 0; rw [e3]

/-- What point `t` writes back is block `t` of the scaled array. -/
theorem written2 (t : Fin cfg2.N) :
    (dat2 V c).flushed 2 t = ((cfg2.win 2).blk t).view.read (Elt Ideal)
      (Gcn.rowScale (V c main_v33 : Gcn.Mat 40000 64) (Gcn.colOf (V c main_v19 : Gcn.Mat 40000 1))) := by
  show (cfg2.win 2).cut (grid2.coords t) ((dat2 V c).after 2 t) = _
  rw [after2_2]
  unfold out2_2
  rw [View.canon_unit_zero zero_offsets]
  simp only [View.ld_unit_zero (S := S4000x64) zero_offsets, View.ld_unit_zero (S := S4000x1) zero_offsets]
  obtain ⟨-, -, -, -, e4, e5⟩ := blockIndex2 t
  show (k2_pay1 (iblk2 V c 0 t) (iblk2 V c 1 t) : Vec Ideal S4000x64 .f32)
    = fun j : S4000x64.Idx => Gcn.rowScale (V c main_v33 : Gcn.Mat 40000 64) (Gcn.colOf (V c main_v19 : Gcn.Mat 40000 1)) (((cfg2.win 2).blk t).view.emb j)
  funext j
  obtain ⟨r, q, rfl⟩ : ∃ (r : Fin 4000) (q : Fin 64), j = ix2 r q := ⟨j 0, j 1, eq_ix2 j⟩
  have hemb : ((cfg2.win 2).blk t).view.emb (ix2 r q) = (ix2 (rowOfPoint t.val (point_lt2 t) r) q : S40000x64.Idx) :=
    funext fun a => Fin.ext (by
      match a with
      | ⟨0, _⟩ => show win2_2.index t (0 : Fin 2) * 4000 + 1 * r.val = t.val * 4000 + r.val; rw [e4]; omega
      | ⟨1, _⟩ => show win2_2.index t (1 : Fin 2) * 64 + 1 * q.val = q.val; rw [e5]; omega)
  exact ((rowScale_block64 (V c main_v33 : Gcn.Mat 40000 64) (V c main_v19 : Gcn.Mat 40000 1) (iblk2 V c 0 t) (iblk2 V c 1 t)
      (rowOfPoint t.val (point_lt2 t)) (blockX2 V c t) (blockS2 V c t) r q).trans
    (congrArg (Gcn.rowScale (V c main_v33 : Gcn.Mat 40000 64) (Gcn.colOf (V c main_v19 : Gcn.Mat 40000 1))) hemb.symm))

/-- An entry of the output array is in point `t`'s block iff each coordinate is in the block's range on its axis. -/
theorem mem_block2 (t : Fin cfg2.N) (i : S40000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v34).slice (win2_2.rect t)).set ↔ _
  rw [View.set_slice_whole, Rect.mem_set_unit]
  exact Iff.rfl

/-- The ten blocks tile the array: row `r` is in the block of point `r / 4000`. -/
theorem covered2 (i : S40000x64.Idx) : ∃ t : Fin cfg2.N, (cfg2.win 2).flush t = true ∧ i ∈ ((cfg2.win 2).blk t).view.set := by
  have h0 : (i 0).val < 40000 := idx2_lt0 i
  have h1 : (i 1).val < 64 := idx2_lt1 i
  obtain ⟨t, ht⟩ : ∃ t : Fin cfg2.N, t.val = (i 0).val / 4000 := ⟨⟨(i 0).val / 4000, lt_of_lt_of_eq (by omega) N_2.symm⟩, rfl⟩
  obtain ⟨-, -, -, -, e4, e5⟩ := blockIndex2 t
  refine ⟨t, flush2_2 t, ?_⟩
  rw [mem_block2]
  intro a
  match a with
  | ⟨0, _⟩ => show win2_2.index t (0 : Fin 2) * 4000 ≤ (i 0).val ∧ (i 0).val < win2_2.index t (0 : Fin 2) * 4000 + 4000; rw [e4, ht]; omega
  | ⟨1, _⟩ => show win2_2.index t (1 : Fin 2) * 64 ≤ (i 1).val ∧ (i 1).val < win2_2.index t (1 : Fin 2) * 64 + 64; rw [e5]; omega

/-- The output array after the pass: the features with every row scaled by its out-degree factor. -/
theorem final2 : (dat2 V c).arrAt 2 cfg2.N = Gcn.rowScale (V c main_v33) (Gcn.colOf (V c main_v19)) :=
  (dat2 V c).arrAt_eq_of_cover 2 (Gcn.rowScale (V c main_v33 : Gcn.Mat 40000 64) (Gcn.colOf (V c main_v19 : Gcn.Mat 40000 1)))
    (fun t _ => written2 V c t) (covered2)

end Cert.KernelIdeal.RegionVal

end
-- ==== Proof.RegionFinal3.lean ====
/-
  Pass 3 over the rows: multiply the block of h by the weights, scale row r by s r, add the bias row, clamp at zero.

  The pass runs over ten blocks of 4000 rows. At block t it reads rows 4000 t … 4000 t + 3999 of h and of the
  column s, the whole weight matrix and the whole bias row; it writes back rows 4000 t … 4000 t + 3999 of the
  result. Entry (r, q) of the product only reads row r of h, so a block's product is the block of the whole
  product. Row r of the result is written by block r / 4000, so the ten blocks cover the array and it ends holding
  the layer's term at every entry.
-/
import proofs.«139564_j34376918237986_1_alg».proof.Proof.Gen.KernelIdeal.Frame
import proofs.«139564_j34376918237986_1_alg».proof.Proof.RegionBias
import Idealize.ShloMosaic.Lib.Pipeline.Value

noncomputable section

open scoped BigOperators

namespace Cert.KernelIdeal.RegionVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- Which block each window holds at block t: h, s and the result move down the rows with t; the weights and the
    bias row stay. -/
theorem blockIdx3 : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- A block's row r is row 4000 t + r of the array. -/
theorem row_lt3 (t : Fin cfg3.N) (r : Fin 4000) : t.val * 4000 + r.val < 40000 := by
  have ht : t.val < 10 := lt_of_lt_of_eq t.isLt N_3
  have hr := r.isLt
  omega

/-- Block t of h, entry (r, j): h at row 4000 t + r. -/
theorem readH3 (t : Fin cfg3.N) (r : Fin 4000) (j : Fin 64) :
    (iblk3 V c 0 t : Vec Ideal S4000x64 .f32) (ix2 r j)
      = (V c main_v44 : S40000x64.Idx → EReal) (ix2 (⟨t.val * 4000 + r.val, row_lt3 t r⟩ : Fin 40000) j) := by
  obtain ⟨e00, e01, -⟩ := blockIdx3 t
  unfold iblk3
  rw [View.read_apply]
  show (V c main_v44 : S40000x64.Idx → EReal) _ = (V c main_v44 : S40000x64.Idx → EReal) _
  congr 1
  funext a
  apply Fin.ext
  match a with
  | ⟨0, _⟩ => show win3_0.index t (0 : Fin 2) * 4000 + 1 * r.val = t.val * 4000 + r.val; omega
  | ⟨1, _⟩ => show win3_0.index t (1 : Fin 2) * 64 + 1 * j.val = j.val; omega

/-- The weights' block is the whole matrix at every block. -/
theorem readW3 (t : Fin cfg3.N) (j : Fin 64) (q : Fin 128) :
    (iblk3 V c 1 t : Vec Ideal S64x128 .f32) (ix2 j q) = (V c main_arg5 : S64x128.Idx → EReal) (ix2 j q) := by
  obtain ⟨-, -, e10, e11, -⟩ := blockIdx3 t
  unfold iblk3
  rw [View.read_apply]
  show (V c main_arg5 : S64x128.Idx → EReal) _ = (V c main_arg5 : S64x128.Idx → EReal) _
  congr 1
  funext a
  apply Fin.ext
  match a with
  | ⟨0, _⟩ => show win3_1.index t (0 : Fin 2) * 64 + 1 * j.val = j.val; omega
  | ⟨1, _⟩ => show win3_1.index t (1 : Fin 2) * 128 + 1 * q.val = q.val; omega

/-- Block t of the column s, row r: s at row 4000 t + r. -/
theorem readS3 (t : Fin cfg3.N) (r : Fin 4000) :
    (iblk3 V c 2 t : Vec Ideal S4000x1 .f32) (ix2 r (0 : Fin 1))
      = (V c main_v20 : S40000x1.Idx → EReal) (ix2 (⟨t.val * 4000 + r.val, row_lt3 t r⟩ : Fin 40000) (0 : Fin 1)) := by
  obtain ⟨-, -, -, -, e20, e21, -⟩ := blockIdx3 t
  unfold iblk3
  rw [View.read_apply]
  show (V c main_v20 : S40000x1.Idx → EReal) _ = (V c main_v20 : S40000x1.Idx → EReal) _
  congr 1
  funext a
  apply Fin.ext
  match a with
  | ⟨0, _⟩ => show win3_2.index t (0 : Fin 2) * 4000 + 1 * r.val = t.val * 4000 + r.val; omega
  | ⟨1, _⟩ => show win3_2.index t (1 : Fin 2) * 1 + 1 * 0 = 0; omega

/-- The bias row's block is the whole row at every block. -/
theorem readB3 (t : Fin cfg3.N) (q : Fin 128) :
    (iblk3 V c 3 t : Vec Ideal S1x128 .f32) (ix2 (0 : Fin 1) q) = (V c main_v45 : S1x128.Idx → EReal) (ix2 (0 : Fin 1) q) := by
  obtain ⟨-, -, -, -, -, -, e30, e31, -⟩ := blockIdx3 t
  unfold iblk3
  rw [View.read_apply]
  show (V c main_v45 : S1x128.Idx → EReal) _ = (V c main_v45 : S1x128.Idx → EReal) _
  congr 1
  funext a
  apply Fin.ext
  match a with
  | ⟨0, _⟩ => show win3_3.index t (0 : Fin 2) * 1 + 1 * 0 = 0; omega
  | ⟨1, _⟩ => show win3_3.index t (1 : Fin 2) * 128 + 1 * q.val = q.val; omega

/-- Entry (r, q) of the result's block t is entry (4000 t + r, q) of the result. -/
theorem outEmb3 (t : Fin cfg3.N) (r : Fin 4000) (q : Fin 128) :
    ((cfg3.win 4).blk t).view.emb (ix2 r q) = (ix2 (⟨t.val * 4000 + r.val, row_lt3 t r⟩ : Fin 40000) q : S40000x128.Idx) := by
  obtain ⟨-, -, -, -, -, -, -, -, e40, e41⟩ := blockIdx3 t
  funext a
  apply Fin.ext
  match a with
  | ⟨0, _⟩ => show win3_4.index t (0 : Fin 2) * 4000 + 1 * r.val = t.val * 4000 + r.val; omega
  | ⟨1, _⟩ => show win3_4.index t (1 : Fin 2) * 128 + 1 * q.val = q.val; omega

/-- What block t writes back is block t of the layer's term over the arrays as the pass finds them. -/
theorem flushed3 (t : Fin cfg3.N) :
    (dat3 V c).flushed 4 t = ((cfg3.win 4).blk t).view.read (Elt Ideal)
      (Gcn.relu (Gcn.affine (Gcn.matMul (V c main_v44) (V c main_arg5)) (Gcn.colOf (V c main_v20)) (Gcn.rowOf (V c main_v45))) : S40000x128.Idx → EReal) := by
  show (cfg3.win 4).cut (grid3.coords t) ((dat3 V c).after 4 t) = _
  rw [after3_4]
  unfold out3_4
  rw [View.canon_unit_zero zeroOffsets]
  simp only [View.ld_unit_zero (S := S4000x64) zeroOffsets, View.ld_unit_zero (S := S64x128) zeroOffsets,
    View.ld_unit_zero (S := S4000x1) zeroOffsets, View.ld_unit_zero (S := S1x128) zeroOffsets]
  funext j
  obtain ⟨r, q, rfl⟩ : ∃ (r : Fin 4000) (q : Fin 128), j = ix2 r q := ⟨j 0, j 1, eq_ix2 j⟩
  show k3_pay1 (iblk3 V c 0 t) (iblk3 V c 1 t) (iblk3 V c 2 t) (iblk3 V c 3 t) (ix2 r q)
    = (Gcn.relu (Gcn.affine (Gcn.matMul (V c main_v44) (V c main_arg5)) (Gcn.colOf (V c main_v20)) (Gcn.rowOf (V c main_v45))) : S40000x128.Idx → EReal)
        (((cfg3.win 4).blk t).view.emb (ix2 r q))
  rw [outEmb3 t r q]
  refine (prodBiasClamp64x128_apply (iblk3 V c 0 t) (iblk3 V c 1 t) (iblk3 V c 2 t) (iblk3 V c 3 t) r q).trans ?_
  rw [readS3 V c t r, readB3 V c t q,
    rowSum64x128 (iblk3 V c 0 t) (iblk3 V c 1 t) (V c main_v44) (V c main_arg5) r ⟨t.val * 4000 + r.val, row_lt3 t r⟩ q
      (readH3 V c t r) (fun j => readW3 V c t j q)]
  exact (reluAffineMatMul_apply (V c main_v44) (V c main_arg5) (V c main_v20) (V c main_v45) _ q).symm

/-- An entry is in block t iff its row is among the block's 4000 rows (and its column in range). -/
theorem memOut3 (t : Fin cfg3.N) (i : S40000x128.Idx) :
    i ∈ ((cfg3.win 4).blk t).view.set ↔ ∀ a : Fin 2, win3_4.index t a * S4000x128.size a ≤ (i a).val
      ∧ (i a).val < win3_4.index t a * S4000x128.size a + S4000x128.size a := by
  show i ∈ ((View.whole main_v46).slice (win3_4.rect t)).set ↔ _
  rw [View.set_slice_whole, Rect.mem_set_unit]
  exact Iff.rfl

/-- Row r of the result is written by block r / 4000: the blocks cover the array. -/
theorem cover3 (i : S40000x128.Idx) :
    ∃ t : Fin cfg3.N, (cfg3.win 4).flush t = true ∧ i ∈ ((cfg3.win 4).blk t).view.set := by
  have hi0 : (i 0).val < 40000 := (i 0).isLt
  have hi1 : (i 1).val < 128 := (i 1).isLt
  have hN : grid3.N = 10 := N_3
  obtain ⟨t, ht⟩ : ∃ t : Fin cfg3.N, t.val = (i 0).val / 4000 :=
    ⟨⟨(i 0).val / 4000, lt_of_lt_of_eq (show (i 0).val / 4000 < 10 by omega) hN.symm⟩, rfl⟩
  obtain ⟨-, -, -, -, -, -, -, -, e40, e41⟩ := blockIdx3 t
  refine ⟨t, flush3_4 t, ?_⟩
  rw [memOut3]
  intro a
  match a with
  | ⟨0, _⟩ =>
    show win3_4.index t (0 : Fin 2) * 4000 ≤ (i 0).val ∧ (i 0).val < win3_4.index t (0 : Fin 2) * 4000 + 4000
    omega
  | ⟨1, _⟩ =>
    show win3_4.index t (1 : Fin 2) * 128 ≤ (i 1).val ∧ (i 1).val < win3_4.index t (1 : Fin 2) * 128 + 128
    omega

/-- After pass 3 the result array holds the layer's term of the arrays the pass was entered with. -/
theorem final3 : (dat3 V c).arrAt 4 cfg3.N
    = Gcn.relu (Gcn.affine (Gcn.matMul (V c main_v44) (V c main_arg5)) (Gcn.colOf (V c main_v20)) (Gcn.rowOf (V c main_v45))) :=
  (dat3 V c).arrAt_eq_of_cover 4
    (Gcn.relu (Gcn.affine (Gcn.matMul (V c main_v44) (V c main_arg5)) (Gcn.colOf (V c main_v20)) (Gcn.rowOf (V c main_v45))) : S40000x128.Idx → EReal)
    (fun t _ => flushed3 V c t) (cover3)

end Cert.KernelIdeal.RegionVal

end
-- ==== Proof.RegionFinal4.lean ====
/-
  The scaling pass before the third layer, as one array.

  Each of the ten grid points owns 4000 rows: it scales every row of its block of the second layer's output (width 128) by
  that row's out-degree factor and writes the block back. The blocks tile the 40000 rows, so the output array is
  `Gcn.rowScale` of the two input arrays.
-/
import proofs.«139564_j34376918237986_1_alg».proof.Proof.Gen.KernelIdeal.Frame
import proofs.«139564_j34376918237986_1_alg».proof.Proof.RegionScale
import Idealize.ShloMosaic.Lib.Pipeline.Value

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- A grid point is one of ten. -/
theorem point_lt4 (t : Fin cfg4.N) : t.val < 10 := lt_of_lt_of_eq t.isLt N_4

/-- Where each window's block sits at grid point `t`: the features', the factors' and the output's blocks are all at
    block row `t`, block column 0. -/
theorem blockIndex4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The features' block at point `t` is rows `4000 t … 4000 t + 3999` of the features. -/
theorem blockX4 (t : Fin cfg4.N) (r : Fin 4000) (q : Fin 128) :
    (iblk4 V c 0 t : Vec Ideal S4000x128 .f32) (ix2 r q) = (V c main_v46 : Gcn.Mat 40000 128) (ix2 (rowOfPoint t.val (point_lt4 t) r) q) := by
  obtain ⟨e0, e1, -, -, -, -⟩ := blockIndex4 t
  unfold iblk4
  rw [View.read_apply]
  show (V c main_v46 : Gcn.Mat 40000 128) _ = _
  refine congrArg (V c main_v46 : Gcn.Mat 40000 128) (funext fun a => Fin.ext ?_)
  match a with
  | ⟨0, _⟩ => show win4_0.index t (0 : Fin 2) * 4000 + 1 * r.val = t.val * 4000 + r.val; rw [e0]; omega
  | ⟨1, _⟩ => show win4_0.index t (1 : Fin 2) * 128 + 1 * q.val = q.val; rw [e1]; omega

/-- The factors' block at point `t` is rows `4000 t … 4000 t + 3999` of the column of factors. -/
theorem blockS4 (t : Fin cfg4.N) (r : Fin 4000) :
    (iblk4 V c 1 t : Vec Ideal S4000x1 .f32) (ix2 r 0) = (V c main_v19 : Gcn.Mat 40000 1) (ix2 (rowOfPoint t.val (point_lt4 t) r) 0) := by
  obtain ⟨-, -, e2, e3, -, -⟩ := blockIndex4 t
  unfold iblk4
  rw [View.read_apply]
  show (V c main_v19 : Gcn.Mat 40000 1) _ = _
  refine congrArg (V c main_v19 : Gcn.Mat 40000 1) (funext fun a => Fin.ext ?_)
  match a with
  | ⟨0, _⟩ => show win4_1.index t (0 : Fin 2) * 4000 + 1 * r.val = t.val * 4000 + r.val; rw [e2]; omega
  | ⟨1, _⟩ => show win4_1.index t (1 : Fin 2) * 1 + 1 * 0 = 0; rw [e3]

/-- What point `t` writes back is block `t` of the scaled array. -/
theorem written4 (t : Fin cfg4.N) :
    (dat4 V c).flushed 2 t = ((cfg4.win 2).blk t).view.read (Elt Ideal)
      (Gcn.rowScale (V c main_v46 : Gcn.Mat 40000 128) (Gcn.colOf (V c main_v19 : Gcn.Mat 40000 1))) := by
  show (cfg4.win 2).cut (grid4.coords t) ((dat4 V c).after 2 t) = _
  rw [after4_2]
  unfold out4_2
  rw [View.canon_unit_zero zero_offsets]
  simp only [View.ld_unit_zero (S := S4000x128) zero_offsets, View.ld_unit_zero (S := S4000x1) zero_offsets]
  obtain ⟨-, -, -, -, e4, e5⟩ := blockIndex4 t
  show (k4_pay1 (iblk4 V c 0 t) (iblk4 V c 1 t) : Vec Ideal S4000x128 .f32)
    = fun j : S4000x128.Idx => Gcn.rowScale (V c main_v46 : Gcn.Mat 40000 128) (Gcn.colOf (V c main_v19 : Gcn.Mat 40000 1)) (((cfg4.win 2).blk t).view.emb j)
  funext j
  obtain ⟨r, q, rfl⟩ : ∃ (r : Fin 4000) (q : Fin 128), j = ix2 r q := ⟨j 0, j 1, eq_ix2 j⟩
  have hemb : ((cfg4.win 2).blk t).view.emb (ix2 r q) = (ix2 (rowOfPoint t.val (point_lt4 t) r) q : S40000x128.Idx) :=
    funext fun a => Fin.ext (by
      match a with
      | ⟨0, _⟩ => show win4_2.index t (0 : Fin 2) * 4000 + 1 * r.val = t.val * 4000 + r.val; rw [e4]; omega
      | ⟨1, _⟩ => show win4_2.index t (1 : Fin 2) * 128 + 1 * q.val = q.val; rw [e5]; omega)
  exact ((rowScale_block128 (V c main_v46 : Gcn.Mat 40000 128) (V c main_v19 : Gcn.Mat 40000 1) (iblk4 V c 0 t) (iblk4 V c 1 t)
      (rowOfPoint t.val (point_lt4 t)) (blockX4 V c t) (blockS4 V c t) r q).trans
    (congrArg (Gcn.rowScale (V c main_v46 : Gcn.Mat 40000 128) (Gcn.colOf (V c main_v19 : Gcn.Mat 40000 1))) hemb.symm))

/-- An entry of the output array is in point `t`'s block iff each coordinate is in the block's range on its axis. -/
theorem mem_block4 (t : Fin cfg4.N) (i : S40000x128.Idx) :
    i ∈ ((cfg4.win 2).blk t).view.set ↔ ∀ a : Fin 2, win4_2.index t a * S4000x128.size a ≤ (i a).val ∧ (i a).val < win4_2.index t a * S4000x128.size a + S4000x128.size a := by
  show i ∈ ((View.whole main_v47).slice (win4_2.rect t)).set ↔ _
  rw [View.set_slice_whole, Rect.mem_set_unit]
  exact Iff.rfl

/-- The ten blocks tile the array: row `r` is in the block of point `r / 4000`. -/
theorem covered4 (i : S40000x128.Idx) : ∃ t : Fin cfg4.N, (cfg4.win 2).flush t = true ∧ i ∈ ((cfg4.win 2).blk t).view.set := by
  have h0 : (i 0).val < 40000 := idx2_lt0 i
  have h1 : (i 1).val < 128 := idx2_lt1 i
  obtain ⟨t, ht⟩ : ∃ t : Fin cfg4.N, t.val = (i 0).val / 4000 := ⟨⟨(i 0).val / 4000, lt_of_lt_of_eq (by omega) N_4.symm⟩, rfl⟩
  obtain ⟨-, -, -, -, e4, e5⟩ := blockIndex4 t
  refine ⟨t, flush4_2 t, ?_⟩
  rw [mem_block4]
  intro a
  match a with
  | ⟨0, _⟩ => show win4_2.index t (0 : Fin 2) * 4000 ≤ (i 0).val ∧ (i 0).val < win4_2.index t (0 : Fin 2) * 4000 + 4000; rw [e4, ht]; omega
  | ⟨1, _⟩ => show win4_2.index t (1 : Fin 2) * 128 ≤ (i 1).val ∧ (i 1).val < win4_2.index t (1 : Fin 2) * 128 + 128; rw [e5]; omega

/-- The output array after the pass: the features with every row scaled by its out-degree factor. -/
theorem final4 : (dat4 V c).arrAt 2 cfg4.N = Gcn.rowScale (V c main_v46) (Gcn.colOf (V c main_v19)) :=
  (dat4 V c).arrAt_eq_of_cover 2 (Gcn.rowScale (V c main_v46 : Gcn.Mat 40000 128) (Gcn.colOf (V c main_v19 : Gcn.Mat 40000 1)))
    (fun t _ => written4 V c t) (covered4)

end Cert.KernelIdeal.RegionVal

end
-- ==== Proof.RegionFinal5.lean ====
/-
  Pass 5 over the rows: multiply the block of h by the weights, scale row r by s r, add the bias row, clamp at zero.

  The pass runs over ten blocks of 4000 rows. At block t it reads rows 4000 t … 4000 t + 3999 of h and of the
  column s, the whole weight matrix and the whole bias row; it writes back rows 4000 t … 4000 t + 3999 of the
  result. Entry (r, q) of the product only reads row r of h, so a block's product is the block of the whole
  product. Row r of the result is written by block r / 4000, so the ten blocks cover the array and it ends holding
  the layer's term at every entry.
-/
import proofs.«139564_j34376918237986_1_alg».proof.Proof.Gen.KernelIdeal.Frame
import proofs.«139564_j34376918237986_1_alg».proof.Proof.RegionBias
import Idealize.ShloMosaic.Lib.Pipeline.Value

noncomputable section

open scoped BigOperators

namespace Cert.KernelIdeal.RegionVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- Which block each window holds at block t: h, s and the result move down the rows with t; the weights and the
    bias row stay. -/
theorem blockIdx5 : ∀ t : Fin cfg5.N,
      win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- A block's row r is row 4000 t + r of the array. -/
theorem row_lt5 (t : Fin cfg5.N) (r : Fin 4000) : t.val * 4000 + r.val < 40000 := by
  have ht : t.val < 10 := lt_of_lt_of_eq t.isLt N_5
  have hr := r.isLt
  omega

/-- Block t of h, entry (r, j): h at row 4000 t + r. -/
theorem readH5 (t : Fin cfg5.N) (r : Fin 4000) (j : Fin 128) :
    (iblk5 V c 0 t : Vec Ideal S4000x128 .f32) (ix2 r j)
      = (V c main_v57 : S40000x128.Idx → EReal) (ix2 (⟨t.val * 4000 + r.val, row_lt5 t r⟩ : Fin 40000) j) := by
  obtain ⟨e00, e01, -⟩ := blockIdx5 t
  unfold iblk5
  rw [View.read_apply]
  show (V c main_v57 : S40000x128.Idx → EReal) _ = (V c main_v57 : S40000x128.Idx → EReal) _
  congr 1
  funext a
  apply Fin.ext
  match a with
  | ⟨0, _⟩ => show win5_0.index t (0 : Fin 2) * 4000 + 1 * r.val = t.val * 4000 + r.val; omega
  | ⟨1, _⟩ => show win5_0.index t (1 : Fin 2) * 128 + 1 * j.val = j.val; omega

/-- The weights' block is the whole matrix at every block. -/
theorem readW5 (t : Fin cfg5.N) (j : Fin 128) (q : Fin 128) :
    (iblk5 V c 1 t : Vec Ideal S128x128 .f32) (ix2 j q) = (V c main_arg7 : S128x128.Idx → EReal) (ix2 j q) := by
  obtain ⟨-, -, e10, e11, -⟩ := blockIdx5 t
  unfold iblk5
  rw [View.read_apply]
  show (V c main_arg7 : S128x128.Idx → EReal) _ = (V c main_arg7 : S128x128.Idx → EReal) _
  congr 1
  funext a
  apply Fin.ext
  match a with
  | ⟨0, _⟩ => show win5_1.index t (0 : Fin 2) * 128 + 1 * j.val = j.val; omega
  | ⟨1, _⟩ => show win5_1.index t (1 : Fin 2) * 128 + 1 * q.val = q.val; omega

/-- Block t of the column s, row r: s at row 4000 t + r. -/
theorem readS5 (t : Fin cfg5.N) (r : Fin 4000) :
    (iblk5 V c 2 t : Vec Ideal S4000x1 .f32) (ix2 r (0 : Fin 1))
      = (V c main_v20 : S40000x1.Idx → EReal) (ix2 (⟨t.val * 4000 + r.val, row_lt5 t r⟩ : Fin 40000) (0 : Fin 1)) := by
  obtain ⟨-, -, -, -, e20, e21, -⟩ := blockIdx5 t
  unfold iblk5
  rw [View.read_apply]
  show (V c main_v20 : S40000x1.Idx → EReal) _ = (V c main_v20 : S40000x1.Idx → EReal) _
  congr 1
  funext a
  apply Fin.ext
  match a with
  | ⟨0, _⟩ => show win5_2.index t (0 : Fin 2) * 4000 + 1 * r.val = t.val * 4000 + r.val; omega
  | ⟨1, _⟩ => show win5_2.index t (1 : Fin 2) * 1 + 1 * 0 = 0; omega

/-- The bias row's block is the whole row at every block. -/
theorem readB5 (t : Fin cfg5.N) (q : Fin 128) :
    (iblk5 V c 3 t : Vec Ideal S1x128 .f32) (ix2 (0 : Fin 1) q) = (V c main_v58 : S1x128.Idx → EReal) (ix2 (0 : Fin 1) q) := by
  obtain ⟨-, -, -, -, -, -, e30, e31, -⟩ := blockIdx5 t
  unfold iblk5
  rw [View.read_apply]
  show (V c main_v58 : S1x128.Idx → EReal) _ = (V c main_v58 : S1x128.Idx → EReal) _
  congr 1
  funext a
  apply Fin.ext
  match a with
  | ⟨0, _⟩ => show win5_3.index t (0 : Fin 2) * 1 + 1 * 0 = 0; omega
  | ⟨1, _⟩ => show win5_3.index t (1 : Fin 2) * 128 + 1 * q.val = q.val; omega

/-- Entry (r, q) of the result's block t is entry (4000 t + r, q) of the result. -/
theorem outEmb5 (t : Fin cfg5.N) (r : Fin 4000) (q : Fin 128) :
    ((cfg5.win 4).blk t).view.emb (ix2 r q) = (ix2 (⟨t.val * 4000 + r.val, row_lt5 t r⟩ : Fin 40000) q : S40000x128.Idx) := by
  obtain ⟨-, -, -, -, -, -, -, -, e40, e41⟩ := blockIdx5 t
  funext a
  apply Fin.ext
  match a with
  | ⟨0, _⟩ => show win5_4.index t (0 : Fin 2) * 4000 + 1 * r.val = t.val * 4000 + r.val; omega
  | ⟨1, _⟩ => show win5_4.index t (1 : Fin 2) * 128 + 1 * q.val = q.val; omega

/-- What block t writes back is block t of the layer's term over the arrays as the pass finds them. -/
theorem flushed5 (t : Fin cfg5.N) :
    (dat5 V c).flushed 4 t = ((cfg5.win 4).blk t).view.read (Elt Ideal)
      (Gcn.relu (Gcn.affine (Gcn.matMul (V c main_v57) (V c main_arg7)) (Gcn.colOf (V c main_v20)) (Gcn.rowOf (V c main_v58))) : S40000x128.Idx → EReal) := by
  show (cfg5.win 4).cut (grid5.coords t) ((dat5 V c).after 4 t) = _
  rw [after5_4]
  unfold out5_4
  rw [View.canon_unit_zero zeroOffsets]
  simp only [View.ld_unit_zero (S := S4000x128) zeroOffsets, View.ld_unit_zero (S := S128x128) zeroOffsets,
    View.ld_unit_zero (S := S4000x1) zeroOffsets, View.ld_unit_zero (S := S1x128) zeroOffsets]
  funext j
  obtain ⟨r, q, rfl⟩ : ∃ (r : Fin 4000) (q : Fin 128), j = ix2 r q := ⟨j 0, j 1, eq_ix2 j⟩
  show k5_pay1 (iblk5 V c 0 t) (iblk5 V c 1 t) (iblk5 V c 2 t) (iblk5 V c 3 t) (ix2 r q)
    = (Gcn.relu (Gcn.affine (Gcn.matMul (V c main_v57) (V c main_arg7)) (Gcn.colOf (V c main_v20)) (Gcn.rowOf (V c main_v58))) : S40000x128.Idx → EReal)
        (((cfg5.win 4).blk t).view.emb (ix2 r q))
  rw [outEmb5 t r q]
  refine (prodBiasClamp128x128_apply (iblk5 V c 0 t) (iblk5 V c 1 t) (iblk5 V c 2 t) (iblk5 V c 3 t) r q).trans ?_
  rw [readS5 V c t r, readB5 V c t q,
    rowSum128x128 (iblk5 V c 0 t) (iblk5 V c 1 t) (V c main_v57) (V c main_arg7) r ⟨t.val * 4000 + r.val, row_lt5 t r⟩ q
      (readH5 V c t r) (fun j => readW5 V c t j q)]
  exact (reluAffineMatMul_apply (V c main_v57) (V c main_arg7) (V c main_v20) (V c main_v58) _ q).symm

/-- An entry is in block t iff its row is among the block's 4000 rows (and its column in range). -/
theorem memOut5 (t : Fin cfg5.N) (i : S40000x128.Idx) :
    i ∈ ((cfg5.win 4).blk t).view.set ↔ ∀ a : Fin 2, win5_4.index t a * S4000x128.size a ≤ (i a).val
      ∧ (i a).val < win5_4.index t a * S4000x128.size a + S4000x128.size a := by
  show i ∈ ((View.whole main_v59).slice (win5_4.rect t)).set ↔ _
  rw [View.set_slice_whole, Rect.mem_set_unit]
  exact Iff.rfl

/-- Row r of the result is written by block r / 4000: the blocks cover the array. -/
theorem cover5 (i : S40000x128.Idx) :
    ∃ t : Fin cfg5.N, (cfg5.win 4).flush t = true ∧ i ∈ ((cfg5.win 4).blk t).view.set := by
  have hi0 : (i 0).val < 40000 := (i 0).isLt
  have hi1 : (i 1).val < 128 := (i 1).isLt
  have hN : grid5.N = 10 := N_5
  obtain ⟨t, ht⟩ : ∃ t : Fin cfg5.N, t.val = (i 0).val / 4000 :=
    ⟨⟨(i 0).val / 4000, lt_of_lt_of_eq (show (i 0).val / 4000 < 10 by omega) hN.symm⟩, rfl⟩
  obtain ⟨-, -, -, -, -, -, -, -, e40, e41⟩ := blockIdx5 t
  refine ⟨t, flush5_4 t, ?_⟩
  rw [memOut5]
  intro a
  match a with
  | ⟨0, _⟩ =>
    show win5_4.index t (0 : Fin 2) * 4000 ≤ (i 0).val ∧ (i 0).val < win5_4.index t (0 : Fin 2) * 4000 + 4000
    omega
  | ⟨1, _⟩ =>
    show win5_4.index t (1 : Fin 2) * 128 ≤ (i 1).val ∧ (i 1).val < win5_4.index t (1 : Fin 2) * 128 + 128
    omega

/-- After pass 5 the result array holds the layer's term of the arrays the pass was entered with. -/
theorem final5 : (dat5 V c).arrAt 4 cfg5.N
    = Gcn.relu (Gcn.affine (Gcn.matMul (V c main_v57) (V c main_arg7)) (Gcn.colOf (V c main_v20)) (Gcn.rowOf (V c main_v58))) :=
  (dat5 V c).arrAt_eq_of_cover 4
    (Gcn.relu (Gcn.affine (Gcn.matMul (V c main_v57) (V c main_arg7)) (Gcn.colOf (V c main_v20)) (Gcn.rowOf (V c main_v58))) : S40000x128.Idx → EReal)
    (fun t _ => flushed5 V c t) (cover5)

end Cert.KernelIdeal.RegionVal

end
-- ==== Proof.RegionFinal6.lean ====
/-
  The fourth layer's scaling and projection pass, as one array.

  Each of the ten grid points owns 4000 rows: it scales every row of its block of the third layer's output (width 128) by
  that row's out-degree factor, multiplies the scaled block by the whole 128 × 64 weight matrix, and writes the block of
  products back. The blocks tile the 40000 rows, so the output array is `Gcn.matMul (Gcn.rowScale …) …` of the three
  input arrays.
-/
import proofs.«139564_j34376918237986_1_alg».proof.Proof.Gen.KernelIdeal.Frame
import proofs.«139564_j34376918237986_1_alg».proof.Proof.RegionScale
import Idealize.ShloMosaic.Lib.Pipeline.Value

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- A grid point is one of ten. -/
theorem point_lt6 (t : Fin cfg6.N) : t.val < 10 := lt_of_lt_of_eq t.isLt N_6

/-- Where each window's block sits at grid point `t`: the features', the factors' and the output's blocks are at block
    row `t`, block column 0; the weights are one block, the whole matrix. -/
theorem blockIndex6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- The features' block at point `t` is rows `4000 t … 4000 t + 3999` of the features. -/
theorem blockX6 (t : Fin cfg6.N) (r : Fin 4000) (k : Fin 128) :
    (iblk6 V c 0 t : Vec Ideal S4000x128 .f32) (ix2 r k) = (V c main_v59 : Gcn.Mat 40000 128) (ix2 (rowOfPoint t.val (point_lt6 t) r) k) := by
  obtain ⟨e0, e1, -, -, -, -, -, -⟩ := blockIndex6 t
  unfold iblk6
  rw [View.read_apply]
  show (V c main_v59 : Gcn.Mat 40000 128) _ = _
  refine congrArg (V c main_v59 : Gcn.Mat 40000 128) (funext fun a => Fin.ext ?_)
  match a with
  | ⟨0, _⟩ => show win6_0.index t (0 : Fin 2) * 4000 + 1 * r.val = t.val * 4000 + r.val; rw [e0]; omega
  | ⟨1, _⟩ => show win6_0.index t (1 : Fin 2) * 128 + 1 * k.val = k.val; rw [e1]; omega

/-- The weights' block at every point is the whole weight matrix. -/
theorem blockW6 (t : Fin cfg6.N) (k : Fin 128) (q : Fin 64) :
    (iblk6 V c 1 t : Vec Ideal S128x64 .f32) (ix2 k q) = (V c main_arg9 : Gcn.Mat 128 64) (ix2 k q) := by
  obtain ⟨-, -, e2, e3, -, -, -, -⟩ := blockIndex6 t
  unfold iblk6
  rw [View.read_apply]
  show (V c main_arg9 : Gcn.Mat 128 64) _ = _
  refine congrArg (V c main_arg9 : Gcn.Mat 128 64) (funext fun a => Fin.ext ?_)
  match a with
  | ⟨0, _⟩ => show win6_1.index t (0 : Fin 2) * 128 + 1 * k.val = k.val; rw [e2]; omega
  | ⟨1, _⟩ => show win6_1.index t (1 : Fin 2) * 64 + 1 * q.val = q.val; rw [e3]; omega

/-- The factors' block at point `t` is rows `4000 t … 4000 t + 3999` of the column of factors. -/
theorem blockS6 (t : Fin cfg6.N) (r : Fin 4000) :
    (iblk6 V c 2 t : Vec Ideal S4000x1 .f32) (ix2 r 0) = (V c main_v19 : Gcn.Mat 40000 1) (ix2 (rowOfPoint t.val (point_lt6 t) r) 0) := by
  obtain ⟨-, -, -, -, e4, e5, -, -⟩ := blockIndex6 t
  unfold iblk6
  rw [View.read_apply]
  show (V c main_v19 : Gcn.Mat 40000 1) _ = _
  refine congrArg (V c main_v19 : Gcn.Mat 40000 1) (funext fun a => Fin.ext ?_)
  match a with
  | ⟨0, _⟩ => show win6_2.index t (0 : Fin 2) * 4000 + 1 * r.val = t.val * 4000 + r.val; rw [e4]; omega
  | ⟨1, _⟩ => show win6_2.index t (1 : Fin 2) * 1 + 1 * 0 = 0; rw [e5]

/-- What point `t` writes back is block `t` of the product of the scaled features with the weights. -/
theorem written6 (t : Fin cfg6.N) :
    (dat6 V c).flushed 3 t = ((cfg6.win 3).blk t).view.read (Elt Ideal)
      (Gcn.matMul (Gcn.rowScale (V c main_v59 : Gcn.Mat 40000 128) (Gcn.colOf (V c main_v19 : Gcn.Mat 40000 1))) (V c main_arg9 : Gcn.Mat 128 64)) := by
  show (cfg6.win 3).cut (grid6.coords t) ((dat6 V c).after 3 t) = _
  rw [after6_3]
  unfold out6_3
  rw [View.canon_unit_zero zero_offsets]
  simp only [View.ld_unit_zero (S := S4000x128) zero_offsets, View.ld_unit_zero (S := S4000x1) zero_offsets, View.ld_unit_zero (S := S128x64) zero_offsets]
  obtain ⟨-, -, -, -, -, -, e6, e7⟩ := blockIndex6 t
  show (k6_pay1 (iblk6 V c 0 t) (iblk6 V c 2 t) (iblk6 V c 1 t) : Vec Ideal S4000x64 .f32)
    = fun j : S4000x64.Idx => Gcn.matMul (Gcn.rowScale (V c main_v59 : Gcn.Mat 40000 128) (Gcn.colOf (V c main_v19 : Gcn.Mat 40000 1))) (V c main_arg9 : Gcn.Mat 128 64) (((cfg6.win 3).blk t).view.emb j)
  funext j
  obtain ⟨r, q, rfl⟩ : ∃ (r : Fin 4000) (q : Fin 64), j = ix2 r q := ⟨j 0, j 1, eq_ix2 j⟩
  have hemb : ((cfg6.win 3).blk t).view.emb (ix2 r q) = (ix2 (rowOfPoint t.val (point_lt6 t) r) q : S40000x64.Idx) :=
    funext fun a => Fin.ext (by
      match a with
      | ⟨0, _⟩ => show win6_3.index t (0 : Fin 2) * 4000 + 1 * r.val = t.val * 4000 + r.val; rw [e6]; omega
      | ⟨1, _⟩ => show win6_3.index t (1 : Fin 2) * 64 + 1 * q.val = q.val; rw [e7]; omega)
  exact (scaleDot128_block (V c main_v59 : Gcn.Mat 40000 128) (V c main_v19 : Gcn.Mat 40000 1) (V c main_arg9 : Gcn.Mat 128 64)
      (iblk6 V c 0 t) (iblk6 V c 2 t) (iblk6 V c 1 t)
      (rowOfPoint t.val (point_lt6 t)) (blockX6 V c t) (blockS6 V c t) (blockW6 V c t) r q).trans
    (congrArg (Gcn.matMul (Gcn.rowScale (V c main_v59 : Gcn.Mat 40000 128) (Gcn.colOf (V c main_v19 : Gcn.Mat 40000 1))) (V c main_arg9 : Gcn.Mat 128 64)) hemb.symm)

/-- An entry of the output array is in point `t`'s block iff each coordinate is in the block's range on its axis. -/
theorem mem_block6 (t : Fin cfg6.N) (i : S40000x64.Idx) :
    i ∈ ((cfg6.win 3).blk t).view.set ↔ ∀ a : Fin 2, win6_3.index t a * S4000x64.size a ≤ (i a).val ∧ (i a).val < win6_3.index t a * S4000x64.size a + S4000x64.size a := by
  show i ∈ ((View.whole main_v60).slice (win6_3.rect t)).set ↔ _
  rw [View.set_slice_whole, Rect.mem_set_unit]
  exact Iff.rfl

/-- The ten blocks tile the array: row `r` is in the block of point `r / 4000`. -/
theorem covered6 (i : S40000x64.Idx) : ∃ t : Fin cfg6.N, (cfg6.win 3).flush t = true ∧ i ∈ ((cfg6.win 3).blk t).view.set := by
  have h0 : (i 0).val < 40000 := idx2_lt0 i
  have h1 : (i 1).val < 64 := idx2_lt1 i
  obtain ⟨t, ht⟩ : ∃ t : Fin cfg6.N, t.val = (i 0).val / 4000 := ⟨⟨(i 0).val / 4000, lt_of_lt_of_eq (by omega) N_6.symm⟩, rfl⟩
  obtain ⟨-, -, -, -, -, -, e6, e7⟩ := blockIndex6 t
  refine ⟨t, flush6_3 t, ?_⟩
  rw [mem_block6]
  intro a
  match a with
  | ⟨0, _⟩ => show win6_3.index t (0 : Fin 2) * 4000 ≤ (i 0).val ∧ (i 0).val < win6_3.index t (0 : Fin 2) * 4000 + 4000; rw [e6, ht]; omega
  | ⟨1, _⟩ => show win6_3.index t (1 : Fin 2) * 64 ≤ (i 1).val ∧ (i 1).val < win6_3.index t (1 : Fin 2) * 64 + 64; rw [e7]; omega

/-- The output array after the pass: the third layer's output, rows scaled by their out-degree factors, times the fourth weights. -/
theorem final6 : (dat6 V c).arrAt 3 cfg6.N = Gcn.matMul (Gcn.rowScale (V c main_v59) (Gcn.colOf (V c main_v19))) (V c main_arg9) :=
  (dat6 V c).arrAt_eq_of_cover 3
    (Gcn.matMul (Gcn.rowScale (V c main_v59 : Gcn.Mat 40000 128) (Gcn.colOf (V c main_v19 : Gcn.Mat 40000 1))) (V c main_arg9 : Gcn.Mat 128 64))
    (fun t _ => written6 V c t) (covered6)

end Cert.KernelIdeal.RegionVal

end
-- ==== Proof.RegionFinal7.lean ====
/-
  Pass 7 over the rows: scale row r of h by s r, add the bias row, clamp at zero.

  The pass runs over ten blocks of 4000 rows. At block t it reads rows 4000 t … 4000 t + 3999 of h and of the
  column s, and the whole bias row; it writes back rows 4000 t … 4000 t + 3999 of the result. Row r of the result
  is written by block r / 4000, so the ten blocks cover the array and it ends holding the layer's term at every entry.
-/
import proofs.«139564_j34376918237986_1_alg».proof.Proof.Gen.KernelIdeal.Frame
import proofs.«139564_j34376918237986_1_alg».proof.Proof.RegionBias
import Idealize.ShloMosaic.Lib.Pipeline.Value

noncomputable section

namespace Cert.KernelIdeal.RegionVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- Which block each window holds at block t: h, s and the result move down the rows with t; the bias row stays. -/
theorem blockIdx7 : ∀ t : Fin cfg7.N,
      win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- A block's row r is row 4000 t + r of the array. -/
theorem row_lt7 (t : Fin cfg7.N) (r : Fin 4000) : t.val * 4000 + r.val < 40000 := by
  have ht : t.val < 10 := lt_of_lt_of_eq t.isLt N_7
  have hr := r.isLt
  omega

/-- Block t of h, entry (r, q): h at row 4000 t + r. -/
theorem readH7 (t : Fin cfg7.N) (r : Fin 4000) (q : Fin 64) :
    (iblk7 V c 0 t : Vec Ideal S4000x64 .f32) (ix2 r q)
      = (V c main_v70 : S40000x64.Idx → EReal) (ix2 (⟨t.val * 4000 + r.val, row_lt7 t r⟩ : Fin 40000) q) := by
  obtain ⟨e00, e01, -⟩ := blockIdx7 t
  unfold iblk7
  rw [View.read_apply]
  show (V c main_v70 : S40000x64.Idx → EReal) _ = (V c main_v70 : S40000x64.Idx → EReal) _
  congr 1
  funext a
  apply Fin.ext
  match a with
  | ⟨0, _⟩ => show win7_0.index t (0 : Fin 2) * 4000 + 1 * r.val = t.val * 4000 + r.val; omega
  | ⟨1, _⟩ => show win7_0.index t (1 : Fin 2) * 64 + 1 * q.val = q.val; omega

/-- Block t of the column s, row r: s at row 4000 t + r. -/
theorem readS7 (t : Fin cfg7.N) (r : Fin 4000) :
    (iblk7 V c 1 t : Vec Ideal S4000x1 .f32) (ix2 r (0 : Fin 1))
      = (V c main_v20 : S40000x1.Idx → EReal) (ix2 (⟨t.val * 4000 + r.val, row_lt7 t r⟩ : Fin 40000) (0 : Fin 1)) := by
  obtain ⟨-, -, e10, e11, -⟩ := blockIdx7 t
  unfold iblk7
  rw [View.read_apply]
  show (V c main_v20 : S40000x1.Idx → EReal) _ = (V c main_v20 : S40000x1.Idx → EReal) _
  congr 1
  funext a
  apply Fin.ext
  match a with
  | ⟨0, _⟩ => show win7_1.index t (0 : Fin 2) * 4000 + 1 * r.val = t.val * 4000 + r.val; omega
  | ⟨1, _⟩ => show win7_1.index t (1 : Fin 2) * 1 + 1 * 0 = 0; omega

/-- The bias row's block is the whole row at every block. -/
theorem readB7 (t : Fin cfg7.N) (q : Fin 64) :
    (iblk7 V c 2 t : Vec Ideal S1x64 .f32) (ix2 (0 : Fin 1) q) = (V c main_v71 : S1x64.Idx → EReal) (ix2 (0 : Fin 1) q) := by
  obtain ⟨-, -, -, -, e20, e21, -⟩ := blockIdx7 t
  unfold iblk7
  rw [View.read_apply]
  show (V c main_v71 : S1x64.Idx → EReal) _ = (V c main_v71 : S1x64.Idx → EReal) _
  congr 1
  funext a
  apply Fin.ext
  match a with
  | ⟨0, _⟩ => show win7_2.index t (0 : Fin 2) * 1 + 1 * 0 = 0; omega
  | ⟨1, _⟩ => show win7_2.index t (1 : Fin 2) * 64 + 1 * q.val = q.val; omega

/-- Entry (r, q) of the result's block t is entry (4000 t + r, q) of the result. -/
theorem outEmb7 (t : Fin cfg7.N) (r : Fin 4000) (q : Fin 64) :
    ((cfg7.win 3).blk t).view.emb (ix2 r q) = (ix2 (⟨t.val * 4000 + r.val, row_lt7 t r⟩ : Fin 40000) q : S40000x64.Idx) := by
  obtain ⟨-, -, -, -, -, -, e30, e31⟩ := blockIdx7 t
  funext a
  apply Fin.ext
  match a with
  | ⟨0, _⟩ => show win7_3.index t (0 : Fin 2) * 4000 + 1 * r.val = t.val * 4000 + r.val; omega
  | ⟨1, _⟩ => show win7_3.index t (1 : Fin 2) * 64 + 1 * q.val = q.val; omega

/-- What block t writes back is block t of the layer's term over the arrays as the pass finds them. -/
theorem flushed7 (t : Fin cfg7.N) :
    (dat7 V c).flushed 3 t = ((cfg7.win 3).blk t).view.read (Elt Ideal)
      (Gcn.relu (Gcn.affine (V c main_v70) (Gcn.colOf (V c main_v20)) (Gcn.rowOf (V c main_v71))) : S40000x64.Idx → EReal) := by
  show (cfg7.win 3).cut (grid7.coords t) ((dat7 V c).after 3 t) = _
  rw [after7_3]
  unfold out7_3
  rw [View.canon_unit_zero zeroOffsets]
  simp only [View.ld_unit_zero (S := S4000x64) zeroOffsets, View.ld_unit_zero (S := S4000x1) zeroOffsets,
    View.ld_unit_zero (S := S1x64) zeroOffsets]
  funext j
  obtain ⟨r, q, rfl⟩ : ∃ (r : Fin 4000) (q : Fin 64), j = ix2 r q := ⟨j 0, j 1, eq_ix2 j⟩
  show k7_pay1 (iblk7 V c 0 t) (iblk7 V c 1 t) (iblk7 V c 2 t) (ix2 r q)
    = (Gcn.relu (Gcn.affine (V c main_v70) (Gcn.colOf (V c main_v20)) (Gcn.rowOf (V c main_v71))) : S40000x64.Idx → EReal) (((cfg7.win 3).blk t).view.emb (ix2 r q))
  rw [outEmb7 t r q]
  refine (biasClamp64_apply' (iblk7 V c 0 t) (iblk7 V c 1 t) (iblk7 V c 2 t) r q).trans ?_
  rw [readH7 V c t r q, readS7 V c t r, readB7 V c t q]
  exact (reluAffine_apply (V c main_v70) (V c main_v20) (V c main_v71) _ q).symm

/-- An entry is in block t iff its row is among the block's 4000 rows (and its column in range). -/
theorem memOut7 (t : Fin cfg7.N) (i : S40000x64.Idx) :
    i ∈ ((cfg7.win 3).blk t).view.set ↔ ∀ a : Fin 2, win7_3.index t a * S4000x64.size a ≤ (i a).val
      ∧ (i a).val < win7_3.index t a * S4000x64.size a + S4000x64.size a := by
  show i ∈ ((View.whole main_v72).slice (win7_3.rect t)).set ↔ _
  rw [View.set_slice_whole, Rect.mem_set_unit]
  exact Iff.rfl

/-- Row r of the result is written by block r / 4000: the blocks cover the array. -/
theorem cover7 (i : S40000x64.Idx) :
    ∃ t : Fin cfg7.N, (cfg7.win 3).flush t = true ∧ i ∈ ((cfg7.win 3).blk t).view.set := by
  have hi0 : (i 0).val < 40000 := (i 0).isLt
  have hi1 : (i 1).val < 64 := (i 1).isLt
  have hN : grid7.N = 10 := N_7
  obtain ⟨t, ht⟩ : ∃ t : Fin cfg7.N, t.val = (i 0).val / 4000 :=
    ⟨⟨(i 0).val / 4000, lt_of_lt_of_eq (show (i 0).val / 4000 < 10 by omega) hN.symm⟩, rfl⟩
  obtain ⟨-, -, -, -, -, -, e30, e31⟩ := blockIdx7 t
  refine ⟨t, flush7_3 t, ?_⟩
  rw [memOut7]
  intro a
  match a with
  | ⟨0, _⟩ =>
    show win7_3.index t (0 : Fin 2) * 4000 ≤ (i 0).val ∧ (i 0).val < win7_3.index t (0 : Fin 2) * 4000 + 4000
    omega
  | ⟨1, _⟩ =>
    show win7_3.index t (1 : Fin 2) * 64 ≤ (i 1).val ∧ (i 1).val < win7_3.index t (1 : Fin 2) * 64 + 64
    omega

/-- After pass 7 the result array holds the layer's term of the arrays the pass was entered with. -/
theorem final7 : (dat7 V c).arrAt 3 cfg7.N
    = Gcn.relu (Gcn.affine (V c main_v70) (Gcn.colOf (V c main_v20)) (Gcn.rowOf (V c main_v71))) :=
  (dat7 V c).arrAt_eq_of_cover 3 (Gcn.relu (Gcn.affine (V c main_v70) (Gcn.colOf (V c main_v20)) (Gcn.rowOf (V c main_v71))) : S40000x64.Idx → EReal)
    (fun t _ => flushed7 V c t) (cover7)

end Cert.KernelIdeal.RegionVal

end
-- ==== Proof.RegionFinal8.lean ====
/-
  The scaling pass before the fifth layer, as one array.

  Each of the ten grid points owns 4000 rows: it scales every row of its block of the fourth layer's output (width 64) by
  that row's out-degree factor and writes the block back. The blocks tile the 40000 rows, so the output array is
  `Gcn.rowScale` of the two input arrays.
-/
import proofs.«139564_j34376918237986_1_alg».proof.Proof.Gen.KernelIdeal.Frame
import proofs.«139564_j34376918237986_1_alg».proof.Proof.RegionScale
import Idealize.ShloMosaic.Lib.Pipeline.Value

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- A grid point is one of ten. -/
theorem point_lt8 (t : Fin cfg8.N) : t.val < 10 := lt_of_lt_of_eq t.isLt N_8

/-- Where each window's block sits at grid point `t`: the features', the factors' and the output's blocks are all at
    block row `t`, block column 0. -/
theorem blockIndex8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- The features' block at point `t` is rows `4000 t … 4000 t + 3999` of the features. -/
theorem blockX8 (t : Fin cfg8.N) (r : Fin 4000) (q : Fin 64) :
    (iblk8 V c 0 t : Vec Ideal S4000x64 .f32) (ix2 r q) = (V c main_v72 : Gcn.Mat 40000 64) (ix2 (rowOfPoint t.val (point_lt8 t) r) q) := by
  obtain ⟨e0, e1, -, -, -, -⟩ := blockIndex8 t
  unfold iblk8
  rw [View.read_apply]
  show (V c main_v72 : Gcn.Mat 40000 64) _ = _
  refine congrArg (V c main_v72 : Gcn.Mat 40000 64) (funext fun a => Fin.ext ?_)
  match a with
  | ⟨0, _⟩ => show win8_0.index t (0 : Fin 2) * 4000 + 1 * r.val = t.val * 4000 + r.val; rw [e0]; omega
  | ⟨1, _⟩ => show win8_0.index t (1 : Fin 2) * 64 + 1 * q.val = q.val; rw [e1]; omega

/-- The factors' block at point `t` is rows `4000 t … 4000 t + 3999` of the column of factors. -/
theorem blockS8 (t : Fin cfg8.N) (r : Fin 4000) :
    (iblk8 V c 1 t : Vec Ideal S4000x1 .f32) (ix2 r 0) = (V c main_v19 : Gcn.Mat 40000 1) (ix2 (rowOfPoint t.val (point_lt8 t) r) 0) := by
  obtain ⟨-, -, e2, e3, -, -⟩ := blockIndex8 t
  unfold iblk8
  rw [View.read_apply]
  show (V c main_v19 : Gcn.Mat 40000 1) _ = _
  refine congrArg (V c main_v19 : Gcn.Mat 40000 1) (funext fun a => Fin.ext ?_)
  match a with
  | ⟨0, _⟩ => show win8_1.index t (0 : Fin 2) * 4000 + 1 * r.val = t.val * 4000 + r.val; rw [e2]; omega
  | ⟨1, _⟩ => show win8_1.index t (1 : Fin 2) * 1 + 1 * 0 = 0; rw [e3]

/-- What point `t` writes back is block `t` of the scaled array. -/
theorem written8 (t : Fin cfg8.N) :
    (dat8 V c).flushed 2 t = ((cfg8.win 2).blk t).view.read (Elt Ideal)
      (Gcn.rowScale (V c main_v72 : Gcn.Mat 40000 64) (Gcn.colOf (V c main_v19 : Gcn.Mat 40000 1))) := by
  show (cfg8.win 2).cut (grid8.coords t) ((dat8 V c).after 2 t) = _
  rw [after8_2]
  unfold out8_2
  rw [View.canon_unit_zero zero_offsets]
  simp only [View.ld_unit_zero (S := S4000x64) zero_offsets, View.ld_unit_zero (S := S4000x1) zero_offsets]
  obtain ⟨-, -, -, -, e4, e5⟩ := blockIndex8 t
  show (k8_pay1 (iblk8 V c 0 t) (iblk8 V c 1 t) : Vec Ideal S4000x64 .f32)
    = fun j : S4000x64.Idx => Gcn.rowScale (V c main_v72 : Gcn.Mat 40000 64) (Gcn.colOf (V c main_v19 : Gcn.Mat 40000 1)) (((cfg8.win 2).blk t).view.emb j)
  funext j
  obtain ⟨r, q, rfl⟩ : ∃ (r : Fin 4000) (q : Fin 64), j = ix2 r q := ⟨j 0, j 1, eq_ix2 j⟩
  have hemb : ((cfg8.win 2).blk t).view.emb (ix2 r q) = (ix2 (rowOfPoint t.val (point_lt8 t) r) q : S40000x64.Idx) :=
    funext fun a => Fin.ext (by
      match a with
      | ⟨0, _⟩ => show win8_2.index t (0 : Fin 2) * 4000 + 1 * r.val = t.val * 4000 + r.val; rw [e4]; omega
      | ⟨1, _⟩ => show win8_2.index t (1 : Fin 2) * 64 + 1 * q.val = q.val; rw [e5]; omega)
  exact (congrFun (k8_pay1_eq (iblk8 V c 0 t) (iblk8 V c 1 t)) (ix2 r q)).trans
    ((rowScale_block64 (V c main_v72 : Gcn.Mat 40000 64) (V c main_v19 : Gcn.Mat 40000 1) (iblk8 V c 0 t) (iblk8 V c 1 t)
      (rowOfPoint t.val (point_lt8 t)) (blockX8 V c t) (blockS8 V c t) r q).trans
    (congrArg (Gcn.rowScale (V c main_v72 : Gcn.Mat 40000 64) (Gcn.colOf (V c main_v19 : Gcn.Mat 40000 1))) hemb.symm))

/-- An entry of the output array is in point `t`'s block iff each coordinate is in the block's range on its axis. -/
theorem mem_block8 (t : Fin cfg8.N) (i : S40000x64.Idx) :
    i ∈ ((cfg8.win 2).blk t).view.set ↔ ∀ a : Fin 2, win8_2.index t a * S4000x64.size a ≤ (i a).val ∧ (i a).val < win8_2.index t a * S4000x64.size a + S4000x64.size a := by
  show i ∈ ((View.whole main_v73).slice (win8_2.rect t)).set ↔ _
  rw [View.set_slice_whole, Rect.mem_set_unit]
  exact Iff.rfl

/-- The ten blocks tile the array: row `r` is in the block of point `r / 4000`. -/
theorem covered8 (i : S40000x64.Idx) : ∃ t : Fin cfg8.N, (cfg8.win 2).flush t = true ∧ i ∈ ((cfg8.win 2).blk t).view.set := by
  have h0 : (i 0).val < 40000 := idx2_lt0 i
  have h1 : (i 1).val < 64 := idx2_lt1 i
  obtain ⟨t, ht⟩ : ∃ t : Fin cfg8.N, t.val = (i 0).val / 4000 := ⟨⟨(i 0).val / 4000, lt_of_lt_of_eq (by omega) N_8.symm⟩, rfl⟩
  obtain ⟨-, -, -, -, e4, e5⟩ := blockIndex8 t
  refine ⟨t, flush8_2 t, ?_⟩
  rw [mem_block8]
  intro a
  match a with
  | ⟨0, _⟩ => show win8_2.index t (0 : Fin 2) * 4000 ≤ (i 0).val ∧ (i 0).val < win8_2.index t (0 : Fin 2) * 4000 + 4000; rw [e4, ht]; omega
  | ⟨1, _⟩ => show win8_2.index t (1 : Fin 2) * 64 ≤ (i 1).val ∧ (i 1).val < win8_2.index t (1 : Fin 2) * 64 + 64; rw [e5]; omega

/-- The output array after the pass: the features with every row scaled by its out-degree factor. -/
theorem final8 : (dat8 V c).arrAt 2 cfg8.N = Gcn.rowScale (V c main_v72) (Gcn.colOf (V c main_v19)) :=
  (dat8 V c).arrAt_eq_of_cover 2 (Gcn.rowScale (V c main_v72 : Gcn.Mat 40000 64) (Gcn.colOf (V c main_v19 : Gcn.Mat 40000 1)))
    (fun t _ => written8 V c t) (covered8)

end Cert.KernelIdeal.RegionVal

end
-- ==== Proof.RegionFinal9.lean ====
/-
  Pass 9 over the rows: multiply the block of h by the weights, scale row r by s r, add the bias row, clamp at zero.

  The pass runs over ten blocks of 4000 rows. At block t it reads rows 4000 t … 4000 t + 3999 of h and of the
  column s, the whole weight matrix and the whole bias row; it writes back rows 4000 t … 4000 t + 3999 of the
  result. Entry (r, q) of the product only reads row r of h, so a block's product is the block of the whole
  product. Row r of the result is written by block r / 4000, so the ten blocks cover the array and it ends holding
  the layer's term at every entry.
-/
import proofs.«139564_j34376918237986_1_alg».proof.Proof.Gen.KernelIdeal.Frame
import proofs.«139564_j34376918237986_1_alg».proof.Proof.RegionBias
import Idealize.ShloMosaic.Lib.Pipeline.Value

noncomputable section

open scoped BigOperators

namespace Cert.KernelIdeal.RegionVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- Which block each window holds at block t: h, s and the result move down the rows with t; the weights and the
    bias row stay. -/
theorem blockIdx9 : ∀ t : Fin cfg9.N,
      win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

/-- A block's row r is row 4000 t + r of the array. -/
theorem row_lt9 (t : Fin cfg9.N) (r : Fin 4000) : t.val * 4000 + r.val < 40000 := by
  have ht : t.val < 10 := lt_of_lt_of_eq t.isLt N_9
  have hr := r.isLt
  omega

/-- Block t of h, entry (r, j): h at row 4000 t + r. -/
theorem readH9 (t : Fin cfg9.N) (r : Fin 4000) (j : Fin 64) :
    (iblk9 V c 0 t : Vec Ideal S4000x64 .f32) (ix2 r j)
      = (V c main_v83 : S40000x64.Idx → EReal) (ix2 (⟨t.val * 4000 + r.val, row_lt9 t r⟩ : Fin 40000) j) := by
  obtain ⟨e00, e01, -⟩ := blockIdx9 t
  unfold iblk9
  rw [View.read_apply]
  show (V c main_v83 : S40000x64.Idx → EReal) _ = (V c main_v83 : S40000x64.Idx → EReal) _
  congr 1
  funext a
  apply Fin.ext
  match a with
  | ⟨0, _⟩ => show win9_0.index t (0 : Fin 2) * 4000 + 1 * r.val = t.val * 4000 + r.val; omega
  | ⟨1, _⟩ => show win9_0.index t (1 : Fin 2) * 64 + 1 * j.val = j.val; omega

/-- The weights' block is the whole matrix at every block. -/
theorem readW9 (t : Fin cfg9.N) (j : Fin 64) (q : Fin 64) :
    (iblk9 V c 1 t : Vec Ideal S64x64 .f32) (ix2 j q) = (V c main_arg11 : S64x64.Idx → EReal) (ix2 j q) := by
  obtain ⟨-, -, e10, e11, -⟩ := blockIdx9 t
  unfold iblk9
  rw [View.read_apply]
  show (V c main_arg11 : S64x64.Idx → EReal) _ = (V c main_arg11 : S64x64.Idx → EReal) _
  congr 1
  funext a
  apply Fin.ext
  match a with
  | ⟨0, _⟩ => show win9_1.index t (0 : Fin 2) * 64 + 1 * j.val = j.val; omega
  | ⟨1, _⟩ => show win9_1.index t (1 : Fin 2) * 64 + 1 * q.val = q.val; omega

/-- Block t of the column s, row r: s at row 4000 t + r. -/
theorem readS9 (t : Fin cfg9.N) (r : Fin 4000) :
    (iblk9 V c 2 t : Vec Ideal S4000x1 .f32) (ix2 r (0 : Fin 1))
      = (V c main_v20 : S40000x1.Idx → EReal) (ix2 (⟨t.val * 4000 + r.val, row_lt9 t r⟩ : Fin 40000) (0 : Fin 1)) := by
  obtain ⟨-, -, -, -, e20, e21, -⟩ := blockIdx9 t
  unfold iblk9
  rw [View.read_apply]
  show (V c main_v20 : S40000x1.Idx → EReal) _ = (V c main_v20 : S40000x1.Idx → EReal) _
  congr 1
  funext a
  apply Fin.ext
  match a with
  | ⟨0, _⟩ => show win9_2.index t (0 : Fin 2) * 4000 + 1 * r.val = t.val * 4000 + r.val; omega
  | ⟨1, _⟩ => show win9_2.index t (1 : Fin 2) * 1 + 1 * 0 = 0; omega

/-- The bias row's block is the whole row at every block. -/
theorem readB9 (t : Fin cfg9.N) (q : Fin 64) :
    (iblk9 V c 3 t : Vec Ideal S1x64 .f32) (ix2 (0 : Fin 1) q) = (V c main_v84 : S1x64.Idx → EReal) (ix2 (0 : Fin 1) q) := by
  obtain ⟨-, -, -, -, -, -, e30, e31, -⟩ := blockIdx9 t
  unfold iblk9
  rw [View.read_apply]
  show (V c main_v84 : S1x64.Idx → EReal) _ = (V c main_v84 : S1x64.Idx → EReal) _
  congr 1
  funext a
  apply Fin.ext
  match a with
  | ⟨0, _⟩ => show win9_3.index t (0 : Fin 2) * 1 + 1 * 0 = 0; omega
  | ⟨1, _⟩ => show win9_3.index t (1 : Fin 2) * 64 + 1 * q.val = q.val; omega

/-- Entry (r, q) of the result's block t is entry (4000 t + r, q) of the result. -/
theorem outEmb9 (t : Fin cfg9.N) (r : Fin 4000) (q : Fin 64) :
    ((cfg9.win 4).blk t).view.emb (ix2 r q) = (ix2 (⟨t.val * 4000 + r.val, row_lt9 t r⟩ : Fin 40000) q : S40000x64.Idx) := by
  obtain ⟨-, -, -, -, -, -, -, -, e40, e41⟩ := blockIdx9 t
  funext a
  apply Fin.ext
  match a with
  | ⟨0, _⟩ => show win9_4.index t (0 : Fin 2) * 4000 + 1 * r.val = t.val * 4000 + r.val; omega
  | ⟨1, _⟩ => show win9_4.index t (1 : Fin 2) * 64 + 1 * q.val = q.val; omega

/-- What block t writes back is block t of the layer's term over the arrays as the pass finds them. -/
theorem flushed9 (t : Fin cfg9.N) :
    (dat9 V c).flushed 4 t = ((cfg9.win 4).blk t).view.read (Elt Ideal)
      (Gcn.relu (Gcn.affine (Gcn.matMul (V c main_v83) (V c main_arg11)) (Gcn.colOf (V c main_v20)) (Gcn.rowOf (V c main_v84))) : S40000x64.Idx → EReal) := by
  show (cfg9.win 4).cut (grid9.coords t) ((dat9 V c).after 4 t) = _
  rw [after9_4]
  unfold out9_4
  rw [View.canon_unit_zero zeroOffsets]
  simp only [View.ld_unit_zero (S := S4000x64) zeroOffsets, View.ld_unit_zero (S := S64x64) zeroOffsets,
    View.ld_unit_zero (S := S4000x1) zeroOffsets, View.ld_unit_zero (S := S1x64) zeroOffsets]
  funext j
  obtain ⟨r, q, rfl⟩ : ∃ (r : Fin 4000) (q : Fin 64), j = ix2 r q := ⟨j 0, j 1, eq_ix2 j⟩
  show k9_pay1 (iblk9 V c 0 t) (iblk9 V c 1 t) (iblk9 V c 2 t) (iblk9 V c 3 t) (ix2 r q)
    = (Gcn.relu (Gcn.affine (Gcn.matMul (V c main_v83) (V c main_arg11)) (Gcn.colOf (V c main_v20)) (Gcn.rowOf (V c main_v84))) : S40000x64.Idx → EReal)
        (((cfg9.win 4).blk t).view.emb (ix2 r q))
  rw [outEmb9 t r q]
  refine (prodBiasClamp64x64_apply (iblk9 V c 0 t) (iblk9 V c 1 t) (iblk9 V c 2 t) (iblk9 V c 3 t) r q).trans ?_
  rw [readS9 V c t r, readB9 V c t q,
    rowSum64x64 (iblk9 V c 0 t) (iblk9 V c 1 t) (V c main_v83) (V c main_arg11) r ⟨t.val * 4000 + r.val, row_lt9 t r⟩ q
      (readH9 V c t r) (fun j => readW9 V c t j q)]
  exact (reluAffineMatMul_apply (V c main_v83) (V c main_arg11) (V c main_v20) (V c main_v84) _ q).symm

/-- An entry is in block t iff its row is among the block's 4000 rows (and its column in range). -/
theorem memOut9 (t : Fin cfg9.N) (i : S40000x64.Idx) :
    i ∈ ((cfg9.win 4).blk t).view.set ↔ ∀ a : Fin 2, win9_4.index t a * S4000x64.size a ≤ (i a).val
      ∧ (i a).val < win9_4.index t a * S4000x64.size a + S4000x64.size a := by
  show i ∈ ((View.whole main_v85).slice (win9_4.rect t)).set ↔ _
  rw [View.set_slice_whole, Rect.mem_set_unit]
  exact Iff.rfl

/-- Row r of the result is written by block r / 4000: the blocks cover the array. -/
theorem cover9 (i : S40000x64.Idx) :
    ∃ t : Fin cfg9.N, (cfg9.win 4).flush t = true ∧ i ∈ ((cfg9.win 4).blk t).view.set := by
  have hi0 : (i 0).val < 40000 := (i 0).isLt
  have hi1 : (i 1).val < 64 := (i 1).isLt
  have hN : grid9.N = 10 := N_9
  obtain ⟨t, ht⟩ : ∃ t : Fin cfg9.N, t.val = (i 0).val / 4000 :=
    ⟨⟨(i 0).val / 4000, lt_of_lt_of_eq (show (i 0).val / 4000 < 10 by omega) hN.symm⟩, rfl⟩
  obtain ⟨-, -, -, -, -, -, -, -, e40, e41⟩ := blockIdx9 t
  refine ⟨t, flush9_4 t, ?_⟩
  rw [memOut9]
  intro a
  match a with
  | ⟨0, _⟩ =>
    show win9_4.index t (0 : Fin 2) * 4000 ≤ (i 0).val ∧ (i 0).val < win9_4.index t (0 : Fin 2) * 4000 + 4000
    omega
  | ⟨1, _⟩ =>
    show win9_4.index t (1 : Fin 2) * 64 ≤ (i 1).val ∧ (i 1).val < win9_4.index t (1 : Fin 2) * 64 + 64
    omega

/-- After pass 9 the result array holds the layer's term of the arrays the pass was entered with. -/
theorem final9 : (dat9 V c).arrAt 4 cfg9.N
    = Gcn.relu (Gcn.affine (Gcn.matMul (V c main_v83) (V c main_arg11)) (Gcn.colOf (V c main_v20)) (Gcn.rowOf (V c main_v84))) :=
  (dat9 V c).arrAt_eq_of_cover 4
    (Gcn.relu (Gcn.affine (Gcn.matMul (V c main_v83) (V c main_arg11)) (Gcn.colOf (V c main_v20)) (Gcn.rowOf (V c main_v84))) : S40000x64.Idx → EReal)
    (fun t _ => flushed9 V c t) (cover9)

end Cert.KernelIdeal.RegionVal

end
-- ==== Proof.RegionFinal10.lean ====
/-
  The scaling pass before the sixth layer, as one array.

  Each of the ten grid points owns 4000 rows: it scales every row of its block of the fifth layer's output (width 64) by
  that row's out-degree factor and writes the block back. The blocks tile the 40000 rows, so the output array is
  `Gcn.rowScale` of the two input arrays.
-/
import proofs.«139564_j34376918237986_1_alg».proof.Proof.Gen.KernelIdeal.Frame
import proofs.«139564_j34376918237986_1_alg».proof.Proof.RegionScale
import Idealize.ShloMosaic.Lib.Pipeline.Value

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- A grid point is one of ten. -/
theorem point_lt10 (t : Fin cfg10.N) : t.val < 10 := lt_of_lt_of_eq t.isLt N_10

/-- Where each window's block sits at grid point `t`: the features', the factors' and the output's blocks are all at
    block row `t`, block column 0. -/
theorem blockIndex10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0 :=
  (by decide +kernel : ∀ t : Fin grid10.N, _)

/-- The features' block at point `t` is rows `4000 t … 4000 t + 3999` of the features. -/
theorem blockX10 (t : Fin cfg10.N) (r : Fin 4000) (q : Fin 64) :
    (iblk10 V c 0 t : Vec Ideal S4000x64 .f32) (ix2 r q) = (V c main_v85 : Gcn.Mat 40000 64) (ix2 (rowOfPoint t.val (point_lt10 t) r) q) := by
  obtain ⟨e0, e1, -, -, -, -⟩ := blockIndex10 t
  unfold iblk10
  rw [View.read_apply]
  show (V c main_v85 : Gcn.Mat 40000 64) _ = _
  refine congrArg (V c main_v85 : Gcn.Mat 40000 64) (funext fun a => Fin.ext ?_)
  match a with
  | ⟨0, _⟩ => show win10_0.index t (0 : Fin 2) * 4000 + 1 * r.val = t.val * 4000 + r.val; rw [e0]; omega
  | ⟨1, _⟩ => show win10_0.index t (1 : Fin 2) * 64 + 1 * q.val = q.val; rw [e1]; omega

/-- The factors' block at point `t` is rows `4000 t … 4000 t + 3999` of the column of factors. -/
theorem blockS10 (t : Fin cfg10.N) (r : Fin 4000) :
    (iblk10 V c 1 t : Vec Ideal S4000x1 .f32) (ix2 r 0) = (V c main_v19 : Gcn.Mat 40000 1) (ix2 (rowOfPoint t.val (point_lt10 t) r) 0) := by
  obtain ⟨-, -, e2, e3, -, -⟩ := blockIndex10 t
  unfold iblk10
  rw [View.read_apply]
  show (V c main_v19 : Gcn.Mat 40000 1) _ = _
  refine congrArg (V c main_v19 : Gcn.Mat 40000 1) (funext fun a => Fin.ext ?_)
  match a with
  | ⟨0, _⟩ => show win10_1.index t (0 : Fin 2) * 4000 + 1 * r.val = t.val * 4000 + r.val; rw [e2]; omega
  | ⟨1, _⟩ => show win10_1.index t (1 : Fin 2) * 1 + 1 * 0 = 0; rw [e3]

/-- What point `t` writes back is block `t` of the scaled array. -/
theorem written10 (t : Fin cfg10.N) :
    (dat10 V c).flushed 2 t = ((cfg10.win 2).blk t).view.read (Elt Ideal)
      (Gcn.rowScale (V c main_v85 : Gcn.Mat 40000 64) (Gcn.colOf (V c main_v19 : Gcn.Mat 40000 1))) := by
  show (cfg10.win 2).cut (grid10.coords t) ((dat10 V c).after 2 t) = _
  rw [after10_2]
  unfold out10_2
  rw [View.canon_unit_zero zero_offsets]
  simp only [View.ld_unit_zero (S := S4000x64) zero_offsets, View.ld_unit_zero (S := S4000x1) zero_offsets]
  obtain ⟨-, -, -, -, e4, e5⟩ := blockIndex10 t
  show (k10_pay1 (iblk10 V c 0 t) (iblk10 V c 1 t) : Vec Ideal S4000x64 .f32)
    = fun j : S4000x64.Idx => Gcn.rowScale (V c main_v85 : Gcn.Mat 40000 64) (Gcn.colOf (V c main_v19 : Gcn.Mat 40000 1)) (((cfg10.win 2).blk t).view.emb j)
  funext j
  obtain ⟨r, q, rfl⟩ : ∃ (r : Fin 4000) (q : Fin 64), j = ix2 r q := ⟨j 0, j 1, eq_ix2 j⟩
  have hemb : ((cfg10.win 2).blk t).view.emb (ix2 r q) = (ix2 (rowOfPoint t.val (point_lt10 t) r) q : S40000x64.Idx) :=
    funext fun a => Fin.ext (by
      match a with
      | ⟨0, _⟩ => show win10_2.index t (0 : Fin 2) * 4000 + 1 * r.val = t.val * 4000 + r.val; rw [e4]; omega
      | ⟨1, _⟩ => show win10_2.index t (1 : Fin 2) * 64 + 1 * q.val = q.val; rw [e5]; omega)
  exact (congrFun (k10_pay1_eq (iblk10 V c 0 t) (iblk10 V c 1 t)) (ix2 r q)).trans
    ((rowScale_block64 (V c main_v85 : Gcn.Mat 40000 64) (V c main_v19 : Gcn.Mat 40000 1) (iblk10 V c 0 t) (iblk10 V c 1 t)
      (rowOfPoint t.val (point_lt10 t)) (blockX10 V c t) (blockS10 V c t) r q).trans
    (congrArg (Gcn.rowScale (V c main_v85 : Gcn.Mat 40000 64) (Gcn.colOf (V c main_v19 : Gcn.Mat 40000 1))) hemb.symm))

/-- An entry of the output array is in point `t`'s block iff each coordinate is in the block's range on its axis. -/
theorem mem_block10 (t : Fin cfg10.N) (i : S40000x64.Idx) :
    i ∈ ((cfg10.win 2).blk t).view.set ↔ ∀ a : Fin 2, win10_2.index t a * S4000x64.size a ≤ (i a).val ∧ (i a).val < win10_2.index t a * S4000x64.size a + S4000x64.size a := by
  show i ∈ ((View.whole main_v86).slice (win10_2.rect t)).set ↔ _
  rw [View.set_slice_whole, Rect.mem_set_unit]
  exact Iff.rfl

/-- The ten blocks tile the array: row `r` is in the block of point `r / 4000`. -/
theorem covered10 (i : S40000x64.Idx) : ∃ t : Fin cfg10.N, (cfg10.win 2).flush t = true ∧ i ∈ ((cfg10.win 2).blk t).view.set := by
  have h0 : (i 0).val < 40000 := idx2_lt0 i
  have h1 : (i 1).val < 64 := idx2_lt1 i
  obtain ⟨t, ht⟩ : ∃ t : Fin cfg10.N, t.val = (i 0).val / 4000 := ⟨⟨(i 0).val / 4000, lt_of_lt_of_eq (by omega) N_10.symm⟩, rfl⟩
  obtain ⟨-, -, -, -, e4, e5⟩ := blockIndex10 t
  refine ⟨t, flush10_2 t, ?_⟩
  rw [mem_block10]
  intro a
  match a with
  | ⟨0, _⟩ => show win10_2.index t (0 : Fin 2) * 4000 ≤ (i 0).val ∧ (i 0).val < win10_2.index t (0 : Fin 2) * 4000 + 4000; rw [e4, ht]; omega
  | ⟨1, _⟩ => show win10_2.index t (1 : Fin 2) * 64 ≤ (i 1).val ∧ (i 1).val < win10_2.index t (1 : Fin 2) * 64 + 64; rw [e5]; omega

/-- The output array after the pass: the features with every row scaled by its out-degree factor. -/
theorem final10 : (dat10 V c).arrAt 2 cfg10.N = Gcn.rowScale (V c main_v85) (Gcn.colOf (V c main_v19)) :=
  (dat10 V c).arrAt_eq_of_cover 2 (Gcn.rowScale (V c main_v85 : Gcn.Mat 40000 64) (Gcn.colOf (V c main_v19 : Gcn.Mat 40000 1)))
    (fun t _ => written10 V c t) (covered10)

end Cert.KernelIdeal.RegionVal

end
-- ==== Proof.RegionFinal11.lean ====
/-
  Pass 11 over the rows: multiply the block of h by the weights, scale row r by s r, add the bias row, clamp at zero.

  The pass runs over ten blocks of 4000 rows. At block t it reads rows 4000 t … 4000 t + 3999 of h and of the
  column s, the whole weight matrix and the whole bias row; it writes back rows 4000 t … 4000 t + 3999 of the
  result. Entry (r, q) of the product only reads row r of h, so a block's product is the block of the whole
  product. Row r of the result is written by block r / 4000, so the ten blocks cover the array and it ends holding
  the layer's term at every entry.
-/
import proofs.«139564_j34376918237986_1_alg».proof.Proof.Gen.KernelIdeal.Frame
import proofs.«139564_j34376918237986_1_alg».proof.Proof.RegionBias
import Idealize.ShloMosaic.Lib.Pipeline.Value

noncomputable section

open scoped BigOperators

namespace Cert.KernelIdeal.RegionVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- Which block each window holds at block t: h, s and the result move down the rows with t; the weights and the
    bias row stay. -/
theorem blockIdx11 : ∀ t : Fin cfg11.N,
      win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0
    ∧ win11_3.index t (0 : Fin 2) = 0 ∧ win11_3.index t (1 : Fin 2) = 0
    ∧ win11_4.index t (0 : Fin 2) = t.val ∧ win11_4.index t (1 : Fin 2) = 0 :=
  (by decide +kernel : ∀ t : Fin grid11.N, _)

/-- A block's row r is row 4000 t + r of the array. -/
theorem row_lt11 (t : Fin cfg11.N) (r : Fin 4000) : t.val * 4000 + r.val < 40000 := by
  have ht : t.val < 10 := lt_of_lt_of_eq t.isLt N_11
  have hr := r.isLt
  omega

/-- Block t of h, entry (r, j): h at row 4000 t + r. -/
theorem readH11 (t : Fin cfg11.N) (r : Fin 4000) (j : Fin 64) :
    (iblk11 V c 0 t : Vec Ideal S4000x64 .f32) (ix2 r j)
      = (V c main_v96 : S40000x64.Idx → EReal) (ix2 (⟨t.val * 4000 + r.val, row_lt11 t r⟩ : Fin 40000) j) := by
  obtain ⟨e00, e01, -⟩ := blockIdx11 t
  unfold iblk11
  rw [View.read_apply]
  show (V c main_v96 : S40000x64.Idx → EReal) _ = (V c main_v96 : S40000x64.Idx → EReal) _
  congr 1
  funext a
  apply Fin.ext
  match a with
  | ⟨0, _⟩ => show win11_0.index t (0 : Fin 2) * 4000 + 1 * r.val = t.val * 4000 + r.val; omega
  | ⟨1, _⟩ => show win11_0.index t (1 : Fin 2) * 64 + 1 * j.val = j.val; omega

/-- The weights' block is the whole matrix at every block. -/
theorem readW11 (t : Fin cfg11.N) (j : Fin 64) (q : Fin 64) :
    (iblk11 V c 1 t : Vec Ideal S64x64 .f32) (ix2 j q) = (V c main_arg13 : S64x64.Idx → EReal) (ix2 j q) := by
  obtain ⟨-, -, e10, e11, -⟩ := blockIdx11 t
  unfold iblk11
  rw [View.read_apply]
  show (V c main_arg13 : S64x64.Idx → EReal) _ = (V c main_arg13 : S64x64.Idx → EReal) _
  congr 1
  funext a
  apply Fin.ext
  match a with
  | ⟨0, _⟩ => show win11_1.index t (0 : Fin 2) * 64 + 1 * j.val = j.val; omega
  | ⟨1, _⟩ => show win11_1.index t (1 : Fin 2) * 64 + 1 * q.val = q.val; omega

/-- Block t of the column s, row r: s at row 4000 t + r. -/
theorem readS11 (t : Fin cfg11.N) (r : Fin 4000) :
    (iblk11 V c 2 t : Vec Ideal S4000x1 .f32) (ix2 r (0 : Fin 1))
      = (V c main_v20 : S40000x1.Idx → EReal) (ix2 (⟨t.val * 4000 + r.val, row_lt11 t r⟩ : Fin 40000) (0 : Fin 1)) := by
  obtain ⟨-, -, -, -, e20, e21, -⟩ := blockIdx11 t
  unfold iblk11
  rw [View.read_apply]
  show (V c main_v20 : S40000x1.Idx → EReal) _ = (V c main_v20 : S40000x1.Idx → EReal) _
  congr 1
  funext a
  apply Fin.ext
  match a with
  | ⟨0, _⟩ => show win11_2.index t (0 : Fin 2) * 4000 + 1 * r.val = t.val * 4000 + r.val; omega
  | ⟨1, _⟩ => show win11_2.index t (1 : Fin 2) * 1 + 1 * 0 = 0; omega

/-- The bias row's block is the whole row at every block. -/
theorem readB11 (t : Fin cfg11.N) (q : Fin 64) :
    (iblk11 V c 3 t : Vec Ideal S1x64 .f32) (ix2 (0 : Fin 1) q) = (V c main_v97 : S1x64.Idx → EReal) (ix2 (0 : Fin 1) q) := by
  obtain ⟨-, -, -, -, -, -, e30, e31, -⟩ := blockIdx11 t
  unfold iblk11
  rw [View.read_apply]
  show (V c main_v97 : S1x64.Idx → EReal) _ = (V c main_v97 : S1x64.Idx → EReal) _
  congr 1
  funext a
  apply Fin.ext
  match a with
  | ⟨0, _⟩ => show win11_3.index t (0 : Fin 2) * 1 + 1 * 0 = 0; omega
  | ⟨1, _⟩ => show win11_3.index t (1 : Fin 2) * 64 + 1 * q.val = q.val; omega

/-- Entry (r, q) of the result's block t is entry (4000 t + r, q) of the result. -/
theorem outEmb11 (t : Fin cfg11.N) (r : Fin 4000) (q : Fin 64) :
    ((cfg11.win 4).blk t).view.emb (ix2 r q) = (ix2 (⟨t.val * 4000 + r.val, row_lt11 t r⟩ : Fin 40000) q : S40000x64.Idx) := by
  obtain ⟨-, -, -, -, -, -, -, -, e40, e41⟩ := blockIdx11 t
  funext a
  apply Fin.ext
  match a with
  | ⟨0, _⟩ => show win11_4.index t (0 : Fin 2) * 4000 + 1 * r.val = t.val * 4000 + r.val; omega
  | ⟨1, _⟩ => show win11_4.index t (1 : Fin 2) * 64 + 1 * q.val = q.val; omega

/-- What block t writes back is block t of the layer's term over the arrays as the pass finds them. -/
theorem flushed11 (t : Fin cfg11.N) :
    (dat11 V c).flushed 4 t = ((cfg11.win 4).blk t).view.read (Elt Ideal)
      (Gcn.relu (Gcn.affine (Gcn.matMul (V c main_v96) (V c main_arg13)) (Gcn.colOf (V c main_v20)) (Gcn.rowOf (V c main_v97))) : S40000x64.Idx → EReal) := by
  show (cfg11.win 4).cut (grid11.coords t) ((dat11 V c).after 4 t) = _
  rw [after11_4]
  unfold out11_4
  rw [View.canon_unit_zero zeroOffsets]
  simp only [View.ld_unit_zero (S := S4000x64) zeroOffsets, View.ld_unit_zero (S := S64x64) zeroOffsets,
    View.ld_unit_zero (S := S4000x1) zeroOffsets, View.ld_unit_zero (S := S1x64) zeroOffsets]
  funext j
  obtain ⟨r, q, rfl⟩ : ∃ (r : Fin 4000) (q : Fin 64), j = ix2 r q := ⟨j 0, j 1, eq_ix2 j⟩
  show k11_pay1 (iblk11 V c 0 t) (iblk11 V c 1 t) (iblk11 V c 2 t) (iblk11 V c 3 t) (ix2 r q)
    = (Gcn.relu (Gcn.affine (Gcn.matMul (V c main_v96) (V c main_arg13)) (Gcn.colOf (V c main_v20)) (Gcn.rowOf (V c main_v97))) : S40000x64.Idx → EReal)
        (((cfg11.win 4).blk t).view.emb (ix2 r q))
  rw [outEmb11 t r q]
  refine (prodBiasClamp64x64_apply' (iblk11 V c 0 t) (iblk11 V c 1 t) (iblk11 V c 2 t) (iblk11 V c 3 t) r q).trans ?_
  rw [readS11 V c t r, readB11 V c t q,
    rowSum64x64 (iblk11 V c 0 t) (iblk11 V c 1 t) (V c main_v96) (V c main_arg13) r ⟨t.val * 4000 + r.val, row_lt11 t r⟩ q
      (readH11 V c t r) (fun j => readW11 V c t j q)]
  exact (reluAffineMatMul_apply (V c main_v96) (V c main_arg13) (V c main_v20) (V c main_v97) _ q).symm

/-- An entry is in block t iff its row is among the block's 4000 rows (and its column in range). -/
theorem memOut11 (t : Fin cfg11.N) (i : S40000x64.Idx) :
    i ∈ ((cfg11.win 4).blk t).view.set ↔ ∀ a : Fin 2, win11_4.index t a * S4000x64.size a ≤ (i a).val
      ∧ (i a).val < win11_4.index t a * S4000x64.size a + S4000x64.size a := by
  show i ∈ ((View.whole main_v98).slice (win11_4.rect t)).set ↔ _
  rw [View.set_slice_whole, Rect.mem_set_unit]
  exact Iff.rfl

/-- Row r of the result is written by block r / 4000: the blocks cover the array. -/
theorem cover11 (i : S40000x64.Idx) :
    ∃ t : Fin cfg11.N, (cfg11.win 4).flush t = true ∧ i ∈ ((cfg11.win 4).blk t).view.set := by
  have hi0 : (i 0).val < 40000 := (i 0).isLt
  have hi1 : (i 1).val < 64 := (i 1).isLt
  have hN : grid11.N = 10 := N_11
  obtain ⟨t, ht⟩ : ∃ t : Fin cfg11.N, t.val = (i 0).val / 4000 :=
    ⟨⟨(i 0).val / 4000, lt_of_lt_of_eq (show (i 0).val / 4000 < 10 by omega) hN.symm⟩, rfl⟩
  obtain ⟨-, -, -, -, -, -, -, -, e40, e41⟩ := blockIdx11 t
  refine ⟨t, flush11_4 t, ?_⟩
  rw [memOut11]
  intro a
  match a with
  | ⟨0, _⟩ =>
    show win11_4.index t (0 : Fin 2) * 4000 ≤ (i 0).val ∧ (i 0).val < win11_4.index t (0 : Fin 2) * 4000 + 4000
    omega
  | ⟨1, _⟩ =>
    show win11_4.index t (1 : Fin 2) * 64 ≤ (i 1).val ∧ (i 1).val < win11_4.index t (1 : Fin 2) * 64 + 64
    omega

/-- After pass 11 the result array holds the layer's term of the arrays the pass was entered with. -/
theorem final11 : (dat11 V c).arrAt 4 cfg11.N
    = Gcn.relu (Gcn.affine (Gcn.matMul (V c main_v96) (V c main_arg13)) (Gcn.colOf (V c main_v20)) (Gcn.rowOf (V c main_v97))) :=
  (dat11 V c).arrAt_eq_of_cover 4
    (Gcn.relu (Gcn.affine (Gcn.matMul (V c main_v96) (V c main_arg13)) (Gcn.colOf (V c main_v20)) (Gcn.rowOf (V c main_v97))) : S40000x64.Idx → EReal)
    (fun t _ => flushed11 V c t) (cover11)

end Cert.KernelIdeal.RegionVal

end
-- ==== Proof.RegionFinal12.lean ====
/-
  The last layer's scaling and projection pass, as one array.

  Each of the ten grid points owns 4000 rows: it scales every row of its block of the sixth layer's output (width 64) by
  that row's out-degree factor, multiplies the scaled block by the whole 64 × 1 weight matrix, and writes the block of
  products (one column) back. The blocks tile the 40000 rows, so the output array is `Gcn.matMul (Gcn.rowScale …) …` of
  the three input arrays.
-/
import proofs.«139564_j34376918237986_1_alg».proof.Proof.Gen.KernelIdeal.Frame
import proofs.«139564_j34376918237986_1_alg».proof.Proof.RegionScale
import Idealize.ShloMosaic.Lib.Pipeline.Value

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- A grid point is one of ten. -/
theorem point_lt12 (t : Fin cfg12.N) : t.val < 10 := lt_of_lt_of_eq t.isLt N_12

/-- Where each window's block sits at grid point `t`: the features', the factors' and the output's blocks are at block
    row `t`, block column 0; the weights are one block, the whole matrix. -/
theorem blockIndex12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0
    ∧ win12_3.index t (0 : Fin 2) = t.val ∧ win12_3.index t (1 : Fin 2) = 0 :=
  (by decide +kernel : ∀ t : Fin grid12.N, _)

/-- The features' block at point `t` is rows `4000 t … 4000 t + 3999` of the features. -/
theorem blockX12 (t : Fin cfg12.N) (r : Fin 4000) (k : Fin 64) :
    (iblk12 V c 0 t : Vec Ideal S4000x64 .f32) (ix2 r k) = (V c main_v98 : Gcn.Mat 40000 64) (ix2 (rowOfPoint t.val (point_lt12 t) r) k) := by
  obtain ⟨e0, e1, -, -, -, -, -, -⟩ := blockIndex12 t
  unfold iblk12
  rw [View.read_apply]
  show (V c main_v98 : Gcn.Mat 40000 64) _ = _
  refine congrArg (V c main_v98 : Gcn.Mat 40000 64) (funext fun a => Fin.ext ?_)
  match a with
  | ⟨0, _⟩ => show win12_0.index t (0 : Fin 2) * 4000 + 1 * r.val = t.val * 4000 + r.val; rw [e0]; omega
  | ⟨1, _⟩ => show win12_0.index t (1 : Fin 2) * 64 + 1 * k.val = k.val; rw [e1]; omega

/-- The weights' block at every point is the whole weight matrix. -/
theorem blockW12 (t : Fin cfg12.N) (k : Fin 64) (q : Fin 1) :
    (iblk12 V c 1 t : Vec Ideal S64x1 .f32) (ix2 k q) = (V c main_arg15 : Gcn.Mat 64 1) (ix2 k q) := by
  obtain ⟨-, -, e2, e3, -, -, -, -⟩ := blockIndex12 t
  unfold iblk12
  rw [View.read_apply]
  show (V c main_arg15 : Gcn.Mat 64 1) _ = _
  refine congrArg (V c main_arg15 : Gcn.Mat 64 1) (funext fun a => Fin.ext ?_)
  match a with
  | ⟨0, _⟩ => show win12_1.index t (0 : Fin 2) * 64 + 1 * k.val = k.val; rw [e2]; omega
  | ⟨1, _⟩ => show win12_1.index t (1 : Fin 2) * 1 + 1 * q.val = q.val; rw [e3]; omega

/-- The factors' block at point `t` is rows `4000 t … 4000 t + 3999` of the column of factors. -/
theorem blockS12 (t : Fin cfg12.N) (r : Fin 4000) :
    (iblk12 V c 2 t : Vec Ideal S4000x1 .f32) (ix2 r 0) = (V c main_v19 : Gcn.Mat 40000 1) (ix2 (rowOfPoint t.val (point_lt12 t) r) 0) := by
  obtain ⟨-, -, -, -, e4, e5, -, -⟩ := blockIndex12 t
  unfold iblk12
  rw [View.read_apply]
  show (V c main_v19 : Gcn.Mat 40000 1) _ = _
  refine congrArg (V c main_v19 : Gcn.Mat 40000 1) (funext fun a => Fin.ext ?_)
  match a with
  | ⟨0, _⟩ => show win12_2.index t (0 : Fin 2) * 4000 + 1 * r.val = t.val * 4000 + r.val; rw [e4]; omega
  | ⟨1, _⟩ => show win12_2.index t (1 : Fin 2) * 1 + 1 * 0 = 0; rw [e5]

/-- What point `t` writes back is block `t` of the product of the scaled features with the weights. -/
theorem written12 (t : Fin cfg12.N) :
    (dat12 V c).flushed 3 t = ((cfg12.win 3).blk t).view.read (Elt Ideal)
      (Gcn.matMul (Gcn.rowScale (V c main_v98 : Gcn.Mat 40000 64) (Gcn.colOf (V c main_v19 : Gcn.Mat 40000 1))) (V c main_arg15 : Gcn.Mat 64 1)) := by
  show (cfg12.win 3).cut (grid12.coords t) ((dat12 V c).after 3 t) = _
  rw [after12_3]
  unfold out12_3
  rw [View.canon_unit_zero zero_offsets]
  simp only [View.ld_unit_zero (S := S4000x64) zero_offsets, View.ld_unit_zero (S := S4000x1) zero_offsets, View.ld_unit_zero (S := S64x1) zero_offsets]
  obtain ⟨-, -, -, -, -, -, e6, e7⟩ := blockIndex12 t
  show (k12_pay1 (iblk12 V c 0 t) (iblk12 V c 2 t) (iblk12 V c 1 t) : Vec Ideal S4000x1 .f32)
    = fun j : S4000x1.Idx => Gcn.matMul (Gcn.rowScale (V c main_v98 : Gcn.Mat 40000 64) (Gcn.colOf (V c main_v19 : Gcn.Mat 40000 1))) (V c main_arg15 : Gcn.Mat 64 1) (((cfg12.win 3).blk t).view.emb j)
  funext j
  obtain ⟨r, q, rfl⟩ : ∃ (r : Fin 4000) (q : Fin 1), j = ix2 r q := ⟨j 0, j 1, eq_ix2 j⟩
  have hemb : ((cfg12.win 3).blk t).view.emb (ix2 r q) = (ix2 (rowOfPoint t.val (point_lt12 t) r) q : S40000x1.Idx) :=
    funext fun a => Fin.ext (by
      match a with
      | ⟨0, _⟩ => show win12_3.index t (0 : Fin 2) * 4000 + 1 * r.val = t.val * 4000 + r.val; rw [e6]; omega
      | ⟨1, _⟩ => show win12_3.index t (1 : Fin 2) * 1 + 1 * q.val = q.val; rw [e7]; omega)
  exact (scaleDot64_block (V c main_v98 : Gcn.Mat 40000 64) (V c main_v19 : Gcn.Mat 40000 1) (V c main_arg15 : Gcn.Mat 64 1)
      (iblk12 V c 0 t) (iblk12 V c 2 t) (iblk12 V c 1 t)
      (rowOfPoint t.val (point_lt12 t)) (blockX12 V c t) (blockS12 V c t) (blockW12 V c t) r q).trans
    (congrArg (Gcn.matMul (Gcn.rowScale (V c main_v98 : Gcn.Mat 40000 64) (Gcn.colOf (V c main_v19 : Gcn.Mat 40000 1))) (V c main_arg15 : Gcn.Mat 64 1)) hemb.symm)

/-- An entry of the output array is in point `t`'s block iff each coordinate is in the block's range on its axis. -/
theorem mem_block12 (t : Fin cfg12.N) (i : S40000x1.Idx) :
    i ∈ ((cfg12.win 3).blk t).view.set ↔ ∀ a : Fin 2, win12_3.index t a * S4000x1.size a ≤ (i a).val ∧ (i a).val < win12_3.index t a * S4000x1.size a + S4000x1.size a := by
  show i ∈ ((View.whole main_v99).slice (win12_3.rect t)).set ↔ _
  rw [View.set_slice_whole, Rect.mem_set_unit]
  exact Iff.rfl

/-- The ten blocks tile the array: row `r` is in the block of point `r / 4000`. -/
theorem covered12 (i : S40000x1.Idx) : ∃ t : Fin cfg12.N, (cfg12.win 3).flush t = true ∧ i ∈ ((cfg12.win 3).blk t).view.set := by
  have h0 : (i 0).val < 40000 := idx2_lt0 i
  have h1 : (i 1).val < 1 := idx2_lt1 i
  obtain ⟨t, ht⟩ : ∃ t : Fin cfg12.N, t.val = (i 0).val / 4000 := ⟨⟨(i 0).val / 4000, lt_of_lt_of_eq (by omega) N_12.symm⟩, rfl⟩
  obtain ⟨-, -, -, -, -, -, e6, e7⟩ := blockIndex12 t
  refine ⟨t, flush12_3 t, ?_⟩
  rw [mem_block12]
  intro a
  match a with
  | ⟨0, _⟩ => show win12_3.index t (0 : Fin 2) * 4000 ≤ (i 0).val ∧ (i 0).val < win12_3.index t (0 : Fin 2) * 4000 + 4000; rw [e6, ht]; omega
  | ⟨1, _⟩ => show win12_3.index t (1 : Fin 2) * 1 ≤ (i 1).val ∧ (i 1).val < win12_3.index t (1 : Fin 2) * 1 + 1; rw [e7]; omega

/-- The output array after the pass: the sixth layer's output, rows scaled by their out-degree factors, times the last weights. -/
theorem final12 : (dat12 V c).arrAt 3 cfg12.N = Gcn.matMul (Gcn.rowScale (V c main_v98) (Gcn.colOf (V c main_v19))) (V c main_arg15) :=
  (dat12 V c).arrAt_eq_of_cover 3
    (Gcn.matMul (Gcn.rowScale (V c main_v98 : Gcn.Mat 40000 64) (Gcn.colOf (V c main_v19 : Gcn.Mat 40000 1))) (V c main_arg15 : Gcn.Mat 64 1))
    (fun t _ => written12 V c t) (covered12)

end Cert.KernelIdeal.RegionVal

end
-- ==== Proof.RegionFinal13.lean ====
/-
  Pass 13 over the rows: scale row r of the one-column h by s r and add the bias; no clamp.

  The pass runs over ten blocks of 4000 rows. At block t it reads rows 4000 t … 4000 t + 3999 of h and of the
  column s, and the whole bias row; it writes back rows 4000 t … 4000 t + 3999 of the result. Row r of the result
  is written by block r / 4000, so the ten blocks cover the array and it ends holding the layer's term at every entry.
-/
import proofs.«139564_j34376918237986_1_alg».proof.Proof.Gen.KernelIdeal.Frame
import proofs.«139564_j34376918237986_1_alg».proof.Proof.RegionBias
import Idealize.ShloMosaic.Lib.Pipeline.Value

noncomputable section

namespace Cert.KernelIdeal.RegionVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- Which block each window holds at block t: h, s and the result move down the rows with t; the bias row stays. -/
theorem blockIdx13 : ∀ t : Fin cfg13.N,
      win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

/-- A block's row r is row 4000 t + r of the array. -/
theorem row_lt13 (t : Fin cfg13.N) (r : Fin 4000) : t.val * 4000 + r.val < 40000 := by
  have ht : t.val < 10 := lt_of_lt_of_eq t.isLt N_13
  have hr := r.isLt
  omega

/-- Block t of h, entry (r, q): h at row 4000 t + r. -/
theorem readH13 (t : Fin cfg13.N) (r : Fin 4000) (q : Fin 1) :
    (iblk13 V c 0 t : Vec Ideal S4000x1 .f32) (ix2 r q)
      = (V c main_v109 : S40000x1.Idx → EReal) (ix2 (⟨t.val * 4000 + r.val, row_lt13 t r⟩ : Fin 40000) q) := by
  obtain ⟨e00, e01, -⟩ := blockIdx13 t
  unfold iblk13
  rw [View.read_apply]
  show (V c main_v109 : S40000x1.Idx → EReal) _ = (V c main_v109 : S40000x1.Idx → EReal) _
  congr 1
  funext a
  apply Fin.ext
  match a with
  | ⟨0, _⟩ => show win13_0.index t (0 : Fin 2) * 4000 + 1 * r.val = t.val * 4000 + r.val; omega
  | ⟨1, _⟩ => show win13_0.index t (1 : Fin 2) * 1 + 1 * q.val = q.val; omega

/-- Block t of the column s, row r: s at row 4000 t + r. -/
theorem readS13 (t : Fin cfg13.N) (r : Fin 4000) :
    (iblk13 V c 1 t : Vec Ideal S4000x1 .f32) (ix2 r (0 : Fin 1))
      = (V c main_v20 : S40000x1.Idx → EReal) (ix2 (⟨t.val * 4000 + r.val, row_lt13 t r⟩ : Fin 40000) (0 : Fin 1)) := by
  obtain ⟨-, -, e10, e11, -⟩ := blockIdx13 t
  unfold iblk13
  rw [View.read_apply]
  show (V c main_v20 : S40000x1.Idx → EReal) _ = (V c main_v20 : S40000x1.Idx → EReal) _
  congr 1
  funext a
  apply Fin.ext
  match a with
  | ⟨0, _⟩ => show win13_1.index t (0 : Fin 2) * 4000 + 1 * r.val = t.val * 4000 + r.val; omega
  | ⟨1, _⟩ => show win13_1.index t (1 : Fin 2) * 1 + 1 * 0 = 0; omega

/-- The bias row's block is the whole row at every block. -/
theorem readB13 (t : Fin cfg13.N) (q : Fin 1) :
    (iblk13 V c 2 t : Vec Ideal S1x1 .f32) (ix2 (0 : Fin 1) q) = (V c main_v110 : S1x1.Idx → EReal) (ix2 (0 : Fin 1) q) := by
  obtain ⟨-, -, -, -, e20, e21, -⟩ := blockIdx13 t
  unfold iblk13
  rw [View.read_apply]
  show (V c main_v110 : S1x1.Idx → EReal) _ = (V c main_v110 : S1x1.Idx → EReal) _
  congr 1
  funext a
  apply Fin.ext
  match a with
  | ⟨0, _⟩ => show win13_2.index t (0 : Fin 2) * 1 + 1 * 0 = 0; omega
  | ⟨1, _⟩ => show win13_2.index t (1 : Fin 2) * 1 + 1 * q.val = q.val; omega

/-- Entry (r, q) of the result's block t is entry (4000 t + r, q) of the result. -/
theorem outEmb13 (t : Fin cfg13.N) (r : Fin 4000) (q : Fin 1) :
    ((cfg13.win 3).blk t).view.emb (ix2 r q) = (ix2 (⟨t.val * 4000 + r.val, row_lt13 t r⟩ : Fin 40000) q : S40000x1.Idx) := by
  obtain ⟨-, -, -, -, -, -, e30, e31⟩ := blockIdx13 t
  funext a
  apply Fin.ext
  match a with
  | ⟨0, _⟩ => show win13_3.index t (0 : Fin 2) * 4000 + 1 * r.val = t.val * 4000 + r.val; omega
  | ⟨1, _⟩ => show win13_3.index t (1 : Fin 2) * 1 + 1 * q.val = q.val; omega

/-- What block t writes back is block t of the layer's term over the arrays as the pass finds them. -/
theorem flushed13 (t : Fin cfg13.N) :
    (dat13 V c).flushed 3 t = ((cfg13.win 3).blk t).view.read (Elt Ideal)
      (Gcn.affine (V c main_v109) (Gcn.colOf (V c main_v20)) (Gcn.rowOf (V c main_v110)) : S40000x1.Idx → EReal) := by
  show (cfg13.win 3).cut (grid13.coords t) ((dat13 V c).after 3 t) = _
  rw [after13_3]
  unfold out13_3
  rw [View.canon_unit_zero zeroOffsets]
  simp only [View.ld_unit_zero (S := S4000x1) zeroOffsets, View.ld_unit_zero (S := S4000x1) zeroOffsets,
    View.ld_unit_zero (S := S1x1) zeroOffsets]
  funext j
  obtain ⟨r, q, rfl⟩ : ∃ (r : Fin 4000) (q : Fin 1), j = ix2 r q := ⟨j 0, j 1, eq_ix2 j⟩
  show k13_pay1 (iblk13 V c 0 t) (iblk13 V c 1 t) (iblk13 V c 2 t) (ix2 r q)
    = (Gcn.affine (V c main_v109) (Gcn.colOf (V c main_v20)) (Gcn.rowOf (V c main_v110)) : S40000x1.Idx → EReal) (((cfg13.win 3).blk t).view.emb (ix2 r q))
  rw [outEmb13 t r q]
  refine (bias1_apply (iblk13 V c 0 t) (iblk13 V c 1 t) (iblk13 V c 2 t) r q).trans ?_
  rw [readH13 V c t r q, readS13 V c t r, readB13 V c t q]
  exact (affine_apply' (V c main_v109) (V c main_v20) (V c main_v110) _ q).symm

/-- An entry is in block t iff its row is among the block's 4000 rows (and its column in range). -/
theorem memOut13 (t : Fin cfg13.N) (i : S40000x1.Idx) :
    i ∈ ((cfg13.win 3).blk t).view.set ↔ ∀ a : Fin 2, win13_3.index t a * S4000x1.size a ≤ (i a).val
      ∧ (i a).val < win13_3.index t a * S4000x1.size a + S4000x1.size a := by
  show i ∈ ((View.whole main_v111).slice (win13_3.rect t)).set ↔ _
  rw [View.set_slice_whole, Rect.mem_set_unit]
  exact Iff.rfl

/-- Row r of the result is written by block r / 4000: the blocks cover the array. -/
theorem cover13 (i : S40000x1.Idx) :
    ∃ t : Fin cfg13.N, (cfg13.win 3).flush t = true ∧ i ∈ ((cfg13.win 3).blk t).view.set := by
  have hi0 : (i 0).val < 40000 := (i 0).isLt
  have hi1 : (i 1).val < 1 := (i 1).isLt
  have hN : grid13.N = 10 := N_13
  obtain ⟨t, ht⟩ : ∃ t : Fin cfg13.N, t.val = (i 0).val / 4000 :=
    ⟨⟨(i 0).val / 4000, lt_of_lt_of_eq (show (i 0).val / 4000 < 10 by omega) hN.symm⟩, rfl⟩
  obtain ⟨-, -, -, -, -, -, e30, e31⟩ := blockIdx13 t
  refine ⟨t, flush13_3 t, ?_⟩
  rw [memOut13]
  intro a
  match a with
  | ⟨0, _⟩ =>
    show win13_3.index t (0 : Fin 2) * 4000 ≤ (i 0).val ∧ (i 0).val < win13_3.index t (0 : Fin 2) * 4000 + 4000
    omega
  | ⟨1, _⟩ =>
    show win13_3.index t (1 : Fin 2) * 1 ≤ (i 1).val ∧ (i 1).val < win13_3.index t (1 : Fin 2) * 1 + 1
    omega

/-- After pass 13 the result array holds the layer's term of the arrays the pass was entered with. -/
theorem final13 : (dat13 V c).arrAt 3 cfg13.N
    = Gcn.affine (V c main_v109) (Gcn.colOf (V c main_v20)) (Gcn.rowOf (V c main_v110)) :=
  (dat13 V c).arrAt_eq_of_cover 3 (Gcn.affine (V c main_v109) (Gcn.colOf (V c main_v20)) (Gcn.rowOf (V c main_v110)) : S40000x1.Idx → EReal)
    (fun t _ => flushed13 V c t) (cover13)

end Cert.KernelIdeal.RegionVal

end
-- ==== Proof.KernelChain.lean ====
/-
  The kernel program's result as the seven-layer network of its arguments.

  Boundary by boundary: a pass leaves in its output array the value its body computes, row block by row block, of
  the arrays it was entered with (the fourteen `final` statements); a stretch of host operations leaves the
  neighbourhood sum of the last pass's output and the next bias row; the arguments and the two degree columns are,
  at every boundary, what they were. Chained, the buffer the program returns holds `Gcn.net` of the arguments,
  with the degree factors of the two endpoint arrays and the neighbourhood sums over them.
-/
import proofs.«139564_j34376918237986_1_alg».proof.Defs
import proofs.«139564_j34376918237986_1_alg».proof.Proof.Gen.KernelIdeal.Frame
import proofs.«139564_j34376918237986_1_alg».proof.Proof.LibGraphConv
import proofs.«139564_j34376918237986_1_alg».proof.Proof.KernelFold
import proofs.«139564_j34376918237986_1_alg».proof.Proof.KernelHost
import proofs.«139564_j34376918237986_1_alg».proof.Proof.KernelDegree
import proofs.«139564_j34376918237986_1_alg».proof.Proof.RegionFinal0
import proofs.«139564_j34376918237986_1_alg».proof.Proof.RegionFinal1
import proofs.«139564_j34376918237986_1_alg».proof.Proof.RegionFinal2
import proofs.«139564_j34376918237986_1_alg».proof.Proof.RegionFinal3
import proofs.«139564_j34376918237986_1_alg».proof.Proof.RegionFinal4
import proofs.«139564_j34376918237986_1_alg».proof.Proof.RegionFinal5
import proofs.«139564_j34376918237986_1_alg».proof.Proof.RegionFinal6
import proofs.«139564_j34376918237986_1_alg».proof.Proof.RegionFinal7
import proofs.«139564_j34376918237986_1_alg».proof.Proof.RegionFinal8
import proofs.«139564_j34376918237986_1_alg».proof.Proof.RegionFinal9
import proofs.«139564_j34376918237986_1_alg».proof.Proof.RegionFinal10
import proofs.«139564_j34376918237986_1_alg».proof.Proof.RegionFinal11
import proofs.«139564_j34376918237986_1_alg».proof.Proof.RegionFinal12
import proofs.«139564_j34376918237986_1_alg».proof.Proof.RegionFinal13

set_option maxRecDepth 16384

noncomputable section

namespace Cert.KernelIdeal.Chain

open Idealize.ShloMosaic Idealize.ShloMosaic.TcCoe Idealize.SL.Sem
open Cert.KernelIdeal Cert.KernelIdeal.Gen Cert.KernelIdeal.HostVal Cert.KernelIdeal.RegionVal

variable (m : (ℓ : Loc nD τ sig) → Buf (Elt Ideal) ℓ) (ρ : Dev nD → PrngReg) (c : Dev nD)

/-! ## The values at the boundaries -/

/-- The out-degree and in-degree factors, one per node. -/
abbrev nO : Gcn.Col 40000 := degFactor (m ((c : Thread nD τ).loc main_arg1))
abbrev nI : Gcn.Col 40000 := degFactor (m ((c : Thread nD τ).loc main_arg2))
/-- The neighbourhood sums over the program's edges. -/
abbrev nb64 : Gcn.Mat 40000 64 → Gcn.Mat 40000 64 := agg64 (m ((c : Thread nD τ).loc main_arg1)) (m ((c : Thread nD τ).loc main_arg2))
abbrev nb128 : Gcn.Mat 40000 128 → Gcn.Mat 40000 128 := agg128 (m ((c : Thread nD τ).loc main_arg1)) (m ((c : Thread nD τ).loc main_arg2))
abbrev nb1 : Gcn.Mat 40000 1 → Gcn.Mat 40000 1 := agg1 (m ((c : Thread nD τ).loc main_arg1)) (m ((c : Thread nD τ).loc main_arg2))

/-- What the passes leave, in order: products (`p`), scaled rows (`s`), layer outputs (`h`), the result (`out`). -/
abbrev p1 : Gcn.Mat 40000 64 := Gcn.matMul (Gcn.rowScale ((m ((c : Thread nD τ).loc main_arg0)) : Gcn.Mat 40000 128) (nO m c)) ((m ((c : Thread nD τ).loc main_arg3)) : Gcn.Mat 128 64)
abbrev h1 : Gcn.Mat 40000 64 := Gcn.relu (Gcn.affine (nb64 m c (p1 m c)) (nI m c) ((m ((c : Thread nD τ).loc main_arg4)) : Gcn.Col 64))
abbrev s2 : Gcn.Mat 40000 64 := Gcn.rowScale (h1 m c) (nO m c)
abbrev h2 : Gcn.Mat 40000 128 := Gcn.relu (Gcn.affine (Gcn.matMul (nb64 m c (s2 m c)) ((m ((c : Thread nD τ).loc main_arg5)) : Gcn.Mat 64 128)) (nI m c) ((m ((c : Thread nD τ).loc main_arg6)) : Gcn.Col 128))
abbrev s3 : Gcn.Mat 40000 128 := Gcn.rowScale (h2 m c) (nO m c)
abbrev h3 : Gcn.Mat 40000 128 := Gcn.relu (Gcn.affine (Gcn.matMul (nb128 m c (s3 m c)) ((m ((c : Thread nD τ).loc main_arg7)) : Gcn.Mat 128 128)) (nI m c) ((m ((c : Thread nD τ).loc main_arg8)) : Gcn.Col 128))
abbrev p4 : Gcn.Mat 40000 64 := Gcn.matMul (Gcn.rowScale (h3 m c) (nO m c)) ((m ((c : Thread nD τ).loc main_arg9)) : Gcn.Mat 128 64)
abbrev h4 : Gcn.Mat 40000 64 := Gcn.relu (Gcn.affine (nb64 m c (p4 m c)) (nI m c) ((m ((c : Thread nD τ).loc main_arg10)) : Gcn.Col 64))
abbrev s5 : Gcn.Mat 40000 64 := Gcn.rowScale (h4 m c) (nO m c)
abbrev h5 : Gcn.Mat 40000 64 := Gcn.relu (Gcn.affine (Gcn.matMul (nb64 m c (s5 m c)) ((m ((c : Thread nD τ).loc main_arg11)) : Gcn.Mat 64 64)) (nI m c) ((m ((c : Thread nD τ).loc main_arg12)) : Gcn.Col 64))
abbrev s6 : Gcn.Mat 40000 64 := Gcn.rowScale (h5 m c) (nO m c)
abbrev h6 : Gcn.Mat 40000 64 := Gcn.relu (Gcn.affine (Gcn.matMul (nb64 m c (s6 m c)) ((m ((c : Thread nD τ).loc main_arg13)) : Gcn.Mat 64 64)) (nI m c) ((m ((c : Thread nD τ).loc main_arg14)) : Gcn.Col 64))
abbrev p7 : Gcn.Mat 40000 1 := Gcn.matMul (Gcn.rowScale (h6 m c) (nO m c)) ((m ((c : Thread nD τ).loc main_arg15)) : Gcn.Mat 64 1)
abbrev out : Gcn.Mat 40000 1 := Gcn.affine (nb1 m c (p7 m c)) (nI m c) ((m ((c : Thread nD τ).loc main_arg16)) : Gcn.Col 1)

/-! ## Boundary by boundary -/

/-- Pass 0 leaves `p1` in its output array. -/
theorem F6 : W6 m ρ c (Proc.devRef .tc main_v21) = p1 m c := by
  refine (W6_arr m ρ c 3).trans ?_
  refine (final0 (V5 m ρ) c).trans ?_
  have e0 : V5 m ρ c main_arg0 = (m ((c : Thread nD τ).loc main_arg0)) := Fold.args5 m ρ c main_arg0 (by decide)
  have e1 : V5 m ρ c main_arg3 = (m ((c : Thread nD τ).loc main_arg3)) := Fold.args5 m ρ c main_arg3 (by decide)
  have e2 : Gcn.colOf (V5 m ρ c main_v19) = nO m c :=
    (congrArg (fun z : Gcn.Mat 40000 1 => Gcn.colOf z) (Fold.norms5 m ρ c main_v19 (by decide))).trans (out_factor m ρ c)
  rw [e0, e1, e2]

/-- The stretch after it leaves the neighbourhood sum of `p1` and the next bias row. -/
theorem F7 : W7 m ρ c (Proc.devRef .tc main_v31) = nb64 m c (p1 m c) := by
  refine (sum1 (W6 m ρ c)).trans ?_
  rw [Fold.args6 m ρ c main_arg1 (by decide), Fold.args6 m ρ c main_arg2 (by decide), F6 m ρ c]
theorem B7 : Gcn.rowOf (W7 m ρ c (Proc.devRef .tc main_v32)) = (m ((c : Thread nD τ).loc main_arg4)) :=
  (bias1 (W6 m ρ c)).trans (Fold.args6 m ρ c main_arg4 (by decide))

/-- Pass 1 leaves `h1` in its output array. -/
theorem F8 : W8 m ρ c (Proc.devRef .tc main_v33) = h1 m c := by
  refine (W8_arr m ρ c 3).trans ?_
  refine (final1 (V7 m ρ) c).trans ?_
  have e0 : V7 m ρ c main_v31 = nb64 m c (p1 m c) := F7 m ρ c
  have e1 : Gcn.colOf (V7 m ρ c main_v20) = nI m c :=
    (congrArg (fun z : Gcn.Mat 40000 1 => Gcn.colOf z) (Fold.norms7 m ρ c main_v20 (by decide))).trans (in_factor m ρ c)
  have e2 : Gcn.rowOf (V7 m ρ c main_v32) = (m ((c : Thread nD τ).loc main_arg4)) := B7 m ρ c
  rw [e0, e1, e2]

/-- Pass 2 leaves `s2` in its output array. -/
theorem F9 : W9 m ρ c (Proc.devRef .tc main_v34) = s2 m c := by
  refine (W9_arr m ρ c 2).trans ?_
  refine (final2 (V8 m ρ) c).trans ?_
  have e0 : V8 m ρ c main_v33 = h1 m c := F8 m ρ c
  have e1 : Gcn.colOf (V8 m ρ c main_v19) = nO m c :=
    (congrArg (fun z : Gcn.Mat 40000 1 => Gcn.colOf z) (Fold.norms8 m ρ c main_v19 (by decide))).trans (out_factor m ρ c)
  rw [e0, e1]

/-- The stretch after it leaves the neighbourhood sum of `s2` and the next bias row. -/
theorem F10 : W10 m ρ c (Proc.devRef .tc main_v44) = nb64 m c (s2 m c) := by
  refine (sum3 (W9 m ρ c)).trans ?_
  rw [Fold.args9 m ρ c main_arg1 (by decide), Fold.args9 m ρ c main_arg2 (by decide), F9 m ρ c]
theorem B10 : Gcn.rowOf (W10 m ρ c (Proc.devRef .tc main_v45)) = (m ((c : Thread nD τ).loc main_arg6)) :=
  (bias3 (W9 m ρ c)).trans (Fold.args9 m ρ c main_arg6 (by decide))

/-- Pass 3 leaves `h2` in its output array. -/
theorem F11 : W11 m ρ c (Proc.devRef .tc main_v46) = h2 m c := by
  refine (W11_arr m ρ c 4).trans ?_
  refine (final3 (V10 m ρ) c).trans ?_
  have e0 : V10 m ρ c main_v44 = nb64 m c (s2 m c) := F10 m ρ c
  have e1 : V10 m ρ c main_arg5 = (m ((c : Thread nD τ).loc main_arg5)) := Fold.args10 m ρ c main_arg5 (by decide)
  have e2 : Gcn.colOf (V10 m ρ c main_v20) = nI m c :=
    (congrArg (fun z : Gcn.Mat 40000 1 => Gcn.colOf z) (Fold.norms10 m ρ c main_v20 (by decide))).trans (in_factor m ρ c)
  have e3 : Gcn.rowOf (V10 m ρ c main_v45) = (m ((c : Thread nD τ).loc main_arg6)) := B10 m ρ c
  rw [e0, e1, e2, e3]

/-- Pass 4 leaves `s3` in its output array. -/
theorem F12 : W12 m ρ c (Proc.devRef .tc main_v47) = s3 m c := by
  refine (W12_arr m ρ c 2).trans ?_
  refine (final4 (V11 m ρ) c).trans ?_
  have e0 : V11 m ρ c main_v46 = h2 m c := F11 m ρ c
  have e1 : Gcn.colOf (V11 m ρ c main_v19) = nO m c :=
    (congrArg (fun z : Gcn.Mat 40000 1 => Gcn.colOf z) (Fold.norms11 m ρ c main_v19 (by decide))).trans (out_factor m ρ c)
  rw [e0, e1]

/-- The stretch after it leaves the neighbourhood sum of `s3` and the next bias row. -/
theorem F13 : W13 m ρ c (Proc.devRef .tc main_v57) = nb128 m c (s3 m c) := by
  refine (sum5 (W12 m ρ c)).trans ?_
  rw [Fold.args12 m ρ c main_arg1 (by decide), Fold.args12 m ρ c main_arg2 (by decide), F12 m ρ c]
theorem B13 : Gcn.rowOf (W13 m ρ c (Proc.devRef .tc main_v58)) = (m ((c : Thread nD τ).loc main_arg8)) :=
  (bias5 (W12 m ρ c)).trans (Fold.args12 m ρ c main_arg8 (by decide))

/-- Pass 5 leaves `h3` in its output array. -/
theorem F14 : W14 m ρ c (Proc.devRef .tc main_v59) = h3 m c := by
  refine (W14_arr m ρ c 4).trans ?_
  refine (final5 (V13 m ρ) c).trans ?_
  have e0 : V13 m ρ c main_v57 = nb128 m c (s3 m c) := F13 m ρ c
  have e1 : V13 m ρ c main_arg7 = (m ((c : Thread nD τ).loc main_arg7)) := Fold.args13 m ρ c main_arg7 (by decide)
  have e2 : Gcn.colOf (V13 m ρ c main_v20) = nI m c :=
    (congrArg (fun z : Gcn.Mat 40000 1 => Gcn.colOf z) (Fold.norms13 m ρ c main_v20 (by decide))).trans (in_factor m ρ c)
  have e3 : Gcn.rowOf (V13 m ρ c main_v58) = (m ((c : Thread nD τ).loc main_arg8)) := B13 m ρ c
  rw [e0, e1, e2, e3]

/-- Pass 6 leaves `p4` in its output array. -/
theorem F15 : W15 m ρ c (Proc.devRef .tc main_v60) = p4 m c := by
  refine (W15_arr m ρ c 3).trans ?_
  refine (final6 (V14 m ρ) c).trans ?_
  have e0 : V14 m ρ c main_v59 = h3 m c := F14 m ρ c
  have e1 : V14 m ρ c main_arg9 = (m ((c : Thread nD τ).loc main_arg9)) := Fold.args14 m ρ c main_arg9 (by decide)
  have e2 : Gcn.colOf (V14 m ρ c main_v19) = nO m c :=
    (congrArg (fun z : Gcn.Mat 40000 1 => Gcn.colOf z) (Fold.norms14 m ρ c main_v19 (by decide))).trans (out_factor m ρ c)
  rw [e0, e1, e2]

/-- The stretch after it leaves the neighbourhood sum of `p4` and the next bias row. -/
theorem F16 : W16 m ρ c (Proc.devRef .tc main_v70) = nb64 m c (p4 m c) := by
  refine (sum7 (W15 m ρ c)).trans ?_
  rw [Fold.args15 m ρ c main_arg1 (by decide), Fold.args15 m ρ c main_arg2 (by decide), F15 m ρ c]
theorem B16 : Gcn.rowOf (W16 m ρ c (Proc.devRef .tc main_v71)) = (m ((c : Thread nD τ).loc main_arg10)) :=
  (bias7 (W15 m ρ c)).trans (Fold.args15 m ρ c main_arg10 (by decide))

/-- Pass 7 leaves `h4` in its output array. -/
theorem F17 : W17 m ρ c (Proc.devRef .tc main_v72) = h4 m c := by
  refine (W17_arr m ρ c 3).trans ?_
  refine (final7 (V16 m ρ) c).trans ?_
  have e0 : V16 m ρ c main_v70 = nb64 m c (p4 m c) := F16 m ρ c
  have e1 : Gcn.colOf (V16 m ρ c main_v20) = nI m c :=
    (congrArg (fun z : Gcn.Mat 40000 1 => Gcn.colOf z) (Fold.norms16 m ρ c main_v20 (by decide))).trans (in_factor m ρ c)
  have e2 : Gcn.rowOf (V16 m ρ c main_v71) = (m ((c : Thread nD τ).loc main_arg10)) := B16 m ρ c
  rw [e0, e1, e2]

/-- Pass 8 leaves `s5` in its output array. -/
theorem F18 : W18 m ρ c (Proc.devRef .tc main_v73) = s5 m c := by
  refine (W18_arr m ρ c 2).trans ?_
  refine (final8 (V17 m ρ) c).trans ?_
  have e0 : V17 m ρ c main_v72 = h4 m c := F17 m ρ c
  have e1 : Gcn.colOf (V17 m ρ c main_v19) = nO m c :=
    (congrArg (fun z : Gcn.Mat 40000 1 => Gcn.colOf z) (Fold.norms17 m ρ c main_v19 (by decide))).trans (out_factor m ρ c)
  rw [e0, e1]

/-- The stretch after it leaves the neighbourhood sum of `s5` and the next bias row. -/
theorem F19 : W19 m ρ c (Proc.devRef .tc main_v83) = nb64 m c (s5 m c) := by
  refine (sum9 (W18 m ρ c)).trans ?_
  rw [Fold.args18 m ρ c main_arg1 (by decide), Fold.args18 m ρ c main_arg2 (by decide), F18 m ρ c]
theorem B19 : Gcn.rowOf (W19 m ρ c (Proc.devRef .tc main_v84)) = (m ((c : Thread nD τ).loc main_arg12)) :=
  (bias9 (W18 m ρ c)).trans (Fold.args18 m ρ c main_arg12 (by decide))

/-- Pass 9 leaves `h5` in its output array. -/
theorem F20 : W20 m ρ c (Proc.devRef .tc main_v85) = h5 m c := by
  refine (W20_arr m ρ c 4).trans ?_
  refine (final9 (V19 m ρ) c).trans ?_
  have e0 : V19 m ρ c main_v83 = nb64 m c (s5 m c) := F19 m ρ c
  have e1 : V19 m ρ c main_arg11 = (m ((c : Thread nD τ).loc main_arg11)) := Fold.args19 m ρ c main_arg11 (by decide)
  have e2 : Gcn.colOf (V19 m ρ c main_v20) = nI m c :=
    (congrArg (fun z : Gcn.Mat 40000 1 => Gcn.colOf z) (Fold.norms19 m ρ c main_v20 (by decide))).trans (in_factor m ρ c)
  have e3 : Gcn.rowOf (V19 m ρ c main_v84) = (m ((c : Thread nD τ).loc main_arg12)) := B19 m ρ c
  rw [e0, e1, e2, e3]

/-- Pass 10 leaves `s6` in its output array. -/
theorem F21 : W21 m ρ c (Proc.devRef .tc main_v86) = s6 m c := by
  refine (W21_arr m ρ c 2).trans ?_
  refine (final10 (V20 m ρ) c).trans ?_
  have e0 : V20 m ρ c main_v85 = h5 m c := F20 m ρ c
  have e1 : Gcn.colOf (V20 m ρ c main_v19) = nO m c :=
    (congrArg (fun z : Gcn.Mat 40000 1 => Gcn.colOf z) (Fold.norms20 m ρ c main_v19 (by decide))).trans (out_factor m ρ c)
  rw [e0, e1]

/-- The stretch after it leaves the neighbourhood sum of `s6` and the next bias row. -/
theorem F22 : W22 m ρ c (Proc.devRef .tc main_v96) = nb64 m c (s6 m c) := by
  refine (sum11 (W21 m ρ c)).trans ?_
  rw [Fold.args21 m ρ c main_arg1 (by decide), Fold.args21 m ρ c main_arg2 (by decide), F21 m ρ c]
theorem B22 : Gcn.rowOf (W22 m ρ c (Proc.devRef .tc main_v97)) = (m ((c : Thread nD τ).loc main_arg14)) :=
  (bias11 (W21 m ρ c)).trans (Fold.args21 m ρ c main_arg14 (by decide))

/-- Pass 11 leaves `h6` in its output array. -/
theorem F23 : W23 m ρ c (Proc.devRef .tc main_v98) = h6 m c := by
  refine (W23_arr m ρ c 4).trans ?_
  refine (final11 (V22 m ρ) c).trans ?_
  have e0 : V22 m ρ c main_v96 = nb64 m c (s6 m c) := F22 m ρ c
  have e1 : V22 m ρ c main_arg13 = (m ((c : Thread nD τ).loc main_arg13)) := Fold.args22 m ρ c main_arg13 (by decide)
  have e2 : Gcn.colOf (V22 m ρ c main_v20) = nI m c :=
    (congrArg (fun z : Gcn.Mat 40000 1 => Gcn.colOf z) (Fold.norms22 m ρ c main_v20 (by decide))).trans (in_factor m ρ c)
  have e3 : Gcn.rowOf (V22 m ρ c main_v97) = (m ((c : Thread nD τ).loc main_arg14)) := B22 m ρ c
  rw [e0, e1, e2, e3]

/-- Pass 12 leaves `p7` in its output array. -/
theorem F24 : W24 m ρ c (Proc.devRef .tc main_v99) = p7 m c := by
  refine (W24_arr m ρ c 3).trans ?_
  refine (final12 (V23 m ρ) c).trans ?_
  have e0 : V23 m ρ c main_v98 = h6 m c := F23 m ρ c
  have e1 : V23 m ρ c main_arg15 = (m ((c : Thread nD τ).loc main_arg15)) := Fold.args23 m ρ c main_arg15 (by decide)
  have e2 : Gcn.colOf (V23 m ρ c main_v19) = nO m c :=
    (congrArg (fun z : Gcn.Mat 40000 1 => Gcn.colOf z) (Fold.norms23 m ρ c main_v19 (by decide))).trans (out_factor m ρ c)
  rw [e0, e1, e2]

/-- The stretch after it leaves the neighbourhood sum of `p7` and the next bias row. -/
theorem F25 : W25 m ρ c (Proc.devRef .tc main_v109) = nb1 m c (p7 m c) := by
  refine (sum13 (W24 m ρ c)).trans ?_
  rw [Fold.args24 m ρ c main_arg1 (by decide), Fold.args24 m ρ c main_arg2 (by decide), F24 m ρ c]
theorem B25 : Gcn.rowOf (W25 m ρ c (Proc.devRef .tc main_v110)) = (m ((c : Thread nD τ).loc main_arg16)) :=
  (bias13 (W24 m ρ c)).trans (Fold.args24 m ρ c main_arg16 (by decide))

/-- Pass 13 leaves `out` in its output array. -/
theorem F26 : W26 m ρ c (Proc.devRef .tc main_v111) = out m c := by
  refine (W26_arr m ρ c 3).trans ?_
  refine (final13 (V25 m ρ) c).trans ?_
  have e0 : V25 m ρ c main_v109 = nb1 m c (p7 m c) := F25 m ρ c
  have e1 : Gcn.colOf (V25 m ρ c main_v20) = nI m c :=
    (congrArg (fun z : Gcn.Mat 40000 1 => Gcn.colOf z) (Fold.norms25 m ρ c main_v20 (by decide))).trans (in_factor m ρ c)
  have e2 : Gcn.rowOf (V25 m ρ c main_v110) = (m ((c : Thread nD τ).loc main_arg16)) := B25 m ρ c
  rw [e0, e1, e2]

/-! ## The result -/

/-- The chained value is the network of the arguments. -/
theorem out_eq_net : out m c = Gcn.net (nO m c) (nI m c) (nb64 m c) (nb128 m c) (nb1 m c) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := rfl

/-- The buffer the program returns holds the network of the arguments. -/
theorem result : W26 m ρ c (Proc.devRef .tc main_v111)
    = Gcn.net (nO m c) (nI m c) (nb64 m c) (nb128 m c) (nb1 m c) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (F26 m ρ c).trans (out_eq_net m c)

end Cert.KernelIdeal.Chain

end
-- ==== Proof.RefResult.lean ====
/-
  The reference program's result term is the last stage of its staged reading.

  The run of the reference program names the term its result buffer ends at; read one operation at a time, the same
  term is the last of the stages, applied to the seventeen argument arrays as launched.
-/
import proofs.«139564_j34376918237986_1_alg».proof.Proof.RefRunP
import proofs.«139564_j34376918237986_1_alg».proof.Proof.RefReadP

set_option maxRecDepth 16384

noncomputable section

namespace Cert.ReferenceIdeal.RefResult

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem res_eq (m : (ℓ : Loc nD τ sig) → Buf (Elt F) ℓ) (c : Dev nD) :
    Cert.ReferenceIdeal.ValueP.res_main_v163 m c
      = Cert.ReferenceIdeal.ReadP.val_main_v163 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold Cert.ReferenceIdeal.ValueP.res_main_v163; rfl

end Cert.ReferenceIdeal.RefResult

end
-- ==== Proof.RefNet1.lean ====
/-
  The pieces of the reference network, each read as the graph-convolution vocabulary of `Gcn`.

  The reference computes a per-node out-degree factor and in-degree factor once, and then seven layers. Inside a
  layer every step is one of five whole-array operations: a product with a per-node factor laid along the columns
  (`Gcn.rowScale`), a matrix product (`Gcn.matMul`), a neighbourhood sum (a gather of rows by the source of each
  edge followed by a scatter-add by its destination, kept closed here), a product with the in-degree factor plus a
  bias row laid along the rows (`Gcn.affine`), and a clamp at zero against a broadcast zero (`Gcn.relu`).
  This module states each of these once per width (64, 128, 1) over arbitrary arrays, entry by entry.
-/
import proofs.«139564_j34376918237986_1_alg».proof.Proof.RefReadP
import proofs.«139564_j34376918237986_1_alg».proof.Proof.LibGraphConv
import proofs.«139564_j34376918237986_1_alg».proof.Proof.LibPlainDot

noncomputable section

open scoped BigOperators

namespace Cert.ReferenceIdeal.RefNet

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-- The type of the two edge-endpoint arrays. -/
abbrev Idx : Type := (⟨S640000, .i32⟩ : BufTy).Contents (Elt Ideal)

/-- the out-degree factor, one per node -/
def sO (x1 : Idx) : Gcn.Col 40000 := val_main_v12 (F := Ideal) x1
/-- the in-degree factor -/
def sI (x2 : Idx) : Gcn.Col 40000 := val_main_v18 (F := Ideal) x2

/-- the neighbourhood sum at width 64: rows gathered by src (negative indices wrapped), scatter-added by dst into zeros -/
def agg64 (x1 x2 : Idx) (y : Gcn.Mat 40000 64) : Gcn.Mat 40000 64 :=
  Host.scatterAdd (F := Ideal) scatter_S40000x64_S640000x1_S640000x64_1_0_0_1 (val_main_v30 (F := Ideal)) (val_main_v31 (F := Ideal) x2)
    (Host.gather gather_S40000x64_S640000x1_S640000x64_1_0_n_n_0_1_164 y (val_main_v28 (F := Ideal) x1))
/-- the neighbourhood sum at width 128 -/
def agg128 (x1 x2 : Idx) (y : Gcn.Mat 40000 128) : Gcn.Mat 40000 128 :=
  Host.scatterAdd (F := Ideal) scatter_S40000x128_S640000x1_S640000x128_1_0_0_1 (val_main_v71 (F := Ideal)) (val_main_v72 (F := Ideal) x2)
    (Host.gather gather_S40000x128_S640000x1_S640000x128_1_0_n_n_0_1_1128 y (val_main_v69 (F := Ideal) x1))
/-- the neighbourhood sum at width 1 -/
def agg1 (x1 x2 : Idx) (y : Gcn.Mat 40000 1) : Gcn.Mat 40000 1 :=
  Host.scatterAdd (F := Ideal) scatter_S40000x1_S640000x1_S640000x1_1_0_0_1 (val_main_v156 (F := Ideal)) (val_main_v157 (F := Ideal) x2)
    (Host.gather gather_S40000x1_S640000x1_S640000x1_1_0_n_n_0_1_11 y (val_main_v154 (F := Ideal) x1))

/-! ## A per-node factor laid along the columns, a bias laid along the rows, a zero everywhere -/

/-- A per-node factor as a 40000 × 64 array: entry (r, c) is the factor of node r. -/
abbrev rows64 (s : Gcn.Col 40000) : Gcn.Mat 40000 64 :=
  broadcastInDim S40000x64 ![0, 1] bcast_S40000x1_S40000x64_0_1 (broadcastInDim S40000x1 ![0] bcast_S40000_S40000x1_0 s)
/-- A per-node factor as a 40000 × 128 array. -/
abbrev rows128 (s : Gcn.Col 40000) : Gcn.Mat 40000 128 :=
  broadcastInDim S40000x128 ![0, 1] bcast_S40000x1_S40000x128_0_1 (broadcastInDim S40000x1 ![0] bcast_S40000_S40000x1_0 s)
/-- A per-node factor as a 40000 × 1 array. -/
abbrev rows1 (s : Gcn.Col 40000) : Gcn.Mat 40000 1 :=
  broadcastInDim S40000x1 ![0] bcast_S40000_S40000x1_0 s
/-- A bias of length 64 as a 40000 × 64 array: entry (r, c) is the bias of column c. -/
abbrev cols64 (b : Gcn.Col 64) : Gcn.Mat 40000 64 :=
  broadcastInDim S40000x64 ![0, 1] bcast_S1x64_S40000x64_0_1 (broadcastInDim S1x64 ![1] bcast_S64_S1x64_1 b)
/-- A bias of length 128 as a 40000 × 128 array. -/
abbrev cols128 (b : Gcn.Col 128) : Gcn.Mat 40000 128 :=
  broadcastInDim S40000x128 ![0, 1] bcast_S1x128_S40000x128_0_1 (broadcastInDim S1x128 ![1] bcast_S128_S1x128_1 b)
/-- A bias of length 1 as a 40000 × 1 array. -/
abbrev cols1 (b : Gcn.Col 1) : Gcn.Mat 40000 1 :=
  broadcastInDim S40000x1 ![0, 1] bcast_S1x1_S40000x1_0_1 (broadcastInDim S1x1 ![1] bcast_S1_S1x1_1 b)
/-- The zero word everywhere on a 40000 × 64 array. -/
abbrev zeros64 : Gcn.Mat 40000 64 :=
  broadcastInDim S40000x64 ![] bcast_S_S40000x64 (constant (F := Ideal) S_ .f32 0x00000000#32)
/-- The zero word everywhere on a 40000 × 128 array. -/
abbrev zeros128 : Gcn.Mat 40000 128 :=
  broadcastInDim S40000x128 ![] bcast_S_S40000x128 (constant (F := Ideal) S_ .f32 0x00000000#32)

theorem rows64_apply (s : Gcn.Col 40000) (r : Fin 40000) (c : Fin 64) : rows64 s (ix2 r c) = s (ix1 r) := by
  refine (broadcastInDim_apply _ bcast_S40000x1_S40000x64_0_1 (broadcastInDim S40000x1 ![0] bcast_S40000_S40000x1_0 s)
    (ix2 r c) (ix2 r (0 : Fin 1)) (fun a => match a with
      | ⟨0, _⟩ => by show r.val = if (40000 : Nat) = 1 then 0 else r.val; rw [if_neg (by decide)]
      | ⟨1, _⟩ => by show 0 = if (1 : Nat) = 1 then 0 else c.val; rw [if_pos rfl])).trans ?_
  exact broadcastInDim_apply _ bcast_S40000_S40000x1_0 s (ix2 r (0 : Fin 1)) (ix1 r) (fun a => match a with
      | ⟨0, _⟩ => by show r.val = if (40000 : Nat) = 1 then 0 else r.val; rw [if_neg (by decide)])

theorem rows128_apply (s : Gcn.Col 40000) (r : Fin 40000) (c : Fin 128) : rows128 s (ix2 r c) = s (ix1 r) := by
  refine (broadcastInDim_apply _ bcast_S40000x1_S40000x128_0_1 (broadcastInDim S40000x1 ![0] bcast_S40000_S40000x1_0 s)
    (ix2 r c) (ix2 r (0 : Fin 1)) (fun a => match a with
      | ⟨0, _⟩ => by show r.val = if (40000 : Nat) = 1 then 0 else r.val; rw [if_neg (by decide)]
      | ⟨1, _⟩ => by show 0 = if (1 : Nat) = 1 then 0 else c.val; rw [if_pos rfl])).trans ?_
  exact broadcastInDim_apply _ bcast_S40000_S40000x1_0 s (ix2 r (0 : Fin 1)) (ix1 r) (fun a => match a with
      | ⟨0, _⟩ => by show r.val = if (40000 : Nat) = 1 then 0 else r.val; rw [if_neg (by decide)])

theorem rows1_apply (s : Gcn.Col 40000) (r : Fin 40000) (c : Fin 1) : rows1 s (ix2 r c) = s (ix1 r) :=
  broadcastInDim_apply _ bcast_S40000_S40000x1_0 s (ix2 r c) (ix1 r) (fun a => match a with
      | ⟨0, _⟩ => by show r.val = if (40000 : Nat) = 1 then 0 else r.val; rw [if_neg (by decide)])

theorem cols64_apply (b : Gcn.Col 64) (r : Fin 40000) (c : Fin 64) : cols64 b (ix2 r c) = b (ix1 c) := by
  refine (broadcastInDim_apply _ bcast_S1x64_S40000x64_0_1 (broadcastInDim S1x64 ![1] bcast_S64_S1x64_1 b)
    (ix2 r c) (ix2 (0 : Fin 1) c) (fun a => match a with
      | ⟨0, _⟩ => by show 0 = if (1 : Nat) = 1 then 0 else r.val; rw [if_pos rfl]
      | ⟨1, _⟩ => by show c.val = if (64 : Nat) = 1 then 0 else c.val; rw [if_neg (by decide)])).trans ?_
  exact broadcastInDim_apply _ bcast_S64_S1x64_1 b (ix2 (0 : Fin 1) c) (ix1 c) (fun a => match a with
      | ⟨0, _⟩ => by show c.val = if (64 : Nat) = 1 then 0 else c.val; rw [if_neg (by decide)])

theorem cols128_apply (b : Gcn.Col 128) (r : Fin 40000) (c : Fin 128) : cols128 b (ix2 r c) = b (ix1 c) := by
  refine (broadcastInDim_apply _ bcast_S1x128_S40000x128_0_1 (broadcastInDim S1x128 ![1] bcast_S128_S1x128_1 b)
    (ix2 r c) (ix2 (0 : Fin 1) c) (fun a => match a with
      | ⟨0, _⟩ => by show 0 = if (1 : Nat) = 1 then 0 else r.val; rw [if_pos rfl]
      | ⟨1, _⟩ => by show c.val = if (128 : Nat) = 1 then 0 else c.val; rw [if_neg (by decide)])).trans ?_
  exact broadcastInDim_apply _ bcast_S128_S1x128_1 b (ix2 (0 : Fin 1) c) (ix1 c) (fun a => match a with
      | ⟨0, _⟩ => by show c.val = if (128 : Nat) = 1 then 0 else c.val; rw [if_neg (by decide)])

theorem cols1_apply (b : Gcn.Col 1) (r : Fin 40000) (c : Fin 1) : cols1 b (ix2 r c) = b (ix1 c) := by
  obtain rfl : c = 0 := Subsingleton.elim _ _
  refine (broadcastInDim_apply _ bcast_S1x1_S40000x1_0_1 (broadcastInDim S1x1 ![1] bcast_S1_S1x1_1 b)
    (ix2 r (0 : Fin 1)) (ix2 (0 : Fin 1) (0 : Fin 1)) (fun a => match a with
      | ⟨0, _⟩ => by show 0 = if (1 : Nat) = 1 then 0 else r.val; rw [if_pos rfl]
      | ⟨1, _⟩ => by show 0 = if (1 : Nat) = 1 then 0 else 0; rw [if_pos rfl])).trans ?_
  exact broadcastInDim_apply _ bcast_S1_S1x1_1 b (ix2 (0 : Fin 1) (0 : Fin 1)) (ix1 (0 : Fin 1)) (fun a => match a with
      | ⟨0, _⟩ => by show 0 = if (1 : Nat) = 1 then 0 else 0; rw [if_pos rfl])

theorem zeros64_apply (i : S40000x64.Idx) : zeros64 i = 0 := by
  refine (broadcastInDim_apply _ bcast_S_S40000x64 (constant (F := Ideal) S_ .f32 0x00000000#32) i (fun a => a.elim0)
    (fun a => a.elim0)).trans ?_
  exact Ideal.ofBits_zero_f32

theorem zeros128_apply (i : S40000x128.Idx) : zeros128 i = 0 := by
  refine (broadcastInDim_apply _ bcast_S_S40000x128 (constant (F := Ideal) S_ .f32 0x00000000#32) i (fun a => a.elim0)
    (fun a => a.elim0)).trans ?_
  exact Ideal.ofBits_zero_f32

/-! ## The five whole-array steps -/

/-- A product with the per-node factor laid along 64 columns scales row r by the factor of r. -/
theorem scale64 (h : Gcn.Mat 40000 64) (s : Gcn.Col 40000) : mulf (F := Ideal) h (rows64 s) = Gcn.rowScale h s := by
  funext i
  obtain ⟨r, c, rfl⟩ : ∃ r c, i = ix2 r c := ⟨i 0, i 1, eq_ix2 i⟩
  rw [mulf_apply, rows64_apply, Gcn.rowScale_apply]

/-- The same at width 128. -/
theorem scale128 (h : Gcn.Mat 40000 128) (s : Gcn.Col 40000) : mulf (F := Ideal) h (rows128 s) = Gcn.rowScale h s := by
  funext i
  obtain ⟨r, c, rfl⟩ : ∃ r c, i = ix2 r c := ⟨i 0, i 1, eq_ix2 i⟩
  rw [mulf_apply, rows128_apply, Gcn.rowScale_apply]

/-- Factor, bias and clamp at width 64: entry (r, c) is max (h (r, c) · s r + b c) 0. -/
theorem reluAffine64 (h : Gcn.Mat 40000 64) (s : Gcn.Col 40000) (b : Gcn.Col 64) :
    maximumf (F := Ideal) (addf (F := Ideal) (mulf (F := Ideal) h (rows64 s)) (cols64 b)) zeros64 = Gcn.relu (Gcn.affine h s b) := by
  funext i
  obtain ⟨r, c, rfl⟩ : ∃ r c, i = ix2 r c := ⟨i 0, i 1, eq_ix2 i⟩
  rw [maximumf_apply, addf_apply, mulf_apply, rows64_apply, cols64_apply, zeros64_apply, Gcn.relu_apply, Gcn.affine_apply]

/-- Factor, bias and clamp at width 128. -/
theorem reluAffine128 (h : Gcn.Mat 40000 128) (s : Gcn.Col 40000) (b : Gcn.Col 128) :
    maximumf (F := Ideal) (addf (F := Ideal) (mulf (F := Ideal) h (rows128 s)) (cols128 b)) zeros128 = Gcn.relu (Gcn.affine h s b) := by
  funext i
  obtain ⟨r, c, rfl⟩ : ∃ r c, i = ix2 r c := ⟨i 0, i 1, eq_ix2 i⟩
  rw [maximumf_apply, addf_apply, mulf_apply, rows128_apply, cols128_apply, zeros128_apply, Gcn.relu_apply, Gcn.affine_apply]

/-- Factor and bias at width 1 (the last layer has no clamp). -/
theorem affine1 (h : Gcn.Mat 40000 1) (s : Gcn.Col 40000) (b : Gcn.Col 1) :
    addf (F := Ideal) (mulf (F := Ideal) h (rows1 s)) (cols1 b) = Gcn.affine h s b := by
  funext i
  obtain ⟨r, c, rfl⟩ : ∃ r c, i = ix2 r c := ⟨i 0, i 1, eq_ix2 i⟩
  rw [addf_apply, mulf_apply, rows1_apply, cols1_apply, Gcn.affine_apply]

/-! ## The five matrix products -/

/-- [40000, 128] × [128, 64]. -/
theorem dot_128_64 (y : Gcn.Mat 40000 128) (w : Gcn.Mat 128 64) :
    Host.dotGeneral (F := Ideal) dot_S40000x128_S128x64_S40000x64_1_0_0_1_n_n none y w = Gcn.matMul y w := by
  funext i
  simp only [Host.dotGeneral]
  exact PlainDot.dotGeneral_apply dot_S40000x128_S128x64_S40000x64_1_0_0_1_n_n rfl rfl
    lhs_main_v22_0 lhs_main_v22_1 rhs_main_v22_0 rhs_main_v22_1 none _ y w i

/-- [40000, 64] × [64, 128]. -/
theorem dot_64_128 (y : Gcn.Mat 40000 64) (w : Gcn.Mat 64 128) :
    Host.dotGeneral (F := Ideal) dot_S40000x64_S64x128_S40000x128_1_0_0_1_n_n none y w = Gcn.matMul y w := by
  funext i
  simp only [Host.dotGeneral]
  exact PlainDot.dotGeneral_apply dot_S40000x64_S64x128_S40000x128_1_0_0_1_n_n rfl rfl
    lhs_main_v53_0 lhs_main_v53_1 rhs_main_v53_0 rhs_main_v53_1 none _ y w i

/-- [40000, 128] × [128, 128]. -/
theorem dot_128_128 (y : Gcn.Mat 40000 128) (w : Gcn.Mat 128 128) :
    Host.dotGeneral (F := Ideal) dot_S40000x128_S128x128_S40000x128_1_0_0_1_n_n none y w = Gcn.matMul y w := by
  funext i
  simp only [Host.dotGeneral]
  exact PlainDot.dotGeneral_apply dot_S40000x128_S128x128_S40000x128_1_0_0_1_n_n rfl rfl
    lhs_main_v74_0 lhs_main_v74_1 rhs_main_v74_0 rhs_main_v74_1 none _ y w i

/-- [40000, 64] × [64, 64]. -/
theorem dot_64_64 (y : Gcn.Mat 40000 64) (w : Gcn.Mat 64 64) :
    Host.dotGeneral (F := Ideal) dot_S40000x64_S64x64_S40000x64_1_0_0_1_n_n none y w = Gcn.matMul y w := by
  funext i
  simp only [Host.dotGeneral]
  exact PlainDot.dotGeneral_apply dot_S40000x64_S64x64_S40000x64_1_0_0_1_n_n rfl rfl
    lhs_main_v116_0 lhs_main_v116_1 rhs_main_v116_0 rhs_main_v116_1 none _ y w i

/-- [40000, 64] × [64, 1]. -/
theorem dot_64_1 (y : Gcn.Mat 40000 64) (w : Gcn.Mat 64 1) :
    Host.dotGeneral (F := Ideal) dot_S40000x64_S64x1_S40000x1_1_0_0_1_n_n none y w = Gcn.matMul y w := by
  funext i
  simp only [Host.dotGeneral]
  exact PlainDot.dotGeneral_apply dot_S40000x64_S64x1_S40000x1_1_0_0_1_n_n rfl rfl
    lhs_main_v148_0 lhs_main_v148_1 rhs_main_v148_0 rhs_main_v148_1 none _ y w i

end Cert.ReferenceIdeal.RefNet

end
-- ==== Proof.RefNet2.lean ====
/-
  The reference network, layer by layer.

  Each layer of the reference is read as one of `Gcn.layerProj` (weights first, neighbourhood sum after: layers 1
  and 4), `Gcn.layerAgg` (neighbourhood sum first, weights after: layers 2, 3, 5, 6) or `Gcn.layerLast` (layer 7,
  no clamp), through four stages: the product with the out-degree factor, the matrix product, the neighbourhood
  sum, and the in-degree factor with bias and clamp. The neighbourhood sum of every layer of width 64 is the same
  function `agg64`: its zero array, its destination column and its wrapped source column are the same terms.
-/
import proofs.«139564_j34376918237986_1_alg».proof.Proof.RefNet1

noncomputable section

namespace Cert.ReferenceIdeal.RefNet

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

variable (x0 : (⟨S40000x128, .f32⟩ : BufTy).Contents (Elt Ideal)) (x1 x2 : Idx)
  (x3 : (⟨S128x64, .f32⟩ : BufTy).Contents (Elt Ideal)) (x4 : (⟨S64, .f32⟩ : BufTy).Contents (Elt Ideal))
  (x5 : (⟨S64x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x64, .f32⟩ : BufTy).Contents (Elt Ideal)) (x10 : (⟨S64, .f32⟩ : BufTy).Contents (Elt Ideal))
  (x11 : (⟨S64x64, .f32⟩ : BufTy).Contents (Elt Ideal)) (x12 : (⟨S64, .f32⟩ : BufTy).Contents (Elt Ideal))
  (x13 : (⟨S64x64, .f32⟩ : BufTy).Contents (Elt Ideal)) (x14 : (⟨S64, .f32⟩ : BufTy).Contents (Elt Ideal))
  (x15 : (⟨S64x1, .f32⟩ : BufTy).Contents (Elt Ideal)) (x16 : (⟨S1, .f32⟩ : BufTy).Contents (Elt Ideal))

/-! ## Layer 1: 128 → 64, weights first -/

theorem scale21 : val_main_v21 (F := Ideal) x0 x1 = Gcn.rowScale x0 (sO x1) := scale128 x0 (sO x1)
theorem mm22 : val_main_v22 (F := Ideal) x0 x1 x3 = Gcn.matMul (val_main_v21 (F := Ideal) x0 x1) x3 := dot_128_64 _ x3
theorem agg32 : val_main_v32 (F := Ideal) x0 x1 x2 x3 = agg64 x1 x2 (val_main_v22 (F := Ideal) x0 x1 x3) := rfl
theorem out39 : val_main_v39 (F := Ideal) x0 x1 x2 x3 x4 = Gcn.relu (Gcn.affine (val_main_v32 (F := Ideal) x0 x1 x2 x3) (sI x2) x4) :=
  reluAffine64 _ (sI x2) x4
theorem layer1 : val_main_v39 (F := Ideal) x0 x1 x2 x3 x4 = Gcn.layerProj (agg64 x1 x2) (sO x1) (sI x2) x0 x3 x4 := by
  unfold Gcn.layerProj
  rw [out39, agg32, mm22, scale21]

/-! ## Layer 2: 64 → 128, neighbourhood sum first -/

theorem scale42 : val_main_v42 (F := Ideal) x0 x1 x2 x3 x4 = Gcn.rowScale (val_main_v39 (F := Ideal) x0 x1 x2 x3 x4) (sO x1) := scale64 _ (sO x1)
theorem agg52 : val_main_v52 (F := Ideal) x0 x1 x2 x3 x4 = agg64 x1 x2 (val_main_v42 (F := Ideal) x0 x1 x2 x3 x4) := rfl
theorem mm53 : val_main_v53 (F := Ideal) x0 x1 x2 x3 x4 x5 = Gcn.matMul (val_main_v52 (F := Ideal) x0 x1 x2 x3 x4) x5 := dot_64_128 _ x5
theorem out60 : val_main_v60 (F := Ideal) x0 x1 x2 x3 x4 x5 x6 = Gcn.relu (Gcn.affine (val_main_v53 (F := Ideal) x0 x1 x2 x3 x4 x5) (sI x2) x6) := reluAffine128 _ (sI x2) x6
theorem layer2 : val_main_v60 (F := Ideal) x0 x1 x2 x3 x4 x5 x6 = Gcn.layerAgg (agg64 x1 x2) (sO x1) (sI x2) (val_main_v39 (F := Ideal) x0 x1 x2 x3 x4) x5 x6 := by
  unfold Gcn.layerAgg
  rw [out60, mm53, agg52, scale42]

/-! ## Layer 3: 128 → 128, neighbourhood sum first -/

theorem scale63 : val_main_v63 (F := Ideal) x0 x1 x2 x3 x4 x5 x6 = Gcn.rowScale (val_main_v60 (F := Ideal) x0 x1 x2 x3 x4 x5 x6) (sO x1) := scale128 _ (sO x1)
theorem agg73 : val_main_v73 (F := Ideal) x0 x1 x2 x3 x4 x5 x6 = agg128 x1 x2 (val_main_v63 (F := Ideal) x0 x1 x2 x3 x4 x5 x6) := rfl
theorem mm74 : val_main_v74 (F := Ideal) x0 x1 x2 x3 x4 x5 x6 x7 = Gcn.matMul (val_main_v73 (F := Ideal) x0 x1 x2 x3 x4 x5 x6) x7 := dot_128_128 _ x7
theorem out81 : val_main_v81 (F := Ideal) x0 x1 x2 x3 x4 x5 x6 x7 x8 = Gcn.relu (Gcn.affine (val_main_v74 (F := Ideal) x0 x1 x2 x3 x4 x5 x6 x7) (sI x2) x8) := reluAffine128 _ (sI x2) x8
theorem layer3 : val_main_v81 (F := Ideal) x0 x1 x2 x3 x4 x5 x6 x7 x8 = Gcn.layerAgg (agg128 x1 x2) (sO x1) (sI x2) (val_main_v60 (F := Ideal) x0 x1 x2 x3 x4 x5 x6) x7 x8 := by
  unfold Gcn.layerAgg
  rw [out81, mm74, agg73, scale63]

/-! ## Layer 4: 128 → 64, weights first -/

theorem scale84 : val_main_v84 (F := Ideal) x0 x1 x2 x3 x4 x5 x6 x7 x8 = Gcn.rowScale (val_main_v81 (F := Ideal) x0 x1 x2 x3 x4 x5 x6 x7 x8) (sO x1) := scale128 _ (sO x1)
theorem mm85 : val_main_v85 (F := Ideal) x0 x1 x2 x3 x4 x5 x6 x7 x8 x9 = Gcn.matMul (val_main_v84 (F := Ideal) x0 x1 x2 x3 x4 x5 x6 x7 x8) x9 := dot_128_64 _ x9
theorem agg95 : val_main_v95 (F := Ideal) x0 x1 x2 x3 x4 x5 x6 x7 x8 x9 = agg64 x1 x2 (val_main_v85 (F := Ideal) x0 x1 x2 x3 x4 x5 x6 x7 x8 x9) := rfl
theorem out102 : val_main_v102 (F := Ideal) x0 x1 x2 x3 x4 x5 x6 x7 x8 x9 x10 = Gcn.relu (Gcn.affine (val_main_v95 (F := Ideal) x0 x1 x2 x3 x4 x5 x6 x7 x8 x9) (sI x2) x10) := reluAffine64 _ (sI x2) x10
theorem layer4 : val_main_v102 (F := Ideal) x0 x1 x2 x3 x4 x5 x6 x7 x8 x9 x10 = Gcn.layerProj (agg64 x1 x2) (sO x1) (sI x2) (val_main_v81 (F := Ideal) x0 x1 x2 x3 x4 x5 x6 x7 x8) x9 x10 := by
  unfold Gcn.layerProj
  rw [out102, agg95, mm85, scale84]

/-! ## Layer 5: 64 → 64, neighbourhood sum first -/

theorem scale105 : val_main_v105 (F := Ideal) x0 x1 x2 x3 x4 x5 x6 x7 x8 x9 x10 = Gcn.rowScale (val_main_v102 (F := Ideal) x0 x1 x2 x3 x4 x5 x6 x7 x8 x9 x10) (sO x1) := scale64 _ (sO x1)
theorem agg115 : val_main_v115 (F := Ideal) x0 x1 x2 x3 x4 x5 x6 x7 x8 x9 x10 = agg64 x1 x2 (val_main_v105 (F := Ideal) x0 x1 x2 x3 x4 x5 x6 x7 x8 x9 x10) := rfl
theorem mm116 : val_main_v116 (F := Ideal) x0 x1 x2 x3 x4 x5 x6 x7 x8 x9 x10 x11 = Gcn.matMul (val_main_v115 (F := Ideal) x0 x1 x2 x3 x4 x5 x6 x7 x8 x9 x10) x11 := dot_64_64 _ x11
theorem out123 : val_main_v123 (F := Ideal) x0 x1 x2 x3 x4 x5 x6 x7 x8 x9 x10 x11 x12 = Gcn.relu (Gcn.affine (val_main_v116 (F := Ideal) x0 x1 x2 x3 x4 x5 x6 x7 x8 x9 x10 x11) (sI x2) x12) := reluAffine64 _ (sI x2) x12
theorem layer5 : val_main_v123 (F := Ideal) x0 x1 x2 x3 x4 x5 x6 x7 x8 x9 x10 x11 x12 = Gcn.layerAgg (agg64 x1 x2) (sO x1) (sI x2) (val_main_v102 (F := Ideal) x0 x1 x2 x3 x4 x5 x6 x7 x8 x9 x10) x11 x12 := by
  unfold Gcn.layerAgg
  rw [out123, mm116, agg115, scale105]

/-! ## Layer 6: 64 → 64, neighbourhood sum first -/

theorem scale126 : val_main_v126 (F := Ideal) x0 x1 x2 x3 x4 x5 x6 x7 x8 x9 x10 x11 x12 = Gcn.rowScale (val_main_v123 (F := Ideal) x0 x1 x2 x3 x4 x5 x6 x7 x8 x9 x10 x11 x12) (sO x1) := scale64 _ (sO x1)
theorem agg136 : val_main_v136 (F := Ideal) x0 x1 x2 x3 x4 x5 x6 x7 x8 x9 x10 x11 x12 = agg64 x1 x2 (val_main_v126 (F := Ideal) x0 x1 x2 x3 x4 x5 x6 x7 x8 x9 x10 x11 x12) := rfl
theorem mm137 : val_main_v137 (F := Ideal) x0 x1 x2 x3 x4 x5 x6 x7 x8 x9 x10 x11 x12 x13 = Gcn.matMul (val_main_v136 (F := Ideal) x0 x1 x2 x3 x4 x5 x6 x7 x8 x9 x10 x11 x12) x13 := dot_64_64 _ x13
theorem out144 : val_main_v144 (F := Ideal) x0 x1 x2 x3 x4 x5 x6 x7 x8 x9 x10 x11 x12 x13 x14 = Gcn.relu (Gcn.affine (val_main_v137 (F := Ideal) x0 x1 x2 x3 x4 x5 x6 x7 x8 x9 x10 x11 x12 x13) (sI x2) x14) := reluAffine64 _ (sI x2) x14
theorem layer6 : val_main_v144 (F := Ideal) x0 x1 x2 x3 x4 x5 x6 x7 x8 x9 x10 x11 x12 x13 x14 = Gcn.layerAgg (agg64 x1 x2) (sO x1) (sI x2) (val_main_v123 (F := Ideal) x0 x1 x2 x3 x4 x5 x6 x7 x8 x9 x10 x11 x12) x13 x14 := by
  unfold Gcn.layerAgg
  rw [out144, mm137, agg136, scale126]

/-! ## Layer 7: 64 → 1, weights first, no clamp -/

theorem scale147 : val_main_v147 (F := Ideal) x0 x1 x2 x3 x4 x5 x6 x7 x8 x9 x10 x11 x12 x13 x14 = Gcn.rowScale (val_main_v144 (F := Ideal) x0 x1 x2 x3 x4 x5 x6 x7 x8 x9 x10 x11 x12 x13 x14) (sO x1) := scale64 _ (sO x1)
theorem mm148 : val_main_v148 (F := Ideal) x0 x1 x2 x3 x4 x5 x6 x7 x8 x9 x10 x11 x12 x13 x14 x15 = Gcn.matMul (val_main_v147 (F := Ideal) x0 x1 x2 x3 x4 x5 x6 x7 x8 x9 x10 x11 x12 x13 x14) x15 := dot_64_1 _ x15
theorem agg158 : val_main_v158 (F := Ideal) x0 x1 x2 x3 x4 x5 x6 x7 x8 x9 x10 x11 x12 x13 x14 x15 = agg1 x1 x2 (val_main_v148 (F := Ideal) x0 x1 x2 x3 x4 x5 x6 x7 x8 x9 x10 x11 x12 x13 x14 x15) := rfl
theorem out163 : val_main_v163 (F := Ideal) x0 x1 x2 x3 x4 x5 x6 x7 x8 x9 x10 x11 x12 x13 x14 x15 x16 = Gcn.affine (val_main_v158 (F := Ideal) x0 x1 x2 x3 x4 x5 x6 x7 x8 x9 x10 x11 x12 x13 x14 x15) (sI x2) x16 := affine1 _ (sI x2) x16
theorem layer7 : val_main_v163 (F := Ideal) x0 x1 x2 x3 x4 x5 x6 x7 x8 x9 x10 x11 x12 x13 x14 x15 x16 = Gcn.layerLast (agg1 x1 x2) (sO x1) (sI x2) (val_main_v144 (F := Ideal) x0 x1 x2 x3 x4 x5 x6 x7 x8 x9 x10 x11 x12 x13 x14) x15 x16 := by
  unfold Gcn.layerLast
  rw [out163, agg158, mm148, scale147]

end Cert.ReferenceIdeal.RefNet

end
-- ==== Proof.RefNet.lean ====
/-
  The reference program's result is the seven-layer graph-convolution network `Gcn.net` of its arguments, over the
  reference's own degree factors and neighbourhood sums.
-/
import proofs.«139564_j34376918237986_1_alg».proof.Proof.RefNet2

noncomputable section

namespace Cert.ReferenceIdeal.RefNet

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-- The reference's result, as the network of `Gcn`: layer k's output is layer k + 1's input. -/
theorem result_eq (x0 : (⟨S40000x128, .f32⟩ : BufTy).Contents (Elt Ideal)) (x1 x2 : Idx)
  (x3 : (⟨S128x64, .f32⟩ : BufTy).Contents (Elt Ideal)) (x4 : (⟨S64, .f32⟩ : BufTy).Contents (Elt Ideal))
  (x5 : (⟨S64x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x64, .f32⟩ : BufTy).Contents (Elt Ideal)) (x10 : (⟨S64, .f32⟩ : BufTy).Contents (Elt Ideal))
  (x11 : (⟨S64x64, .f32⟩ : BufTy).Contents (Elt Ideal)) (x12 : (⟨S64, .f32⟩ : BufTy).Contents (Elt Ideal))
  (x13 : (⟨S64x64, .f32⟩ : BufTy).Contents (Elt Ideal)) (x14 : (⟨S64, .f32⟩ : BufTy).Contents (Elt Ideal))
  (x15 : (⟨S64x1, .f32⟩ : BufTy).Contents (Elt Ideal)) (x16 : (⟨S1, .f32⟩ : BufTy).Contents (Elt Ideal)) :
    val_main_v163 (F := Ideal) x0 x1 x2 x3 x4 x5 x6 x7 x8 x9 x10 x11 x12 x13 x14 x15 x16
      = Gcn.net (sO x1) (sI x2) (agg64 x1 x2) (agg128 x1 x2) (agg1 x1 x2) x0 x3 x4 x5 x6 x7 x8 x9 x10 x11 x12 x13 x14 x15 x16 := by
  unfold Gcn.net
  rw [layer7, layer6, layer5, layer4, layer3, layer2, layer1]

end Cert.ReferenceIdeal.RefNet

end
-- ==== Proof.Bridge.lean ====
/-
  One host computation, spelt twice.

  The tiled program and the reference prepare the same things on the host from the two arrays of edge endpoints:
  a degree factor per node (ones scatter-added along an endpoint array into zeros give the count d; the factor is
  1 / sqrt (max d 1) where d > 0 and 0 elsewhere), and the sum of a node's in-neighbours' rows (rows gathered by the
  source endpoints, negative ones wrapped by the node count, scatter-added along the destination endpoints into
  zeros). Each program names its shapes and its records of dimension numbers in its own namespace; the records
  have the same fields and the shapes the same extents, so the two spellings are one term. The scatter-adds and the
  gathers are never opened: the two sides agree argument by argument.
-/
import proofs.«139564_j34376918237986_1_alg».proof.Proof.KernelHost
import proofs.«139564_j34376918237986_1_alg».proof.Proof.KernelDegree
import proofs.«139564_j34376918237986_1_alg».proof.Proof.RefNet1

noncomputable section

namespace Cert.Bridge

open Idealize.ShloMosaic

/-- The out-degree factor: the tiled program's term is the reference's. -/
theorem sO_eq (a : Cert.KernelIdeal.HostVal.Ends) :
    Cert.KernelIdeal.HostVal.degFactor a = Cert.ReferenceIdeal.RefNet.sO a := rfl

/-- The in-degree factor likewise. -/
theorem sI_eq (a : Cert.KernelIdeal.HostVal.Ends) :
    Cert.KernelIdeal.HostVal.degFactor a = Cert.ReferenceIdeal.RefNet.sI a := rfl

/-- The neighbourhood sum at width 64. -/
theorem agg64_eq (a1 a2 : Cert.KernelIdeal.HostVal.Ends) :
    Cert.KernelIdeal.HostVal.agg64 a1 a2 = Cert.ReferenceIdeal.RefNet.agg64 a1 a2 := rfl

/-- The neighbourhood sum at width 128. -/
theorem agg128_eq (a1 a2 : Cert.KernelIdeal.HostVal.Ends) :
    Cert.KernelIdeal.HostVal.agg128 a1 a2 = Cert.ReferenceIdeal.RefNet.agg128 a1 a2 := rfl

/-- The neighbourhood sum at width 1. -/
theorem agg1_eq (a1 a2 : Cert.KernelIdeal.HostVal.Ends) :
    Cert.KernelIdeal.HostVal.agg1 a1 a2 = Cert.ReferenceIdeal.RefNet.agg1 a1 a2 := rfl

end Cert.Bridge

end
-- ==== Proof.Assemble.lean ====
/-
  The two idealized programs end with equal results.

  The kernel program's result buffer ends at the seven-layer network of its arguments (its run, opened pass by pass);
  the reference program's ends at the same network of its own arguments (its run, read stage by stage): the same
  degree factors of the two endpoint arrays, the same neighbourhood sums over them, the same weights and biases.
  From memories that agree on the arguments the two results are therefore one array. Beside it: the three
  programs run to the end with their arguments unchanged, and the idealized kernel is the kernel's own text read over
  the extended reals (no operation was rewritten).
-/
import proofs.«139564_j34376918237986_1_alg».proof.Defs
import proofs.«139564_j34376918237986_1_alg».proof.Proof.Gen.Kernel
import proofs.«139564_j34376918237986_1_alg».proof.Proof.Gen.KernelIdeal
import proofs.«139564_j34376918237986_1_alg».proof.Proof.Gen.ReferenceIdeal
import proofs.«139564_j34376918237986_1_alg».proof.Proof.Gen.Pre_finite_inputs
import proofs.«139564_j34376918237986_1_alg».proof.Proof.Gen.Kernel.Frame
import proofs.«139564_j34376918237986_1_alg».proof.Proof.KernelRun
import proofs.«139564_j34376918237986_1_alg».proof.Proof.KernelChain
import proofs.«139564_j34376918237986_1_alg».proof.Proof.RefRunP
import proofs.«139564_j34376918237986_1_alg».proof.Proof.RefResult
import proofs.«139564_j34376918237986_1_alg».proof.Proof.RefNet
import proofs.«139564_j34376918237986_1_alg».proof.Proof.Bridge

set_option maxRecDepth 16384

noncomputable section

namespace Cert.Proof.Parts

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2) (Cert.ReferenceIdeal.ValueP.run (F := Ideal) m ρ)

/-- The common result: the network of the kernel program's arguments. -/
abbrev common (m : (ℓ : Loc Cert.KernelIdeal.nD Cert.KernelIdeal.τ Cert.KernelIdeal.sig) → Buf (Elt Ideal) ℓ) (c : Dev Cert.KernelIdeal.nD) :
    Gcn.Mat 40000 1 :=
  Gcn.net (Cert.KernelIdeal.Chain.nO m c) (Cert.KernelIdeal.Chain.nI m c) (Cert.KernelIdeal.Chain.nb64 m c)
    (Cert.KernelIdeal.Chain.nb128 m c) (Cert.KernelIdeal.Chain.nb1 m c) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))

set_option maxHeartbeats 4000000 in
theorem algebraic : Cert.algebraic_KernelIdeal_ReferenceIdeal := by
  intro m ρ m' ρ' _ hagree
  refine ⟨fun c => common m c, ?_, ?_⟩
  · exact (θ_run Cert.KernelIdeal.defs _ _).mono
      (fun r h c => ⟨(h c).1.trans (Cert.KernelIdeal.Chain.result m ρ c), (h c).2⟩) (Cert.KernelIdeal.RunVal.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨g0, g1, g2, g3, g4, g5, g6, g7, g8, g9, g10, g11, g12, g13, g14, g15, g16⟩ := hagree c
    rw [Cert.ReferenceIdeal.RefResult.res_eq, Cert.ReferenceIdeal.RefNet.result_eq, g0, g1, g2, g3, g4, g5, g6, g7, g8, g9, g10, g11, g12, g13, g14, g15, g16]
    beta_reduce
    unfold common Cert.KernelIdeal.Chain.nO Cert.KernelIdeal.Chain.nI Cert.KernelIdeal.Chain.nb64 Cert.KernelIdeal.Chain.nb128 Cert.KernelIdeal.Chain.nb1
    rw [Cert.Bridge.sO_eq, Cert.Bridge.sI_eq, Cert.Bridge.agg64_eq, Cert.Bridge.agg128_eq, Cert.Bridge.agg1_eq]

end Cert.Proof.Parts

end
-- ==== Proof.lean ====
/-
  The certificate's claim, assembled.

  Five parts under the programs' stated facts: each of the three programs runs to the end, faulting nowhere, with
  its argument arrays unchanged; the idealized kernel is the kernel's own text read over the extended reals; and the
  idealized kernel and the idealized reference, from memories agreeing on the arguments, end with equal results —
  both compute the same seven graph-convolution layers of the same arguments (Proof/Assemble.lean).
-/
import proofs.«139564_j34376918237986_1_alg».proof.Defs
import proofs.«139564_j34376918237986_1_alg».proof.Proof.Gen.Kernel
import proofs.«139564_j34376918237986_1_alg».proof.Proof.Gen.KernelIdeal
import proofs.«139564_j34376918237986_1_alg».proof.Proof.Gen.ReferenceIdeal
import proofs.«139564_j34376918237986_1_alg».proof.Proof.Gen.Pre_finite_inputs
import proofs.«139564_j34376918237986_1_alg».proof.Proof.Assemble
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_kernel, Parts.frame_kernelIdeal, Parts.frame_referenceIdeal, trivial, Parts.algebraic⟩

end Cert.Proof

end
